-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part6 {F : FTy → Type} [FloatOps F] (main_arg21 : FVec F S2048 .f32) (main_arg22 : FVec F S2048 .f32) (main_v98 : IVec S_ 1) (main_v101 : IVec S2048x2048 1) (main_c_39 : IVec S_ 1) : IVec S_ 1 :=
  let main_v102 : IVec S_ 1 := (fun x v => Host.reduce IntOp.andi x v reducesTo_S2048x2048_S_d0_1 h_S_) main_v101 main_c_39
  let main_v103 : IVec S_ 1 := andi main_v98 main_v102
  let main_v104 : FVec F S2048 .f32 := Host.absf main_arg21
  let main_cst_40 : FVec F S_ .f32 := constant S_ .f32 0x7F800000#32
  let main_v105 : FVec F S2048 .f32 := broadcastInDim S2048 ![] bcast_S_S2048 main_cst_40
  let main_v106 : IVec S2048 1 := cmpf .olt main_v104 main_v105
  let main_c_41 : IVec S_ 1 := constantI S_ 1 1#1
  let main_v107 : IVec S_ 1 := (fun x v => Host.reduce IntOp.andi x v reducesTo_S2048_S_d0 h_S_) main_v106 main_c_41
  let main_v108 : IVec S_ 1 := andi main_v103 main_v107
  let main_v109 : FVec F S2048 .f32 := Host.absf main_arg22
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  main_v113

def fn_part5 {F : FTy → Type} [FloatOps F] (main_arg18 : FVec F S2048x2048 .f32) (main_arg19 : FVec F S2048 .f32) (main_arg20 : FVec F S2048x2048 .f32) (main_arg21 : FVec F S2048 .f32) (main_arg22 : FVec F S2048 .f32) (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  let main_v89 : FVec F S2048x2048 .f32 := Host.absf main_arg18
  let main_cst_34 : FVec F S_ .f32 := constant S_ .f32 0x7F800000#32
  let main_v90 : FVec F S2048x2048 .f32 := broadcastInDim S2048x2048 ![] bcast_S_S2048x2048 main_cst_34
  let main_v91 : IVec S2048x2048 1 := cmpf .olt main_v89 main_v90
  let main_c_35 : IVec S_ 1 := constantI S_ 1 1#1
  let main_v92 : IVec S_ 1 := (fun x v => Host.reduce IntOp.andi x v reducesTo_S2048x2048_S_d0_1 h_S_) main_v91 main_c_35
  let main_v93 : IVec S_ 1 := andi main_v88 main_v92
  let main_v94 : FVec F S2048 .f32 := Host.absf main_arg19
  let main_cst_36 : FVec F S_ .f32 := constant S_ .f32 0x7F800000#32
  let main_v95 : FVec F S2048 .f32 := broadcastInDim S2048 ![] bcast_S_S2048 main_cst_36
  let main_v96 : IVec S2048 1 := cmpf .olt main_v94 main_v95
  let main_c_37 : IVec S_ 1 := constantI S_ 1 1#1
  let main_v97 : IVec S_ 1 := (fun x v => Host.reduce IntOp.andi x v reducesTo_S2048_S_d0 h_S_) main_v96 main_c_37
  let main_v98 : IVec S_ 1 := andi main_v93 main_v97
  let main_v99 : FVec F S2048x2048 .f32 := Host.absf main_arg20
  let main_cst_38 : FVec F S_ .f32 := constant S_ .f32 0x7F800000#32
  let main_v100 : FVec F S2048x2048 .f32 := broadcastInDim S2048x2048 ![] bcast_S_S2048x2048 main_cst_38
  let main_v101 : IVec S2048x2048 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S2048 .f32) (main_arg15 : FVec F S2048x2048 .f32) (main_arg16 : FVec F S2048 .f32) (main_arg17 : FVec F S2048 .f32) (main_arg18 : FVec F S2048x2048 .f32) (main_arg19 : FVec F S2048 .f32) (main_arg20 : FVec F S2048x2048 .f32) (main_arg21 : FVec F S2048 .f32) (main_arg22 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048 .f32) (main_arg18 : FVec F S2048x2048 .f32) (main_arg19 : FVec F S2048 .f32) (main_arg20 : FVec F S2048x2048 .f32) (main_arg21 : FVec F S2048 .f32) (main_arg22 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048 .f32) (main_arg18 : FVec F S2048x2048 .f32) (main_arg19 : FVec F S2048 .f32) (main_arg20 : FVec F S2048x2048 .f32) (main_arg21 : FVec F S2048 .f32) (main_arg22 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S2048 .f32) (main_arg5 : FVec F S2048x2048 .f32) (main_arg6 : FVec F S2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048 .f32) (main_arg18 : FVec F S2048x2048 .f32) (main_arg19 : FVec F S2048 .f32) (main_arg20 : FVec F S2048x2048 .f32) (main_arg21 : FVec F S2048 .f32) (main_arg22 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048 .f32) (main_arg18 : FVec F S2048x2048 .f32) (main_arg19 : FVec F S2048 .f32) (main_arg20 : FVec F S2048x2048 .f32) (main_arg21 : FVec F S2048 .f32) (main_arg22 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S8192x2048 : Shape := ⟨2, ![8192, 2048]⟩
abbrev S2048x8192 : Shape := ⟨2, ![2048, 8192]⟩
abbrev S1x2048 : Shape := ⟨2, ![1, 2048]⟩
abbrev S4x2048 : Shape := ⟨2, ![4, 2048]⟩
abbrev S4x1x2048 : Shape := ⟨3, ![4, 1, 2048]⟩
abbrev S4x4096x2048 : Shape := ⟨3, ![4, 4096, 2048]⟩
abbrev S1024x512 : Shape := ⟨2, ![1024, 512]⟩
abbrev S512x2048 : Shape := ⟨2, ![512, 2048]⟩
abbrev S1x1x2048 : Shape := ⟨3, ![1, 1, 2048]⟩
abbrev S1x1024x2048 : Shape := ⟨3, ![1, 1024, 2048]⟩
abbrev S1024x2048 : Shape := ⟨2, ![1024, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 48
  | .vmem => 35
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048, .f32⟩
  | .hbm, ⟨18, _⟩ => ⟨S2048x2048, .f32⟩
  | .hbm, ⟨19, _⟩ => ⟨S2048, .f32⟩
  | .hbm, ⟨20, _⟩ => ⟨S2048x2048, .f32⟩
  | .hbm, ⟨21, _⟩ => ⟨S2048, .f32⟩
  | .hbm, ⟨22, _⟩ => ⟨S2048, .f32⟩
  | .hbm, ⟨23, _⟩ => ⟨S8192x2048, .f32⟩
  | .hbm, ⟨24, _⟩ => ⟨S2048x8192, .f32⟩
  | .hbm, ⟨25, _⟩ => ⟨S2048x8192, .bf16⟩
  | .hbm, ⟨26, _⟩ => ⟨S8192x2048, .f32⟩
  | .hbm, ⟨27, _⟩ => ⟨S2048x8192, .f32⟩
  | .hbm, ⟨28, _⟩ => ⟨S2048x8192, .bf16⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S4x2048, .f32⟩
  | .hbm, ⟨34, _⟩ => ⟨S4x1x2048, .f32⟩
  | .hbm, ⟨35, _⟩ => ⟨S4096x2048, .bf16⟩
  | .hbm, ⟨36, _⟩ => ⟨S4096x2048, .bf16⟩
  | .hbm, ⟨37, _⟩ => ⟨S4x4096x2048, .bf16⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S4096x2048, .f32⟩
  | .hbm, ⟨47, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1024x2048, .f32⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .bf16⟩
  | .local _ .vmem, ⟨17, _⟩ => ⟨S1x256x2048, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x256x2048, .bf16⟩
  | .local _ .vmem, ⟨21, _⟩ => ⟨S256x2048, .f32⟩
  | .local _ .vmem, ⟨22, _⟩ => ⟨S256x2048, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg14_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem13_1 : DmaSem sig := 31
abbrev cc1_sem14_0 : DmaSem sig := 32
abbrev cc1_sem14_1 : DmaSem sig := 33

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S256x2048 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x2048 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  concatenates_S2048x2048_S2048x2048_S2048x2048_S2048x2048_S8192x2048_d0 : Shape.Concatenates [S2048x2048, S2048x2048, S2048x2048, S2048x2048] S8192x2048 0
  transposes_S8192x2048_S2048x8192_1_0 : S8192x2048.Transposes [1, 0] S2048x8192
  bitsLt_bf16_f32 : FTy.bits .bf16 < FTy.bits .f32
  bcast_S2048_S1x2048_1 : S2048.BroadcastsInDim S1x2048 (![1] : Fin 1 → Fin S1x2048.rank)
  concatenates_S1x2048_S1x2048_S1x2048_S1x2048_S4x2048_d0 : Shape.Concatenates [S1x2048, S1x2048, S1x2048, S1x2048] S4x2048 0
  shapeCasts_S4x2048_S4x1x2048 : S4x2048.ShapeCasts S4x1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S1024x2048 : S1x2048.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  packedbf16_S1x1024x2048_S1x1024x2048_0_0_0 : (Rect.unit (s := S1x1024x2048) ![0, 0, 0] S1x1024x2048.size inb_S1x1024x2048_S1x1024x2048_0_0_0).PackedRows (EltTy.packing .bf16)
  shapeCasts_S2048_S1x2048 : S2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .bf16 = 32 ∨ (Rect.block (s := S4096x2048) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x2048.size a
  hwx0_1 : ∀ i : grid0.Coords, EltTy.bits .bf16 = 32 ∨ (Rect.block (s := S4096x2048) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x8192.size a
  hwx0_2 : ∀ i : grid0.Coords, EltTy.bits .bf16 = 32 ∨ (Rect.block (s := S2048x8192) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x8192.size a
  hwx0_3 : ∀ i : grid0.Coords, EltTy.bits .bf16 = 32 ∨ (Rect.block (s := S2048x8192) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S4x1x2048.size a
  hwx0_4 : ∀ i : grid0.Coords, EltTy.bits .f32 = 32 ∨ (Rect.block (s := S4x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S4x4096x2048.size a
  hwx0_5 : ∀ i : grid0.Coords, EltTy.bits .bf16 = 32 ∨ (Rect.block (s := S4x4096x2048) S1x1024x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S4x4096x2048.size a
  hwx1_0 : ∀ i : grid1.Coords, EltTy.bits .bf16 = 32 ∨ (Rect.block (s := S4x4096x2048) S1x256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x2048.size a ≤ S4x4096x2048.size a
  hwx1_1 : ∀ i : grid1.Coords, EltTy.bits .bf16 = 32 ∨ (Rect.block (s := S4x4096x2048) S1x256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S4x4096x2048.size a
  hwx1_2 : ∀ i : grid1.Coords, EltTy.bits .bf16 = 32 ∨ (Rect.block (s := S4x4096x2048) S1x256x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S4x4096x2048.size a
  hwx1_3 : ∀ i : grid1.Coords, EltTy.bits .bf16 = 32 ∨ (Rect.block (s := S4x4096x2048) S1x256x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S4096x2048.size a
  hwx1_4 : ∀ i : grid1.Coords, EltTy.bits .f32 = 32 ∨ (Rect.block (s := S4096x2048) S256x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .f32 = 32 ∨ (Rect.block (s := S1x2048) S1x2048.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2048.size a ≤ S1x2048.size a
  hwx1_8 : ∀ i : grid1.Coords, EltTy.bits .f32 = 32 ∨ (Rect.block (s := S1x2048) S1x2048.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x2048.size a ≤ S1x2048.size a
  hwx1_9 : ∀ i : grid1.Coords, EltTy.bits .f32 = 32 ∨ (Rect.block (s := S1x2048) S1x2048.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x2048.size a ≤ S1x2048.size a
  hwx1_10 : ∀ i : grid1.Coords, EltTy.bits .f32 = 32 ∨ (Rect.block (s := S1x2048) S1x2048.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x2048.size a ≤ S1x2048.size a
  hwx1_11 : ∀ i : grid1.Coords, EltTy.bits .f32 = 32 ∨ (Rect.block (s := S1x2048) S1x2048.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x2048.size a ≤ S1x2048.size a
  hwx1_12 : ∀ i : grid1.Coords, EltTy.bits .f32 = 32 ∨ (Rect.block (s := S1x2048) S1x2048.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S256x2048.size a ≤ S4096x2048.size a
  hwx1_13 : ∀ i : grid1.Coords, EltTy.bits .f32 = 32 ∨ (Rect.block (s := S4096x2048) S256x2048.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S256x2048.size a ≤ S4096x2048.size a
  hwx1_14 : ∀ i : grid1.Coords, EltTy.bits .f32 = 32 ∨ (Rect.block (s := S4096x2048) S256x2048.size (cc1_transform_14 i) (hinb1_14 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v12) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v14) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S1x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S1x2048.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S1x2048.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v21) S1x2048.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v22) S1x2048.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v23_0) S256x2048.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v23_1) S256x2048.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 201
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S2048x2048, .f32⟩
  | 4 => ⟨S2048, .f32⟩
  | 5 => ⟨S2048x2048, .f32⟩
  | 6 => ⟨S2048, .f32⟩
  | 7 => ⟨S2048, .f32⟩
  | 8 => ⟨S2048x2048, .f32⟩
  | 9 => ⟨S2048, .f32⟩
  | 10 => ⟨S2048x2048, .f32⟩
  | 11 => ⟨S2048, .f32⟩
  | 12 => ⟨S2048, .f32⟩
  | 13 => ⟨S2048x2048, .f32⟩
  | 14 => ⟨S2048, .f32⟩
  | 15 => ⟨S2048x2048, .f32⟩
  | 16 => ⟨S2048, .f32⟩
  | 17 => ⟨S2048, .f32⟩
  | 18 => ⟨S2048x2048, .f32⟩
  | 19 => ⟨S2048, .f32⟩
  | 20 => ⟨S2048x2048, .f32⟩
  | 21 => ⟨S2048, .f32⟩
  | 22 => ⟨S2048, .f32⟩
  | 23 => ⟨S2048x2048, .f32⟩
  | 24 => ⟨S4096x2048, .f32⟩
  | 25 => ⟨S1x2048, .f32⟩
  | 26 => ⟨S4096x2048, .f32⟩
  | 27 => ⟨S4096x2048, .f32⟩
  | 28 => ⟨S2048x2048, .f32⟩
  | 29 => ⟨S4096x2048, .f32⟩
  | 30 => ⟨S4096x2048, .f32⟩
  | 31 => ⟨S2048x2048, .f32⟩
  | 32 => ⟨S4096x2048, .f32⟩
  | 33 => ⟨S1x2048, .f32⟩
  | 34 => ⟨S4096x2048, .f32⟩
  | 35 => ⟨S4096x2048, .f32⟩
  | 36 => ⟨S2048x2048, .f32⟩
  | 37 => ⟨S4096x2048, .f32⟩
  | 38 => ⟨S4096x2048, .f32⟩
  | 39 => ⟨S2048x2048, .f32⟩
  | 40 => ⟨S4096x2048, .f32⟩
  | 41 => ⟨S1x2048, .f32⟩
  | 42 => ⟨S4096x2048, .f32⟩
  | 43 => ⟨S4096x2048, .f32⟩
  | 44 => ⟨S2048x2048, .f32⟩
  | 45 => ⟨S4096x2048, .f32⟩
  | 46 => ⟨S4096x2048, .f32⟩
  | 47 => ⟨S2048x2048, .f32⟩
  | 48 => ⟨S4096x2048, .f32⟩
  | 49 => ⟨S1x2048, .f32⟩
  | 50 => ⟨S4096x2048, .f32⟩
  | 51 => ⟨S4096x2048, .f32⟩
  | 52 => ⟨S2048x2048, .f32⟩
  | 53 => ⟨S4096x2048, .f32⟩
  | 54 => ⟨S4096x2048, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S4096x2048, .f32⟩
  | 62 => ⟨S4096x2048, .f32⟩
  | 63 => ⟨S4096x2048, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S4096x2048, .f32⟩
  | 71 => ⟨S4096x2048, .f32⟩
  | 72 => ⟨S_, .f32⟩
  | 73 => ⟨S4096x1, .f32⟩
  | 74 => ⟨S4096x1, .f32⟩
  | 75 => ⟨S4096x1, .f32⟩
  | 76 => ⟨S4096x2048, .f32⟩
  | 77 => ⟨S4096x2048, .f32⟩
  | 78 => ⟨S1x2048, .f32⟩
  | 79 => ⟨S4096x2048, .f32⟩
  | 80 => ⟨S4096x2048, .f32⟩
  | 81 => ⟨S1x2048, .f32⟩
  | 82 => ⟨S4096x2048, .f32⟩
  | 83 => ⟨S4096x2048, .f32⟩
  | 84 => ⟨S4096x2048, .f32⟩
  | 85 => ⟨S4096x2048, .f32⟩
  | 86 => ⟨S_, .f32⟩
  | 87 => ⟨S4096x2048, .f32⟩
  | 88 => ⟨S4096x2048, .f32⟩
  | 89 => ⟨S_, .f32⟩
  | 90 => ⟨S4096x2048, .f32⟩
  | 91 => ⟨S4096x2048, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S4096x2048, .f32⟩
  | 99 => ⟨S4096x2048, .f32⟩
  | 100 => ⟨S4096x2048, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S4096x2048, .f32⟩
  | 108 => ⟨S4096x2048, .f32⟩
  | 109 => ⟨S_, .f32⟩
  | 110 => ⟨S4096x1, .f32⟩
  | 111 => ⟨S4096x1, .f32⟩
  | 112 => ⟨S4096x1, .f32⟩
  | 113 => ⟨S4096x2048, .f32⟩
  | 114 => ⟨S4096x2048, .f32⟩
  | 115 => ⟨S1x2048, .f32⟩
  | 116 => ⟨S4096x2048, .f32⟩
  | 117 => ⟨S4096x2048, .f32⟩
  | 118 => ⟨S1x2048, .f32⟩
  | 119 => ⟨S4096x2048, .f32⟩
  | 120 => ⟨S4096x2048, .f32⟩
  | 121 => ⟨S4096x2048, .f32⟩
  | 122 => ⟨S4096x2048, .f32⟩
  | 123 => ⟨S_, .f32⟩
  | 124 => ⟨S4096x2048, .f32⟩
  | 125 => ⟨S4096x2048, .f32⟩
  | 126 => ⟨S_, .f32⟩
  | 127 => ⟨S4096x2048, .f32⟩
  | _ => ⟨S4096x2048, .f32⟩

abbrev hbmTy0_1 (i : Nat) : BufTy := match i % 128 with
  | 0 => ⟨S4096x2048, .f32⟩
  | 1 => ⟨S_, .f32⟩
  | 2 => ⟨S4096, .f32⟩
  | 3 => ⟨S4096x1, .f32⟩
  | 4 => ⟨S_, .f32⟩
  | 5 => ⟨S4096x1, .f32⟩
  | 6 => ⟨S4096x1, .f32⟩
  | 7 => ⟨S4096x2048, .f32⟩
  | 8 => ⟨S4096x2048, .f32⟩
  | 9 => ⟨S4096x2048, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S4096x2048, .f32⟩
  | 17 => ⟨S4096x2048, .f32⟩
  | 18 => ⟨S_, .f32⟩
  | 19 => ⟨S4096x1, .f32⟩
  | 20 => ⟨S4096x1, .f32⟩
  | 21 => ⟨S4096x1, .f32⟩
  | 22 => ⟨S4096x2048, .f32⟩
  | 23 => ⟨S4096x2048, .f32⟩
  | 24 => ⟨S1x2048, .f32⟩
  | 25 => ⟨S4096x2048, .f32⟩
  | 26 => ⟨S4096x2048, .f32⟩
  | 27 => ⟨S1x2048, .f32⟩
  | 28 => ⟨S4096x2048, .f32⟩
  | 29 => ⟨S4096x2048, .f32⟩
  | 30 => ⟨S4096x2048, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x2048, .f32⟩
  | 38 => ⟨S4096x2048, .f32⟩
  | 39 => ⟨S4096x2048, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S4096x2048, .f32⟩
  | 47 => ⟨S4096x2048, .f32⟩
  | 48 => ⟨S_, .f32⟩
  | 49 => ⟨S4096x1, .f32⟩
  | 50 => ⟨S4096x1, .f32⟩
  | 51 => ⟨S4096x1, .f32⟩
  | 52 => ⟨S4096x2048, .f32⟩
  | 53 => ⟨S4096x2048, .f32⟩
  | 54 => ⟨S1x2048, .f32⟩
  | 55 => ⟨S4096x2048, .f32⟩
  | 56 => ⟨S4096x2048, .f32⟩
  | 57 => ⟨S1x2048, .f32⟩
  | 58 => ⟨S4096x2048, .f32⟩
  | 59 => ⟨S4096x2048, .f32⟩
  | 60 => ⟨S4096x2048, .f32⟩
  | 61 => ⟨S4096x2048, .f32⟩
  | 62 => ⟨S_, .f32⟩
  | 63 => ⟨S4096x2048, .f32⟩
  | 64 => ⟨S4096x2048, .f32⟩
  | 65 => ⟨S_, .f32⟩
  | 66 => ⟨S4096x2048, .f32⟩
  | 67 => ⟨S4096x2048, .f32⟩
  | 68 => ⟨S4096x2048, .f32⟩
  | 69 => ⟨S4096x2048, .f32⟩
  | 70 => ⟨S4096x2048, .f32⟩
  | 71 => ⟨S4096x2048, .f32⟩
  | 72 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst : Ref sig .tc := ⟨.hbm, 55, rfl⟩
abbrev main_v32 : Ref sig .tc := ⟨.hbm, 56, rfl⟩
abbrev main_v33 : Ref sig .tc := ⟨.hbm, 57, rfl⟩
abbrev main_cst_0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_1 : Ref sig .tc := ⟨.hbm, 64, rfl⟩
abbrev main_v39 : Ref sig .tc := ⟨.hbm, 65, rfl⟩
abbrev main_v40 : Ref sig .tc := ⟨.hbm, 66, rfl⟩
abbrev main_cst_2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_4 : Ref sig .tc := ⟨.hbm, 86, rfl⟩
abbrev main_v58 : Ref sig .tc := ⟨.hbm, 87, rfl⟩
abbrev main_v59 : Ref sig .tc := ⟨.hbm, 88, rfl⟩
abbrev main_cst_5 : Ref sig .tc := ⟨.hbm, 89, rfl⟩
abbrev main_v60 : Ref sig .tc := ⟨.hbm, 90, rfl⟩
abbrev main_v61 : Ref sig .tc := ⟨.hbm, 91, rfl⟩
abbrev main_cst_6 : Ref sig .tc := ⟨.hbm, 92, rfl⟩
abbrev main_v62 : Ref sig .tc := ⟨.hbm, 93, rfl⟩
abbrev main_v63 : Ref sig .tc := ⟨.hbm, 94, rfl⟩
abbrev main_cst_7 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_8 : Ref sig .tc := ⟨.hbm, 101, rfl⟩
abbrev main_v69 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_10 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_11 : Ref sig .tc := ⟨.hbm, 123, rfl⟩
abbrev main_v88 : Ref sig .tc := ⟨.hbm, 124, rfl⟩
abbrev main_v89 : Ref sig .tc := ⟨.hbm, 125, rfl⟩
abbrev main_cst_12 : Ref sig .tc := ⟨.hbm, 126, rfl⟩
abbrev main_v90 : Ref sig .tc := ⟨.hbm, 127, rfl⟩
abbrev main_v91 : Ref sig .tc := ⟨.hbm, 128, rfl⟩
abbrev main_cst_13 : Ref sig .tc := ⟨.hbm, 129, rfl⟩
abbrev main_v92 : Ref sig .tc := ⟨.hbm, 130, rfl⟩
abbrev main_v93 : Ref sig .tc := ⟨.hbm, 131, rfl⟩
abbrev main_cst_14 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_15 : Ref sig .tc := ⟨.hbm, 138, rfl⟩
abbrev main_v99 : Ref sig .tc := ⟨.hbm, 139, rfl⟩
abbrev main_v100 : Ref sig .tc := ⟨.hbm, 140, rfl⟩
abbrev main_cst_16 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_17 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_18 : Ref sig .tc := ⟨.hbm, 159, rfl⟩
abbrev main_v117 : Ref sig .tc := ⟨.hbm, 160, rfl⟩
abbrev main_v118 : Ref sig .tc := ⟨.hbm, 161, rfl⟩
abbrev main_cst_19 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_20 : Ref sig .tc := ⟨.hbm, 168, rfl⟩
abbrev main_v124 : Ref sig .tc := ⟨.hbm, 169, rfl⟩
abbrev main_v125 : Ref sig .tc := ⟨.hbm, 170, rfl⟩
abbrev main_cst_21 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_22 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_23 : Ref sig .tc := ⟨.hbm, 190, rfl⟩
abbrev main_v143 : Ref sig .tc := ⟨.hbm, 191, rfl⟩
abbrev main_v144 : Ref sig .tc := ⟨.hbm, 192, rfl⟩
abbrev main_cst_24 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Bits.Stage1Runs.lean ====
/- Region 0 (the blocked-matmul stage): what its per-case body runs share — the two branch
   conditions in closed form over the grid, where the output window is idle, the staging and
   scratch memrefs, and the scoped buffers split into the scratch and the rest. -/
import proofs.«160278_j67095979098853_2_alg».proof.Proof.Gen.Kernel.Launch
import proofs.«160278_j67095979098853_2_alg».proof.Proof.Gen.Kernel.Skeleton
import proofs.«160278_j67095979098853_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the first conditional (the reduction's first step, `kt = 0`), from the grid coordinates. -/
abbrev cond0_0 (i : grid0.Coords) : Prop := (Scalar.cmpi .ne (Scalar.extui (Scalar.cmpi .eq (BitVec.ofNat 32 (i 2).val) 0#32)) 0#32) = 1#1
/-- It holds exactly at the points whose position is a multiple of 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the second conditional (the reduction's last step, `kt = 3`). -/
abbrev cond0_1 (i : grid0.Coords) : Prop := k0_cond2 i = 1#1
/-- It holds exactly at the points whose position is 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- At the reduction's first step the output window is idle: nothing is stored into it. -/
theorem idleAt0_5_A : ∀ t : Fin cfg0.N, cond0_0 (grid0.coords t) → ¬cond0_1 (grid0.coords t) → cfg0.idle 5 (grid0.coords t) = true := by decide +kernel
/-- and its block is not written back there. -/
theorem noFlush0_5_A : ∀ t : Fin cfg0.N, cond0_0 (grid0.coords t) → ¬cond0_1 (grid0.coords t) → (cfg0.win 5).flush t = false := by decide +kernel
/-- At the reduction's middle steps the output window is idle: nothing is stored into it. -/
theorem idleAt0_5_B : ∀ t : Fin cfg0.N, ¬cond0_0 (grid0.coords t) → ¬cond0_1 (grid0.coords t) → cfg0.idle 5 (grid0.coords t) = true := by decide +kernel
/-- and its block is not written back there. -/
theorem noFlush0_5_B : ∀ t : Fin cfg0.N, ¬cond0_0 (grid0.coords t) → ¬cond0_1 (grid0.coords t) → (cfg0.win 5).flush t = false := by decide +kernel
/-- At the reduction's last step the output window is live: the body stores its whole block. -/
theorem liveAt0_5_C : ∀ t : Fin cfg0.N, ¬cond0_0 (grid0.coords t) → cond0_1 (grid0.coords t) → cfg0.idle 5 (grid0.coords t) = false := by decide +kernel

/-! ## The memrefs the body is called with -/

/-- One staging buffer of the output window, through which its contents are stated. -/
abbrev VO0_5 : View sig .tc .vmem S1x1024x2048 .bf16 := (Memref.whole cc0_stg5_0 : Memref sig .tc .vmem S1x1024x2048 .bf16).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x2048 .bf16 := win0_5.stage (cfg0.slots t 5)
abbrev hs0_5 (t : Fin cfg0.N) : (ms0_5 t).IsWhole := hstage0_5 ((cfg0.slots t 5).cast nbuf0_5)
/-- The scratch accumulator: a whole scoped buffer of the kernel's own, carried between grid points. -/
abbrev scM0_0 : Memref sig .tc .vmem S1024x2048 .f32 := Memref.whole cc0_scratch0
/-- The accumulator as a view: what it holds is stated through it. -/
abbrev VS0_0 : View sig .tc .vmem S1024x2048 .f32 := scM0_0.view

/-! ## The scoped buffers no window of this region stages -/

/-- Those other than the accumulator (the later region's staging buffers), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg11_0), ((c : Thread nD τ).loc cc1_stg11_0) ↦{fullShare} f)
    ∗ (∃ f : Buf (Elt F) ((c : Thread nD τ).loc cc1_stg12_0), ((c : Thread nD τ).loc cc1_stg12_0) ↦{fullShare} f)
    ∗ (∃ f : Buf (Elt F) ((c : Thread nD τ).loc cc1_stg13_0), ((c : Thread nD τ).loc cc1_stg13_0) ↦{fullShare} f)
    ∗ (∃ f : Buf (Elt F) ((c : Thread nD τ).loc cc1_stg13_1), ((c : Thread nD τ).loc cc1_stg13_1) ↦{fullShare} f)
    ∗ (∃ f : Buf (Elt F) ((c : Thread nD τ).loc cc1_stg14_0), ((c : Thread nD τ).loc cc1_stg14_0) ↦{fullShare} f)
    ∗ (∃ f : Buf (Elt F) ((c : Thread nD τ).loc cc1_stg14_1), ((c : Thread nD τ).loc cc1_stg14_1) ↦{fullShare} f))

/-- The scoped buffers no window stages are the accumulator at some contents and the rest. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ rest0 c) := by
  rw [scopedRest0_eq]; unfold rest0; simp only [scM0_0, owns_whole]; try rfl

end Cert.Kernel.Stage1

end
-- ==== Proof.Bits.Stage1RunA.lean ====
/- Region 0, the first step of the reduction: the whole-body run of the kernel by symbolic execution over its skeleton; the
   pieces each buffer ends with are the witness the run finds. -/
import proofs.«160278_j67095979098853_2_alg».proof.Proof.Bits.Stage1Runs

set_option maxRecDepth 16384

noncomputable section

namespace Cert.Kernel.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- THE FIRST STEP of the reduction (the first conditional taken, the second not). On whole staging
    memrefs — the inputs' at their contents, the output's at contents handed back untouched, the
    accumulator at anything (it is zeroed before it is read) — the body runs to the continuation holding
    the inputs' as they were and the accumulator with its pieces written. -/
noncomputable def kernelRun0_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) :
    Σ' (L5 : List (View.Piece (Elt F) S1x1024x2048 .bf16)), { LS0 : List (View.Piece (Elt F) S1024x2048 .f32) //
      ∀ (xi5 : Vec F S1x1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__stage1_kernel i arg3 harg3 arg4 harg4 arg5 harg5 arg6 harg6 arg7 harg7 arg8 harg8 arg9 harg9) K } := by
  refine ⟨[], ?_, fun xi5 E K => ?run⟩
  case run =>
    rw [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Stage1

end
-- ==== Proof.Bits.Stage1RunB.lean ====
/- Region 0, a middle step of the reduction: the whole-body run of the kernel by symbolic execution over its skeleton; the
   pieces each buffer ends with are the witness the run finds. -/
import proofs.«160278_j67095979098853_2_alg».proof.Proof.Bits.Stage1Runs

set_option maxRecDepth 16384

noncomputable section

namespace Cert.Kernel.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- A MIDDLE STEP of the reduction (neither conditional taken). On whole staging memrefs — the inputs'
    at their contents, the output's at contents handed back untouched, the accumulator at what the point
    before left — the body runs to the continuation holding the inputs' as they were and the accumulator
    with its pieces written. -/
noncomputable def kernelRun0_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) :
    Σ' (L5 : List (View.Piece (Elt F) S1x1024x2048 .bf16)), { LS0 : List (View.Piece (Elt F) S1024x2048 .f32) //
      ∀ (xi5 : Vec F S1x1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__stage1_kernel i arg3 harg3 arg4 harg4 arg5 harg5 arg6 harg6 arg7 harg7 arg8 harg8 arg9 harg9) K } := by
  refine ⟨[], ?_, fun xi5 E K => ?run⟩
  case run =>
    rw [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Stage1

end
-- ==== Proof.Bits.Stage1RunC.lean ====
/- Region 0, the last step of the reduction: the whole-body run of the kernel by symbolic execution over its skeleton; the
   pieces each buffer ends with are the witness the run finds. -/
import proofs.«160278_j67095979098853_2_alg».proof.Proof.Bits.Stage1Runs

set_option maxRecDepth 16384

noncomputable section

namespace Cert.Kernel.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- THE LAST STEP of the reduction (the first conditional not taken, the second taken). On whole staging
    memrefs — the inputs' at their contents, the output's at anything, the accumulator at what the point
    before left — the body runs to the continuation holding the inputs' as they were, the output's with its
    pieces written and the accumulator with its pieces written. -/
noncomputable def kernelRun0_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) :
    Σ' (L5 : List (View.Piece (Elt F) S1x1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__stage1_kernel i arg3 harg3 arg4 harg4 arg5 harg5 arg6 harg6 arg7 harg7 arg8 harg8 arg9 harg9) K } := by
  refine ⟨?_, ?_, fun E K => ?run⟩
  case run =>
    rw [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Stage1

end
-- ==== Proof.Bits.Stage1.lean ====
/- Region 0 (the blocked-matmul stage) at the buffer contents `V` the region is entered with: each window's block at
   a point, what each case of the body leaves in the output's staging buffer and in the accumulator, these point by
   point, the pipeline's proof data, the body obligation, and the invariant's entry and exit. -/
import proofs.«160278_j67095979098853_2_alg».proof.Proof.Bits.Stage1RunA
import proofs.«160278_j67095979098853_2_alg».proof.Proof.Bits.Stage1RunB
import proofs.«160278_j67095979098853_2_alg».proof.Proof.Bits.Stage1RunC

set_option maxRecDepth 16384

noncomputable section

namespace Cert.Kernel.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's staging buffer and in the accumulator -/

/-- Case A stores nothing into the output window (idle at its points and not written back there): no pieces — a
    placeholder that nothing consults. -/
def out0_A_5 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) : Vec F S1x1024x2048 .bf16 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- Case A's pieces for the accumulator cover it (each store is of the whole buffer). -/
theorem scover0_A_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (y : S1024x2048.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S1024x2048.size (by sl_kernel_rfl) y

/-- What case A leaves in the accumulator: its pieces read back. -/
def sout0_A_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) : Vec F S1024x2048 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- Case B stores nothing into the output window (idle at its points and not written back there): no pieces — a
    placeholder that nothing consults. -/
def out0_B_5 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) : Vec F S1x1024x2048 .bf16 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-- Case B's pieces for the accumulator cover it (each store is of the whole buffer). -/
theorem scover0_B_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) (y : S1024x2048.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S1024x2048.size (by sl_kernel_rfl) y

/-- What case B leaves in the accumulator: its pieces read back. -/
def sout0_B_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) : Vec F S1024x2048 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- Case C's pieces for the output window tile its block (one store of the whole block), so they cover it. -/
theorem cover0_C_5 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) (y : S1x1024x2048.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1x1024x2048.size (by sl_kernel_rfl) y

/-- What case C leaves in the output window's staging buffer: its pieces read back. -/
def out0_C_5 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) : Vec F S1x1024x2048 .bf16 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

/-- Case C's pieces for the accumulator cover it (each store is of the whole buffer). -/
theorem scover0_C_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) (y : S1024x2048.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S1024x2048.size (by sl_kernel_rfl) y

/-- What case C leaves in the accumulator: its pieces read back. -/
def sout0_C_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) : Vec F S1024x2048 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-! ## What the output's staging buffer and the accumulator hold after each point -/

/-- THE ACCUMULATION. What the output window's staging buffer and the accumulator hold after the body at position
    `n` (a pair: the output, then the accumulator): the case the closed forms select at `n`, run at the point's
    memrefs and input blocks, the accumulator (where the case reads it) at what this leaves at `n - 1`. -/
def outsAt0 (c : Dev nD) : (n : ℕ) → n < cfg0.N → Vec F S1x1024x2048 .bf16 × Vec F S1024x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- `outsAt0` at a point of case B: that case's contents, over what the point before left in the accumulator. -/
theorem outsAt0_B (c : Dev nD) (t : Fin cfg0.N) (h0 : ¬t.val % 4 = 0) (h1 : ¬t.val % 4 = 3) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the accumulator. -/
theorem outsAt0_C (c : Dev nD) (t : Fin cfg0.N) (h0 : ¬t.val % 4 = 0) (h1 : t.val % 4 = 3) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the generator register at some state and the
    scoped buffers no window stages at some contents; afterwards the register, the accumulator at what the point
    before left in it, and the other scoped buffers at some contents. -/
def PhiS (c : Dev nD) : (n : ℕ) → n ≤ cfg0.N → sProp 𝕄
  | 0, _ => iprop((∃ r, prngReg c r) ∗ Pipeline.scopedRest spec0 c)
  | n + 1, hn => iprop((∃ r, prngReg c r) ∗ owns (c : Thread nD τ) scM0_0 fullShare ((outsAt0 V c n hn).2) ∗ rest0 c)

theorem PhiS_zero (c : Dev nD) (n : ℕ) (h : n ≤ cfg0.N) (hz : n = 0) :
    PhiS V c n h = iprop((∃ r, prngReg c r) ∗ Pipeline.scopedRest spec0 c) := by
  subst hz; rfl

/-- After point `n` (before point `n + 1`): the accumulator at that point's contents. -/
theorem PhiS_succ (c : Dev nD) (n : ℕ) (hn : n < cfg0.N) :
    PhiS V c (n + 1) hn = iprop((∃ r, prngReg c r) ∗ owns (c : Thread nD τ) scM0_0 fullShare ((outsAt0 V c n hn).2) ∗ rest0 c) := rfl

/-- Before a point that is not the first: the accumulator at what the point before left. -/
theorem PhiS_pos (c : Dev nD) (n : ℕ) (h : n ≤ cfg0.N) (hz : n ≠ 0) :
    PhiS V c n h = iprop((∃ r, prngReg c r) ∗ owns (c : Thread nD τ) scM0_0 fullShare ((outsAt0 V c (n - 1) (by omega)).2) ∗ rest0 c) := by
  cases n with
  | zero => exact absurd rfl hz
  | succ n => rfl

/-! ## The pipeline's proof data -/

/-- The proof data of pipeline 0 on core `c`: the arrays as the region finds them (`V`); after the body at point
    `t` each input's buffer at its block and the output's at `outsAt0`; the invariant `PhiS`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the closed forms say which case the point is in,
    so that case's run applies; the invariant hands the body the accumulator at what the point before left (at
    anything at the first point) and takes it back at this point's contents; the other scoped buffers, the
    generator register and the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, scopedRest0_split]
        iintro ⟨⟨Hg, HS0, Hr⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hg HS0 Hr]
        · isplitl [Hg]; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨Hg, HS0, Hr⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Hg HS0 Hr]
        · isplitl [Hg]; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      have hz : t.val ≠ 0 := by omega
      · rw [PhiS_castSucc V c t, PhiS_pos V c _ _ hz]
        iintro ⟨⟨Hg, HS0, Hr⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Hg HS0 Hr]
        · isplitl [Hg]; · iexact Hg
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      have hz : t.val ≠ 0 := by omega
      · rw [PhiS_castSucc V c t, PhiS_pos V c _ _ hz]
        iintro ⟨⟨Hg, HS0, Hr⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hg HS0 Hr]
        · isplitl [Hg]; · iexact Hg
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the invariant -/

/-- What the region is entered with — the generator register and the scoped buffers no window stages — is the
    invariant before the first point. -/
theorem hin0 (c : Dev nD) : (iprop((∃ r, prngReg c r) ∗ Pipeline.scopedRest spec0 c) : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the same back: the accumulator's named contents are forgotten. -/
theorem Phi_out0 (c : Dev nD) (t : Fin (cfg0.N + 1)) (ht : t.val ≠ 0) :
    (dat0 V c).Φ t ⊢ (iprop((∃ r, prngReg c r) ∗ Pipeline.scopedRest spec0 c) : sProp 𝕄) := by
  rw [show (dat0 V c).Φ t = PhiS V c t.val (Nat.le_of_lt_succ t.isLt) from rfl, PhiS_pos V c _ _ ht, scopedRest0_split]
  iintro ⟨Hg, HS0, Hr⟩
  isplitl [Hg]; · iexact Hg
  isplitl [HS0]
  · iexists _; iexact HS0
  iexact Hr

/-- The same after the last point. -/
theorem hout0 (c : Dev nD) : (dat0 V c).Φ (Fin.last cfg0.N) ⊢ (iprop((∃ r, prngReg c r) ∗ Pipeline.scopedRest spec0 c) : sProp 𝕄) :=
  Phi_out0 V c _ (by rw [Fin.val_last]; have : cfg0.N = 64 := N_0; omega)

end Cert.Kernel.Stage1

end
-- ==== Proof.Bits.Stage2Body.lean ====
/- The second stage's kernel body (four row normalisations, the gate nonlinearities and the cell
   update) as a separation-logic triple over its fifteen staging buffers: the thirteen inputs are
   read through whole-buffer rectangles and left as found, and each of the two outputs ends at the
   payload of its one store, a closed function of the thirteen input blocks. -/
import proofs.«160278_j67095979098853_2_alg».proof.Proof.Gen.Kernel.Launch
import proofs.«160278_j67095979098853_2_alg».proof.Proof.Gen.Kernel.Skeleton
import proofs.«160278_j67095979098853_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is through the whole buffer -/

abbrev rA : Rect S1x256x2048 := Rect.unit (s := S1x256x2048) ![0, 0, 0] S1x256x2048.size inb_S1x256x2048_S1x256x2048_0_0_0
abbrev rB : Rect S256x2048 := Rect.unit (s := S256x2048) ![0, 0] S256x2048.size inb_S256x2048_S256x2048_0_0
abbrev rC : Rect S1x2048 := Rect.unit (s := S1x2048) ![0, 0] S1x2048.size inb_S1x2048_S1x2048_0_0

/-! ## What the body leaves in each output buffer -/

/-- The new hidden state's staging buffer after the body, from the thirteen input blocks (the four
    pre-activation blocks, the old cell block, the eight gain and bias rows): its one store. -/
def out1_13 (x0 : Vec F S1x256x2048 .bf16) (x1 : Vec F S1x256x2048 .bf16) (x2 : Vec F S1x256x2048 .bf16) (x3 : Vec F S1x256x2048 .bf16) (x4 : Vec F S256x2048 .f32) (x5 : Vec F S1x2048 .f32) (x6 : Vec F S1x2048 .f32) (x7 : Vec F S1x2048 .f32) (x8 : Vec F S1x2048 .f32) (x9 : Vec F S1x2048 .f32) (x10 : Vec F S1x2048 .f32) (x11 : Vec F S1x2048 .f32) (x12 : Vec F S1x2048 .f32) : Vec F S256x2048 .f32 :=
  View.canon [⟨rB, (k1_pay8 (k1_pay1 (View.ld x0 rA) (View.ld x5 rC) (View.ld x6 rC)) (k1_pay5 (k1_pay2 (View.ld x1 rA)) (k1_pay3 (View.ld x1 rA)) (k1_pay4 (View.ld x1 rA)) (View.ld x7 rC) (View.ld x8 rC)) (k1_pay6 (View.ld x2 rA) (View.ld x9 rC)) (View.ld x10 rC) (View.ld x3 rA) (View.ld x11 rC) (View.ld x12 rC) (View.ld x4 rB))⟩]

/-- The new cell state's staging buffer after the body: its one store. -/
def out1_14 (x0 : Vec F S1x256x2048 .bf16) (x1 : Vec F S1x256x2048 .bf16) (x2 : Vec F S1x256x2048 .bf16) (x3 : Vec F S1x256x2048 .bf16) (x4 : Vec F S256x2048 .f32) (x5 : Vec F S1x2048 .f32) (x6 : Vec F S1x2048 .f32) (x7 : Vec F S1x2048 .f32) (x8 : Vec F S1x2048 .f32) (x9 : Vec F S1x2048 .f32) (x10 : Vec F S1x2048 .f32) (x11 : Vec F S1x2048 .f32) (x12 : Vec F S1x2048 .f32) : Vec F S256x2048 .f32 :=
  View.canon [⟨rB, (k1_pay7 (k1_pay1 (View.ld x0 rA) (View.ld x5 rC) (View.ld x6 rC)) (k1_pay5 (k1_pay2 (View.ld x1 rA)) (k1_pay3 (View.ld x1 rA)) (k1_pay4 (View.ld x1 rA)) (View.ld x7 rC) (View.ld x8 rC)) (k1_pay6 (View.ld x2 rA) (View.ld x9 rC)) (View.ld x10 rC) (View.ld x4 rB))⟩]

/-- A whole-buffer store covers the buffer. -/
theorem cover1_13 (p0 : Vec F S256x2048 .f32) (y : S256x2048.Idx) :
    ∃ pc ∈ ([⟨rB, p0⟩] : List (View.Piece (Elt F) S256x2048 .f32)), y ∈ pc.1.set :=
  View.cover_of_tiled [⟨rB, p0⟩] S256x2048.size (by rfl) y

theorem cover1_14 (p0 : Vec F S256x2048 .f32) (y : S256x2048.Idx) :
    ∃ pc ∈ ([⟨rB, p0⟩] : List (View.Piece (Elt F) S256x2048 .f32)), y ∈ pc.1.set :=
  View.cover_of_tiled [⟨rB, p0⟩] S256x2048.size (by rfl) y

/-! ## The body's triple -/

set_option maxHeartbeats 4000000 in
/-- The kernel body on whole staging memrefs, the inputs' at read contents and the outputs' at
    anything, runs to the continuation holding the inputs' as they were and each output's at
    its store's payload over the inputs. -/
theorem sound_kernel1 (c : Dev nD) (E : Set ℕ) (i : grid1.Coords) (arg1 : Memref sig .tc .vmem S1x256x2048 .bf16) (harg1 : arg1.IsWhole) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S256x2048 .f32) (harg14 : arg14.IsWhole) (arg15 : Memref sig .tc .vmem S256x2048 .f32) (harg15 : arg15.IsWhole)
    (x0 : Vec F S1x256x2048 .bf16) (x1 : Vec F S1x256x2048 .bf16) (x2 : Vec F S1x256x2048 .bf16) (x3 : Vec F S1x256x2048 .bf16) (x4 : Vec F S256x2048 .f32) (x5 : Vec F S1x2048 .f32) (x6 : Vec F S1x2048 .f32) (x7 : Vec F S1x2048 .f32) (x8 : Vec F S1x2048 .f32) (x9 : Vec F S1x2048 .f32) (x10 : Vec F S1x2048 .f32) (x11 : Vec F S1x2048 .f32) (x12 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 x0 x1 x2 x3 x4 x5 x6 x7 x8 x9 x10 x11 x12) ∗ owns (c : Thread nD τ) arg15 fullShare (out1_14 x0 x1 x2 x3 x4 x5 x6 x7 x8 x9 x10 x11 x12)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__stage2_kernel_eq_skeleton]; unfold cc1__stage2_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover1_13 _)
  iexists _; isplitr
  swap; · iexact H14
  ipureintro
  try dsimp only
  exact View.read_writes_eq_canon _ _ _ (cover1_14 _)

end Cert.Kernel.Stage2

end
-- ==== Proof.Bits.Stage2.lean ====
/- The second stage as a pipeline on one core: each window's block at a grid point, the proof data
   (the arrays as the region finds them, what the body leaves in every staging buffer, the four
   windows on the shared pre-activation array each at a quarter of its share) and the body obligation
   at every point. -/
import proofs.«160278_j67095979098853_2_alg».proof.Proof.Bits.Stage2Body

set_option maxRecDepth 16384

noncomputable section

namespace Cert.Kernel.Stage2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched,
    the block index has not moved), for any proof data on the entry arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched,
    the block index has not moved), for any proof data on the entry arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched,
    the block index has not moved), for any proof data on the entry arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched,
    the block index has not moved), for any proof data on the entry arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched,
    the block index has not moved), for any proof data on the entry arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched,
    the block index has not moved), for any proof data on the entry arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched,
    the block index has not moved), for any proof data on the entry arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched,
    the block index has not moved), for any proof data on the entry arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not (unfetched,
    the block index has not moved), for any proof data on the entry arrays whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not (unfetched,
    the block index has not moved), for any proof data on the entry arrays whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not (unfetched,
    the block index has not moved), for any proof data on the entry arrays whose body leaves the block in place. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, fetched there or not (unfetched,
    the block index has not moved), for any proof data on the entry arrays whose body leaves the block in place. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's current staging buffer holds its block at every point, fetched there or not (unfetched,
    the block index has not moved), for any proof data on the entry arrays whose body leaves the block in place. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the second stage on core `c`: the arrays as the region finds them; after the body at point `t`
    each input's buffer at its block and each output's at its store's payload over the input blocks; the invariant
    the scoped rest and the generator register, untouched; nothing owed; the four windows on the pre-activation
    array at the four quarters of its share, every other input at the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The shares of the four windows on the shared array, and of the others. -/
theorem q1_0 (c : Dev nD) : (dat1 V c).q 0 = fullShare.left.left := by dsimp only [dat1]
theorem q1_1 (c : Dev nD) : (dat1 V c).q 1 = fullShare.left.right := by dsimp only [dat1]
theorem q1_2 (c : Dev nD) : (dat1 V c).q 2 = fullShare.right.left := by dsimp only [dat1]
theorem q1_3 (c : Dev nD) : (dat1 V c).q 3 = fullShare.right.right := by dsimp only [dat1]
theorem q1_4 (c : Dev nD) : (dat1 V c).q 4 = fullShare := by dsimp only [dat1]
theorem q1_5 (c : Dev nD) : (dat1 V c).q 5 = fullShare := by dsimp only [dat1]
theorem q1_6 (c : Dev nD) : (dat1 V c).q 6 = fullShare := by dsimp only [dat1]
theorem q1_7 (c : Dev nD) : (dat1 V c).q 7 = fullShare := by dsimp only [dat1]
theorem q1_8 (c : Dev nD) : (dat1 V c).q 8 = fullShare := by dsimp only [dat1]
theorem q1_9 (c : Dev nD) : (dat1 V c).q 9 = fullShare := by dsimp only [dat1]
theorem q1_10 (c : Dev nD) : (dat1 V c).q 10 = fullShare := by dsimp only [dat1]
theorem q1_11 (c : Dev nD) : (dat1 V c).q 11 = fullShare := by dsimp only [dat1]
theorem q1_12 (c : Dev nD) : (dat1 V c).q 12 = fullShare := by dsimp only [dat1]
theorem q1_13 (c : Dev nD) : (dat1 V c).q 13 = fullShare := by dsimp only [dat1]
theorem q1_14 (c : Dev nD) : (dat1 V c).q 14 = fullShare := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at any point: the inputs' memrefs hold their blocks, so the body's triple applies; the invariant and
    the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Stage2

end
-- ==== Proof.Bits.AsmDefs.lean ====
/-
  The buffers' contents between the items of @main.

  After the first stretch of host operations: the launch contents pushed through them.  After the first region: the
  same with the region's result array replaced by what its write-backs leave.  After the second stretch: that pushed
  through its reshapes.  After the second region: the two result arrays replaced by what the second region's
  write-backs leave.
-/
import proofs.«160278_j67095979098853_2_alg».proof.Proof.Bits.Stage1
import proofs.«160278_j67095979098853_2_alg».proof.Proof.Bits.Stage2
import proofs.«160278_j67095979098853_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- The first region's entry contents, read at the TensorCore's references. -/
abbrev Vr1 : (c : Dev nD) → (b : Ref sig .tc) → Buf (Elt F) ((c : Thread nD τ).loc b) := fun c b => V1 m c b

/-- What the first region leaves in its result array. -/
def X2 (c : Dev nD) : Buf (Elt F) ((c : Thread nD τ).loc main_v14) := (Stage1.dat0 (Vr1 m) c).arrAt 5 cfg0.N

/-- The buffers after the first region. -/
def W2 (c : Dev nD) : Valuation τ sig (Elt F) := Function.update (V1 m c) main_v14 (X2 m c)

/-- The second region's entry contents, read at the TensorCore's references. -/
abbrev Vr3 : (c : Dev nD) → (b : Ref sig .tc) → Buf (Elt F) ((c : Thread nD τ).loc b) :=
  fun c b => StableHlo.after hostOps1 (W2 m c) b

/-- What the second region leaves in its two result arrays. -/
def X40 (c : Dev nD) : Buf (Elt F) ((c : Thread nD τ).loc main_v23_0) := (Stage2.dat1 (Vr3 m) c).arrAt 13 cfg1.N
def X41 (c : Dev nD) : Buf (Elt F) ((c : Thread nD τ).loc main_v23_1) := (Stage2.dat1 (Vr3 m) c).arrAt 14 cfg1.N

/-- The buffers at the end. -/
def W4 (c : Dev nD) : Valuation τ sig (Elt F) :=
  Function.update (Function.update (StableHlo.after hostOps1 (W2 m c)) main_v23_0 (X40 m c)) main_v23_1 (X41 m c)

/-- What the regions leave, as the conditional run reads it: the valuation after the region at the reference asked. -/
def outs : Outs (F := F) := fun J r c => if J = 2 then W2 m c r else W4 m c r

theorem V2_eq (c : Dev nD) : V2 m (outs m) c = W2 m c := by
  show Function.update (V1 m c) main_v14 (if (2 : ℕ) = 2 then W2 m c main_v14 else W4 m c main_v14) = W2 m c
  rw [if_pos rfl]
  unfold W2
  rw [Function.update_self]

theorem V3_eq (c : Dev nD) : V3 m (outs m) c = StableHlo.after hostOps1 (W2 m c) := by
  show StableHlo.after hostOps1 (V2 m (outs m) c) = _
  rw [V2_eq]

theorem V4_eq (c : Dev nD) : V4 m (outs m) c = W4 m c := by
  show Function.update (Function.update (V3 m (outs m) c) main_v23_0 (if (4 : ℕ) = 2 then W2 m c main_v23_0 else W4 m c main_v23_0)) main_v23_1
      (if (4 : ℕ) = 2 then W2 m c main_v23_1 else W4 m c main_v23_1) = W4 m c
  rw [if_neg (by decide), if_neg (by decide), V3_eq]
  unfold W4
  rw [Function.update_self, Function.update_of_ne (StableHlo.devRef_ne_of_ne (by decide)), Function.update_self]

end Cert.Kernel.Asm

end
-- ==== Proof.Bits.Reg1.lean ====
/-
  The second kernel region's arrays at entry and exit.

  Four of the region's input windows read four different blocks of ONE array (the first region's result), so the
  core's full ownership of that array is dealt among them in quarters at entry and gathered again at exit; every
  other window's array is held whole.  The two result arrays leave the region at what the write-backs made of them,
  every other buffer as it entered.
-/
import proofs.«160278_j67095979098853_2_alg».proof.Proof.Bits.Stage2
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct arrays behind the region's fifteen windows. -/
abbrev arrs1 : List (Ref sig .tc) :=
  [main_v14, main_arg2, main_v15, main_v16, main_v17, main_v18, main_v19, main_v20, main_v21, main_v22, main_v23_0, main_v23_1]

theorem arrs1_eq : Finset.univ.image (Pipeline.arrRef spec1) = arrs1.toFinset := by decide
theorem arrs1_nodup : arrs1.Nodup := by decide

/-- The buffers behind the windows' arrays, one by one. -/
theorem arrBufs1_eq (c : Dev nD) (W : (b : Ref sig .tc) → Buf (Elt F) ((c.tc : Thread nD τ).loc b)) :
    (Pipeline.arrBufs spec1 c W : sProp 𝕄)
      = iprop((((c.tc : Thread nD τ).loc main_v14) ↦{fullShare} W main_v14) ∗ (((c.tc : Thread nD τ).loc main_arg2) ↦{fullShare} W main_arg2) ∗ (((c.tc : Thread nD τ).loc main_v15) ↦{fullShare} W main_v15) ∗ (((c.tc : Thread nD τ).loc main_v16) ↦{fullShare} W main_v16) ∗ (((c.tc : Thread nD τ).loc main_v17) ↦{fullShare} W main_v17) ∗ (((c.tc : Thread nD τ).loc main_v18) ↦{fullShare} W main_v18) ∗ (((c.tc : Thread nD τ).loc main_v19) ↦{fullShare} W main_v19) ∗ (((c.tc : Thread nD τ).loc main_v20) ↦{fullShare} W main_v20) ∗ (((c.tc : Thread nD τ).loc main_v21) ↦{fullShare} W main_v21) ∗ (((c.tc : Thread nD τ).loc main_v22) ↦{fullShare} W main_v22) ∗ (((c.tc : Thread nD τ).loc main_v23_0) ↦{fullShare} W main_v23_0) ∗ (((c.tc : Thread nD τ).loc main_v23_1) ↦{fullShare} W main_v23_1)) := by
  unfold Pipeline.arrBufs
  exact bigSep_eq_bigSepL_of_eq arrs1 arrs1_eq arrs1_nodup _

/-- The share each window holds its array at. -/
theorem share1_0 (c : Dev nD) : (dat1 V c).share 0 = fullShare.left.left := by unfold Dat.share; rw [q1_0]; rfl
theorem share1_1 (c : Dev nD) : (dat1 V c).share 1 = fullShare.left.right := by unfold Dat.share; rw [q1_1]; rfl
theorem share1_2 (c : Dev nD) : (dat1 V c).share 2 = fullShare.right.left := by unfold Dat.share; rw [q1_2]; rfl
theorem share1_3 (c : Dev nD) : (dat1 V c).share 3 = fullShare.right.right := by unfold Dat.share; rw [q1_3]; rfl
theorem share1_4 (c : Dev nD) : (dat1 V c).share 4 = fullShare := by unfold Dat.share; rw [q1_4]; rfl
theorem share1_5 (c : Dev nD) : (dat1 V c).share 5 = fullShare := by unfold Dat.share; rw [q1_5]; rfl
theorem share1_6 (c : Dev nD) : (dat1 V c).share 6 = fullShare := by unfold Dat.share; rw [q1_6]; rfl
theorem share1_7 (c : Dev nD) : (dat1 V c).share 7 = fullShare := by unfold Dat.share; rw [q1_7]; rfl
theorem share1_8 (c : Dev nD) : (dat1 V c).share 8 = fullShare := by unfold Dat.share; rw [q1_8]; rfl
theorem share1_9 (c : Dev nD) : (dat1 V c).share 9 = fullShare := by unfold Dat.share; rw [q1_9]; rfl
theorem share1_10 (c : Dev nD) : (dat1 V c).share 10 = fullShare := by unfold Dat.share; rw [q1_10]; rfl
theorem share1_11 (c : Dev nD) : (dat1 V c).share 11 = fullShare := by unfold Dat.share; rw [q1_11]; rfl
theorem share1_12 (c : Dev nD) : (dat1 V c).share 12 = fullShare := by unfold Dat.share; rw [q1_12]; rfl
theorem share1_13 (c : Dev nD) : (dat1 V c).share 13 = fullShare := by unfold Dat.share; rfl
theorem share1_14 (c : Dev nD) : (dat1 V c).share 14 = fullShare := by unfold Dat.share; rfl

/-- ENTRY: the buffers behind the windows' arrays, each held whole, make the proof data's arrays: the shared array's
    full ownership is dealt in quarters to the four windows that read it. -/
theorem arrays_of_arrBufs1 (c : Dev nD) (W : (b : Ref sig .tc) → Buf (Elt F) ((c.tc : Thread nD τ).loc b))
    (Fw : (w : Fin cfg1.W) → Buf (Elt F) ((cfg1.win w).arr.view.loc (c.tc : Thread nD τ)))
    (hF : ∀ w, Fw w = W (Pipeline.arrRef spec1 w)) :
    (Pipeline.arrBufs spec1 c W : sProp 𝕄) ⊢ (dat1 V c).arrays Fw := by
  obtain rfl : Fw = fun w => W (Pipeline.arrRef spec1 w) := funext hF
  rw [arrBufs1_eq]
  unfold Dat.arrays
  rw [bigSep_W1]
  simp only [share1_0, share1_1, share1_2, share1_3, share1_4, share1_5, share1_6, share1_7, share1_8, share1_9, share1_10, share1_11, share1_12, share1_13, share1_14, (arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ, (arr_whole1 11).set_eq_univ, (arr_whole1 12).set_eq_univ, (arr_whole1 13).set_eq_univ, (arr_whole1 14).set_eq_univ]
  iintro ⟨H14, Hc, H15, H16, H17, H18, H19, H20, H21, H22, Ho0, Ho1⟩
  ihave H := (pointsTo_share (PosShare.mem_left_op_right fullShare)).1 $$ H14
  icases H with ⟨HL, HR⟩
  ihave H := (pointsTo_share (PosShare.mem_left_op_right fullShare.left)).1 $$ HL
  icases H with ⟨HLL, HLR⟩
  ihave H := (pointsTo_share (PosShare.mem_left_op_right fullShare.right)).1 $$ HR
  icases H with ⟨HRL, HRR⟩
  isplitl [HLL]; · iexact HLL
  isplitl [HLR]; · iexact HLR
  isplitl [HRL]; · iexact HRL
  isplitl [HRR]; · iexact HRR
  isplitl [Hc]; · iexact Hc
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [Ho0]; · iexact Ho0
  iexact Ho1

/-- EXIT: the proof data's arrays, the four windows on the shared array holding it at the same contents, make the
    buffers behind the arrays held whole again. -/
theorem arrBufs_of_arrays1 (c : Dev nD) (W : (b : Ref sig .tc) → Buf (Elt F) ((c.tc : Thread nD τ).loc b))
    (Fw : (w : Fin cfg1.W) → Buf (Elt F) ((cfg1.win w).arr.view.loc (c.tc : Thread nD τ)))
    (hF : ∀ w, Fw w = W (Pipeline.arrRef spec1 w)) :
    (dat1 V c).arrays Fw ⊢ (Pipeline.arrBufs spec1 c W : sProp 𝕄) := by
  obtain rfl : Fw = fun w => W (Pipeline.arrRef spec1 w) := funext hF
  rw [arrBufs1_eq]
  unfold Dat.arrays
  rw [bigSep_W1]
  simp only [share1_0, share1_1, share1_2, share1_3, share1_4, share1_5, share1_6, share1_7, share1_8, share1_9, share1_10, share1_11, share1_12, share1_13, share1_14, (arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ, (arr_whole1 11).set_eq_univ, (arr_whole1 12).set_eq_univ, (arr_whole1 13).set_eq_univ, (arr_whole1 14).set_eq_univ]
  iintro ⟨HLL, HLR, HRL, HRR, Hc, H15, H16, H17, H18, H19, H20, H21, H22, Ho0, Ho1⟩
  ihave HL := (pointsTo_share (PosShare.mem_left_op_right fullShare.left)).2 $$ [HLL HLR]
  · isplitl [HLL]; · iexact HLL
    iexact HLR
  ihave HR := (pointsTo_share (PosShare.mem_left_op_right fullShare.right)).2 $$ [HRL HRR]
  · isplitl [HRL]; · iexact HRL
    iexact HRR
  ihave H14 := (pointsTo_share (PosShare.mem_left_op_right fullShare)).2 $$ [HL HR]
  · isplitl [HL]; · iexact HL
    iexact HR
  isplitl [H14]; · iexact H14
  isplitl [Hc]; · iexact Hc
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [Ho0]; · iexact Ho0
  iexact Ho1

end Cert.Kernel.Stage2

end
-- ==== Proof.Bits.RunCond.lean ====
/-
  The run of @main with every buffer named at the end.

  @main is a stretch of host operations, the first kernel region, a second stretch and the second region.  Given,
  for each region, its segment record entered from the buffers' contents before it and left at the contents after it,
  every weakly fair execution from the launch memory terminates, and at the end EVERY unscoped buffer of a core
  holds the last valuation: the launch contents pushed through the host operations, with each region's result
  arrays replaced by what the region leaves.  The frame (arguments unchanged) and the values of the two results are
  both read off this one statement.
-/
import proofs.«160278_j67095979098853_2_alg».proof.Proof.Gen.Kernel.Regions

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

-- the library theorem's implicit arguments are found by unifying its conclusion with this one, which takes unfolding plain
-- definitions in a metavariable's type
set_option backward.isDefEq.respectTransparency.types false in
/-- Every weakly fair execution of @main terminates with every unscoped buffer of every core at the last valuation,
    given one segment record per kernel region chained through the valuations between the items. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => ∀ b ∈ Pipeline.ucRefs τ sig, s.mem (((c : Thread nD τ)).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

end Cert.Kernel.Asm

end
-- ==== Proof.Bits.Asm.lean ====
/-
  @main from the launch to the return, with both kernel regions' proof data in place.

  The buffers' contents between the items of @main are fixed here: after the first stretch of host operations the
  launch contents pushed through them; after the first region the same with the region's result array replaced by
  what its write-backs leave; after the second stretch that pushed through its reshapes; after the second region
  the two result arrays replaced by what the second region's write-backs leave.  Each region is a segment entered
  from "every unscoped buffer held at the contents before it, the generator register at some state, nothing owed"
  and left at the same with the contents after it.  The first region's arrays are six distinct buffers; four of the
  second region's windows share one array, dealt in quarters at entry and gathered at exit.
-/
import proofs.«160278_j67095979098853_2_alg».proof.Proof.Bits.AsmDefs
import proofs.«160278_j67095979098853_2_alg».proof.Proof.Bits.Reg1
import proofs.«160278_j67095979098853_2_alg».proof.Proof.Bits.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every pipeline's proof data, each at its region's entry contents: a literal match on the pipeline's number. -/
def pdats : (p : Fin 2) → (c : Dev nD) → Dat τ (Elt F) Unit ℕ (UR sig nD τ) ℕ (cfgs p) c
  | ⟨0, _⟩ => fun c => Stage1.dat0 (Vr1 m) c
  | ⟨1, _⟩ => fun c => Stage2.dat1 (Vr3 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its debts,
    at nothing. -/
abbrev R (c : Dev nD) : sProp 𝕄 :=
  iprop((∃ r, prngReg c r) ∗ ∃ W, owes (c : Thread nD τ) (0 : CellTallies nD τ sig Unit) W)

/-! ## The first region as a segment -/

/-- After the first region each of its arrays holds what the pipeline leaves: the inputs as entered, the result
    array what its write-backs made of it. -/
theorem hF0 (c : Dev nD) (w : Fin cfg0.W) :
    (pdats m 0 c).arrAt w cfg0.N = (fun b => V2 m (outs m) c b : (b : Ref sig .tc) → Buf (Elt F) ((c : Thread nD τ).loc b)) (Pipeline.arrRef spec0 w) := by
  have hin : ∀ (w : Fin cfg0.W) (hw : (cfg0.win w).isOut = false) (hr : Pipeline.arrRef spec0 w ∉ ([main_v14] : List (Ref sig .tc))),
      (pdats m 0 c).arrAt w cfg0.N = V2 m (outs m) c (Pipeline.arrRef spec0 w) := fun w hw hr =>
    ((pdats m 0 c).arrAt_in w hw _).trans ((Stage1.A_eq0 (Vr1 m) c w).trans (V2_of m (outs m) c _ hr).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    show X2 m c = V2 m (outs m) c main_v14
    rw [V2_eq]; unfold W2; rw [Function.update_self]

theorem hrest0 (c : Dev nD) : ∀ b, b ∉ Finset.univ.image (Pipeline.arrRef spec0) →
    (fun b => V2 m (outs m) c b : (b : Ref sig .tc) → Buf (Elt F) ((c : Thread nD τ).loc b)) b = Vr1 m c b :=
  fun b hb => V2_of m (outs m) c b (by
    intro h
    rw [List.mem_singleton] at h
    exact hb (Finset.mem_image.mpr ⟨5, Finset.mem_univ _, h.symm⟩))

-- a library lemma stated over a pinned configuration unifies with the printed one only when unification may unfold plain
-- definitions in a metavariable's type
set_option backward.isDefEq.respectTransparency.types false in
/-- REGION 0 over the thread state: entered from every unscoped buffer at the contents after the first stretch, left
    with the result array at what the region's write-backs leave.  Its six arrays are split out of the unscoped buffers
    and put back; the generator register and the carried scratch go into the region's invariant and come out. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Stage1.body_obligation0 (Vr1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Stage1.dat0 (Vr1 m) c).Φ 0 from rfl]
    iintro ⟨Hp, -, Hr⟩
    iapply (Stage1.hin0 (Vr1 m) c)
    isplitl [Hp]; · iexact Hp
    iexact Hr
  hout c := by
    rw [Pipeline.ownSems0_none, show (pdats m 0 c).Φ (Fin.last _) = (Stage1.dat0 (Vr1 m) c).Φ (Fin.last cfg0.N) from rfl]
    iintro H
    ihave H' := (Stage1.hout0 (Vr1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

set_option maxHeartbeats 2000000 in
/-- After the second region each of its arrays holds what the pipeline leaves: the inputs as entered (the four windows on
    the shared array all at its entry contents), the two result arrays what their write-backs made of them. -/
theorem hF1 (c : Dev nD) (w : Fin cfg1.W) :
    (pdats m 1 c).arrAt w cfg1.N = (fun b => V4 m (outs m) c b : (b : Ref sig .tc) → Buf (Elt F) ((c : Thread nD τ).loc b)) (Pipeline.arrRef spec1 w) := by
  have hin : ∀ (w : Fin cfg1.W) (hw : (cfg1.win w).isOut = false) (hr : Pipeline.arrRef spec1 w ∉ ([main_v23_0, main_v23_1] : List (Ref sig .tc))),
      (pdats m 1 c).arrAt w cfg1.N = V4 m (outs m) c (Pipeline.arrRef spec1 w) := fun w hw hr =>
    ((pdats m 1 c).arrAt_in w hw _).trans ((Stage2.A_eq1 (Vr3 m) c w).trans
      ((V4_of m (outs m) c _ hr).trans (congrFun (V3_eq m c) _)).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact hin 8 rfl (by decide)
  | ⟨9, _⟩ => exact hin 9 rfl (by decide)
  | ⟨10, _⟩ => exact hin 10 rfl (by decide)
  | ⟨11, _⟩ => exact hin 11 rfl (by decide)
  | ⟨12, _⟩ => exact hin 12 rfl (by decide)
  | ⟨13, _⟩ =>
    show X40 m c = V4 m (outs m) c main_v23_0
    rw [V4_eq]; unfold W4
    rw [Function.update_of_ne (StableHlo.devRef_ne_of_ne (by decide)), Function.update_self]
  | ⟨14, _⟩ =>
    show X41 m c = V4 m (outs m) c main_v23_1
    rw [V4_eq]; unfold W4
    rw [Function.update_self]

/-- Every buffer that is no array of the second region leaves it as it entered. -/
theorem hrest1 (c : Dev nD) (b : Ref sig .tc) (hb : b ∉ Finset.univ.image (Pipeline.arrRef spec1)) :
    V4 m (outs m) c b = Vr3 m c b :=
  (V4_of m (outs m) c b (by
    intro h
    rcases List.mem_cons.mp h with h | h
    · exact hb (Finset.mem_image.mpr ⟨13, Finset.mem_univ _, h.symm⟩)
    · rw [List.mem_singleton] at h
      exact hb (Finset.mem_image.mpr ⟨14, Finset.mem_univ _, h.symm⟩))).trans (congrFun (V3_eq m c) _)

/-- ENTRY: the unscoped buffers at the second region's entry contents are its arrays, the shared one dealt in quarters,
    and the rest. -/
theorem entry1 (c : Dev nD) :
    (StableHlo.held (c : Thread nD τ) (Pipeline.ucRefs τ sig) (V3 m (outs m) c) : sProp 𝕄)
      ⊢ iprop((pdats m 1 c).arrays ((pdats m 1 c).arrAt · 0)
          ∗ Pipeline.unscopedRest (Ix := Unit) (Name := ℕ) (U := UR sig nD τ) (Lvl := ℕ) spec1 c (Vr3 m c)) := by
  rw [V3_eq, ← Pipeline.unscopedBufs_held (Ix := Unit) (Name := ℕ) (U := UR sig nD τ) (Lvl := ℕ) c (StableHlo.after hostOps1 (W2 m c)),
    Pipeline.unscopedBufs_split₀ (Ix := Unit) (Name := ℕ) (U := UR sig nD τ) (Lvl := ℕ) cfgs 1 winFacts₀1.arr_unscoped c (Vr3 m c)]
  exact sep_mono (Stage2.arrays_of_arrBufs1 (Vr3 m) c (Vr3 m c) _ (fun w => Stage2.A_eq1 (Vr3 m) c w)) .rfl

/-- EXIT: the second region's arrays at what it leaves, and the rest, are the unscoped buffers at the last contents. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (Vr3 m c))
      ⊢ (StableHlo.held (c : Thread nD τ) (Pipeline.ucRefs τ sig) (V4 m (outs m) c) : sProp 𝕄) := by
  rw [← Pipeline.unscopedBufs_held (Ix := Unit) (Name := ℕ) (U := UR sig nD τ) (Lvl := ℕ) c (V4 m (outs m) c),
    Pipeline.unscopedBufs_split₀ (Ix := Unit) (Name := ℕ) (U := UR sig nD τ) (Lvl := ℕ) cfgs 1 winFacts₀1.arr_unscoped c (fun b => V4 m (outs m) c b)]
  refine sep_mono (Stage2.arrBufs_of_arrays1 (Vr3 m) c (fun b => V4 m (outs m) c b) _ (hF1 m c)) (Entails.of_eq ?_)
  unfold Pipeline.unscopedRest
  exact bigSep_congr fun b hb => congrArg (fun v => (((c.tc : Thread nD τ).loc b) ↦{fullShare} v : sProp 𝕄)) (hrest1 m c b (Finset.mem_sdiff.mp hb).2).symm

-- a library lemma stated over a pinned configuration unifies with the printed one only when unification may unfold plain
-- definitions in a metavariable's type
set_option backward.isDefEq.respectTransparency.types false in
/-- REGION 1 over the thread state: entered from every unscoped buffer at the contents after the second stretch, left
    with the two result arrays at what the region's write-backs leave.  The generator register goes into the region's
    invariant and comes out; nothing is owed; the kernel has no semaphore of its own. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Stage2.body_obligation1 (Vr3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of @main from the launch memory terminates, and at the end every unscoped buffer of
    every core holds the last contents: the conditional run with both regions' segments supplied. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V4 m (outs m) c b) := by
  have hR : ∀ c : Dev nD, (iprop(unscopedSems0 c ∗ owes (c : Thread nD τ) ((0 : Dev nD → CellTallies nD τ sig Unit) c) ∅
      ∗ Pipeline.launchCred (0 : Dev nD → CellTallies nD τ sig Unit) c ∗ prngReg c (ρ c) ∗ (fun _ : Dev nD => (iprop(emp) : sProp 𝕄)) c) : sProp 𝕄) ⊢ R c := fun c => by
    iintro ⟨-, HO, -, Hp, -⟩
    isplitl [Hp]; · iexists _; iexact Hp
    iexists ∅; iexact HO
  refine run_cond m emb₁ () 𝒱₀ L lv (fun _ _ => rfl) ρ (outs m) (pdats m) 0 (fun _ => iprop(emp))
    (initOf (Pipeline.cells cfgs cellOf_inj) (Pipeline.launchToks cfgs cellOf_inj)) ?_ (fun _ c => R c) ?_ ?_
    (reg0 m) (fun _ => .rfl) (fun _ => .rfl) (reg1 m) (fun _ => .rfl) (fun _ => .rfl)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hb : (bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ (fun _ : Dev nD => (iprop(emp) : sProp 𝕄)) c))
        ⊢ (bigSep Finset.univ (fun c : Dev nD => R c) : sProp 𝕄) := bigSep_mono fun c _ => hR c
    iintro ⟨H, -⟩
    imodintro
    ihave H' := hb $$ H
    iexact H'
  · intro c
    iintro ⟨-, HO⟩
    iexact HO

/-- THE FRAME, at any reading of the floats: every weakly fair execution of @main terminates, nothing faulting, and
    every argument array ends as launched (no host operation and no region writes one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
      (h c (Proc.devRef .tc main_arg0) (mem_uc main_arg0 (by decide))).trans (V4_main_arg0 m (outs m) c),
      (h c (Proc.devRef .tc main_arg1) (mem_uc main_arg1 (by decide))).trans (V4_main_arg1 m (outs m) c),
      (h c (Proc.devRef .tc main_arg2) (mem_uc main_arg2 (by decide))).trans (V4_main_arg2 m (outs m) c),
      (h c (Proc.devRef .tc main_arg3) (mem_uc main_arg3 (by decide))).trans (V4_main_arg3 m (outs m) c),
      (h c (Proc.devRef .tc main_arg4) (mem_uc main_arg4 (by decide))).trans (V4_main_arg4 m (outs m) c),
      (h c (Proc.devRef .tc main_arg5) (mem_uc main_arg5 (by decide))).trans (V4_main_arg5 m (outs m) c),
      (h c (Proc.devRef .tc main_arg6) (mem_uc main_arg6 (by decide))).trans (V4_main_arg6 m (outs m) c),
      (h c (Proc.devRef .tc main_arg7) (mem_uc main_arg7 (by decide))).trans (V4_main_arg7 m (outs m) c),
      (h c (Proc.devRef .tc main_arg8) (mem_uc main_arg8 (by decide))).trans (V4_main_arg8 m (outs m) c),
      (h c (Proc.devRef .tc main_arg9) (mem_uc main_arg9 (by decide))).trans (V4_main_arg9 m (outs m) c),
      (h c (Proc.devRef .tc main_arg10) (mem_uc main_arg10 (by decide))).trans (V4_main_arg10 m (outs m) c),
      (h c (Proc.devRef .tc main_arg11) (mem_uc main_arg11 (by decide))).trans (V4_main_arg11 m (outs m) c),
      (h c (Proc.devRef .tc main_arg12) (mem_uc main_arg12 (by decide))).trans (V4_main_arg12 m (outs m) c),
      (h c (Proc.devRef .tc main_arg13) (mem_uc main_arg13 (by decide))).trans (V4_main_arg13 m (outs m) c),
      (h c (Proc.devRef .tc main_arg14) (mem_uc main_arg14 (by decide))).trans (V4_main_arg14 m (outs m) c),
      (h c (Proc.devRef .tc main_arg15) (mem_uc main_arg15 (by decide))).trans (V4_main_arg15 m (outs m) c),
      (h c (Proc.devRef .tc main_arg16) (mem_uc main_arg16 (by decide))).trans (V4_main_arg16 m (outs m) c),
      (h c (Proc.devRef .tc main_arg17) (mem_uc main_arg17 (by decide))).trans (V4_main_arg17 m (outs m) c),
      (h c (Proc.devRef .tc main_arg18) (mem_uc main_arg18 (by decide))).trans (V4_main_arg18 m (outs m) c),
      (h c (Proc.devRef .tc main_arg19) (mem_uc main_arg19 (by decide))).trans (V4_main_arg19 m (outs m) c),
      (h c (Proc.devRef .tc main_arg20) (mem_uc main_arg20 (by decide))).trans (V4_main_arg20 m (outs m) c),
      (h c (Proc.devRef .tc main_arg21) (mem_uc main_arg21 (by decide))).trans (V4_main_arg21 m (outs m) c),
      (h c (Proc.devRef .tc main_arg22) (mem_uc main_arg22 (by decide))).trans (V4_main_arg22 m (outs m) c)⟩)
    (run_all m ρ)

/-- THE RUN WITH ITS RESULTS: as the frame, and the two result arrays end at what the second region leaves. -/
theorem run_results (ρ : Dev nD → PrngReg) :
    θ_run defs (onTc (τ := τ) (main (F := F))) ⟨m, fun _ => 0, ρ⟩ (fun r => ∀ c : Dev nD,
      r.2.mem ((c.tc : Thread nD τ).loc main_v23_0) = W4 m c main_v23_0
      ∧ r.2.mem ((c.tc : Thread nD τ).loc main_v23_1) = W4 m c main_v23_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
      (h c (Proc.devRef .tc main_v23_0) (mem_uc main_v23_0 (by decide))).trans (congrFun (V4_eq m c) _),
      (h c (Proc.devRef .tc main_v23_1) (mem_uc main_v23_1 (by decide))).trans (congrFun (V4_eq m c) _),
      (h c (Proc.devRef .tc main_arg0) (mem_uc main_arg0 (by decide))).trans (V4_main_arg0 m (outs m) c),
      (h c (Proc.devRef .tc main_arg1) (mem_uc main_arg1 (by decide))).trans (V4_main_arg1 m (outs m) c),
      (h c (Proc.devRef .tc main_arg2) (mem_uc main_arg2 (by decide))).trans (V4_main_arg2 m (outs m) c),
      (h c (Proc.devRef .tc main_arg3) (mem_uc main_arg3 (by decide))).trans (V4_main_arg3 m (outs m) c),
      (h c (Proc.devRef .tc main_arg4) (mem_uc main_arg4 (by decide))).trans (V4_main_arg4 m (outs m) c),
      (h c (Proc.devRef .tc main_arg5) (mem_uc main_arg5 (by decide))).trans (V4_main_arg5 m (outs m) c),
      (h c (Proc.devRef .tc main_arg6) (mem_uc main_arg6 (by decide))).trans (V4_main_arg6 m (outs m) c),
      (h c (Proc.devRef .tc main_arg7) (mem_uc main_arg7 (by decide))).trans (V4_main_arg7 m (outs m) c),
      (h c (Proc.devRef .tc main_arg8) (mem_uc main_arg8 (by decide))).trans (V4_main_arg8 m (outs m) c),
      (h c (Proc.devRef .tc main_arg9) (mem_uc main_arg9 (by decide))).trans (V4_main_arg9 m (outs m) c),
      (h c (Proc.devRef .tc main_arg10) (mem_uc main_arg10 (by decide))).trans (V4_main_arg10 m (outs m) c),
      (h c (Proc.devRef .tc main_arg11) (mem_uc main_arg11 (by decide))).trans (V4_main_arg11 m (outs m) c),
      (h c (Proc.devRef .tc main_arg12) (mem_uc main_arg12 (by decide))).trans (V4_main_arg12 m (outs m) c),
      (h c (Proc.devRef .tc main_arg13) (mem_uc main_arg13 (by decide))).trans (V4_main_arg13 m (outs m) c),
      (h c (Proc.devRef .tc main_arg14) (mem_uc main_arg14 (by decide))).trans (V4_main_arg14 m (outs m) c),
      (h c (Proc.devRef .tc main_arg15) (mem_uc main_arg15 (by decide))).trans (V4_main_arg15 m (outs m) c),
      (h c (Proc.devRef .tc main_arg16) (mem_uc main_arg16 (by decide))).trans (V4_main_arg16 m (outs m) c),
      (h c (Proc.devRef .tc main_arg17) (mem_uc main_arg17 (by decide))).trans (V4_main_arg17 m (outs m) c),
      (h c (Proc.devRef .tc main_arg18) (mem_uc main_arg18 (by decide))).trans (V4_main_arg18 m (outs m) c),
      (h c (Proc.devRef .tc main_arg19) (mem_uc main_arg19 (by decide))).trans (V4_main_arg19 m (outs m) c),
      (h c (Proc.devRef .tc main_arg20) (mem_uc main_arg20 (by decide))).trans (V4_main_arg20 m (outs m) c),
      (h c (Proc.devRef .tc main_arg21) (mem_uc main_arg21 (by decide))).trans (V4_main_arg21 m (outs m) c),
      (h c (Proc.devRef .tc main_arg22) (mem_uc main_arg22 (by decide))).trans (V4_main_arg22 m (outs m) c)⟩)
    (run_all m ρ)

end Cert.Kernel.Asm

end
-- ==== Proof.Ideal.Stage1Runs.lean ====
/- Region 0 (the blocked-matmul stage): what its per-case body runs share — the two branch
   conditions in closed form over the grid, where the output window is idle, the staging and
   scratch memrefs, and the scoped buffers split into the scratch and the rest. -/
import proofs.«160278_j67095979098853_2_alg».proof.Proof.Gen.KernelIdeal.Launch
import proofs.«160278_j67095979098853_2_alg».proof.Proof.Gen.KernelIdeal.Skeleton
import proofs.«160278_j67095979098853_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the first conditional (the reduction's first step, `kt = 0`), from the grid coordinates. -/
abbrev cond0_0 (i : grid0.Coords) : Prop := (Scalar.cmpi .ne (Scalar.extui (Scalar.cmpi .eq (BitVec.ofNat 32 (i 2).val) 0#32)) 0#32) = 1#1
/-- It holds exactly at the points whose position is a multiple of 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the second conditional (the reduction's last step, `kt = 3`). -/
abbrev cond0_1 (i : grid0.Coords) : Prop := k0_cond2 i = 1#1
/-- It holds exactly at the points whose position is 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- At the reduction's first step the output window is idle: nothing is stored into it. -/
theorem idleAt0_5_A : ∀ t : Fin cfg0.N, cond0_0 (grid0.coords t) → ¬cond0_1 (grid0.coords t) → cfg0.idle 5 (grid0.coords t) = true := by decide +kernel
/-- and its block is not written back there. -/
theorem noFlush0_5_A : ∀ t : Fin cfg0.N, cond0_0 (grid0.coords t) → ¬cond0_1 (grid0.coords t) → (cfg0.win 5).flush t = false := by decide +kernel
/-- At the reduction's middle steps the output window is idle: nothing is stored into it. -/
theorem idleAt0_5_B : ∀ t : Fin cfg0.N, ¬cond0_0 (grid0.coords t) → ¬cond0_1 (grid0.coords t) → cfg0.idle 5 (grid0.coords t) = true := by decide +kernel
/-- and its block is not written back there. -/
theorem noFlush0_5_B : ∀ t : Fin cfg0.N, ¬cond0_0 (grid0.coords t) → ¬cond0_1 (grid0.coords t) → (cfg0.win 5).flush t = false := by decide +kernel
/-- At the reduction's last step the output window is live: the body stores its whole block. -/
theorem liveAt0_5_C : ∀ t : Fin cfg0.N, ¬cond0_0 (grid0.coords t) → cond0_1 (grid0.coords t) → cfg0.idle 5 (grid0.coords t) = false := by decide +kernel

/-! ## The memrefs the body is called with -/

/-- One staging buffer of the output window, through which its contents are stated. -/
abbrev VO0_5 : View sig .tc .vmem S1x1024x2048 .bf16 := (Memref.whole cc0_stg5_0 : Memref sig .tc .vmem S1x1024x2048 .bf16).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x2048 .bf16 := win0_5.stage (cfg0.slots t 5)
abbrev hs0_5 (t : Fin cfg0.N) : (ms0_5 t).IsWhole := hstage0_5 ((cfg0.slots t 5).cast nbuf0_5)
/-- The scratch accumulator: a whole scoped buffer of the kernel's own, carried between grid points. -/
abbrev scM0_0 : Memref sig .tc .vmem S1024x2048 .f32 := Memref.whole cc0_scratch0
/-- The accumulator as a view: what it holds is stated through it. -/
abbrev VS0_0 : View sig .tc .vmem S1024x2048 .f32 := scM0_0.view

/-! ## The scoped buffers no window of this region stages -/

/-- Those other than the accumulator (the later region's staging buffers), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg11_0), ((c : Thread nD τ).loc cc1_stg11_0) ↦{fullShare} f)
    ∗ (∃ f : Buf (Elt F) ((c : Thread nD τ).loc cc1_stg12_0), ((c : Thread nD τ).loc cc1_stg12_0) ↦{fullShare} f)
    ∗ (∃ f : Buf (Elt F) ((c : Thread nD τ).loc cc1_stg13_0), ((c : Thread nD τ).loc cc1_stg13_0) ↦{fullShare} f)
    ∗ (∃ f : Buf (Elt F) ((c : Thread nD τ).loc cc1_stg13_1), ((c : Thread nD τ).loc cc1_stg13_1) ↦{fullShare} f)
    ∗ (∃ f : Buf (Elt F) ((c : Thread nD τ).loc cc1_stg14_0), ((c : Thread nD τ).loc cc1_stg14_0) ↦{fullShare} f)
    ∗ (∃ f : Buf (Elt F) ((c : Thread nD τ).loc cc1_stg14_1), ((c : Thread nD τ).loc cc1_stg14_1) ↦{fullShare} f))

/-- The scoped buffers no window stages are the accumulator at some contents and the rest. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ rest0 c) := by
  rw [scopedRest0_eq]; unfold rest0; simp only [scM0_0, owns_whole]; try rfl

end Cert.KernelIdeal.Stage1

end
-- ==== Proof.Ideal.Stage1RunA.lean ====
/- Region 0, the first step of the reduction: the whole-body run of the kernel by symbolic execution over its skeleton; the
   pieces each buffer ends with are the witness the run finds. -/
import proofs.«160278_j67095979098853_2_alg».proof.Proof.Ideal.Stage1Runs

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- THE FIRST STEP of the reduction (the first conditional taken, the second not). On whole staging
    memrefs — the inputs' at their contents, the output's at contents handed back untouched, the
    accumulator at anything (it is zeroed before it is read) — the body runs to the continuation holding
    the inputs' as they were and the accumulator with its pieces written. -/
noncomputable def kernelRun0_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) :
    Σ' (L5 : List (View.Piece (Elt F) S1x1024x2048 .bf16)), { LS0 : List (View.Piece (Elt F) S1024x2048 .f32) //
      ∀ (xi5 : Vec F S1x1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__stage1_kernel i arg3 harg3 arg4 harg4 arg5 harg5 arg6 harg6 arg7 harg7 arg8 harg8 arg9 harg9) K } := by
  refine ⟨[], ?_, fun xi5 E K => ?run⟩
  case run =>
    rw [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Stage1

end
-- ==== Proof.Ideal.Stage1RunB.lean ====
/- Region 0, a middle step of the reduction: the whole-body run of the kernel by symbolic execution over its skeleton; the
   pieces each buffer ends with are the witness the run finds. -/
import proofs.«160278_j67095979098853_2_alg».proof.Proof.Ideal.Stage1Runs

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- A MIDDLE STEP of the reduction (neither conditional taken). On whole staging memrefs — the inputs'
    at their contents, the output's at contents handed back untouched, the accumulator at what the point
    before left — the body runs to the continuation holding the inputs' as they were and the accumulator
    with its pieces written. -/
noncomputable def kernelRun0_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) :
    Σ' (L5 : List (View.Piece (Elt F) S1x1024x2048 .bf16)), { LS0 : List (View.Piece (Elt F) S1024x2048 .f32) //
      ∀ (xi5 : Vec F S1x1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__stage1_kernel i arg3 harg3 arg4 harg4 arg5 harg5 arg6 harg6 arg7 harg7 arg8 harg8 arg9 harg9) K } := by
  refine ⟨[], ?_, fun xi5 E K => ?run⟩
  case run =>
    rw [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Stage1

end
-- ==== Proof.Ideal.Stage1RunC.lean ====
/- Region 0, the last step of the reduction: the whole-body run of the kernel by symbolic execution over its skeleton; the
   pieces each buffer ends with are the witness the run finds. -/
import proofs.«160278_j67095979098853_2_alg».proof.Proof.Ideal.Stage1Runs

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- THE LAST STEP of the reduction (the first conditional not taken, the second taken). On whole staging
    memrefs — the inputs' at their contents, the output's at anything, the accumulator at what the point
    before left — the body runs to the continuation holding the inputs' as they were, the output's with its
    pieces written and the accumulator with its pieces written. -/
noncomputable def kernelRun0_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) :
    Σ' (L5 : List (View.Piece (Elt F) S1x1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__stage1_kernel i arg3 harg3 arg4 harg4 arg5 harg5 arg6 harg6 arg7 harg7 arg8 harg8 arg9 harg9) K } := by
  refine ⟨?_, ?_, fun E K => ?run⟩
  case run =>
    rw [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Stage1

end
-- ==== Proof.Ideal.Stage1.lean ====
/- Region 0 (the blocked-matmul stage) at the buffer contents `V` the region is entered with: each window's block at
   a point, what each case of the body leaves in the output's staging buffer and in the accumulator, these point by
   point, the pipeline's proof data, the body obligation, and the invariant's entry and exit. -/
import proofs.«160278_j67095979098853_2_alg».proof.Proof.Ideal.Stage1RunA
import proofs.«160278_j67095979098853_2_alg».proof.Proof.Ideal.Stage1RunB
import proofs.«160278_j67095979098853_2_alg».proof.Proof.Ideal.Stage1RunC

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's staging buffer and in the accumulator -/

/-- Case A stores nothing into the output window (idle at its points and not written back there): no pieces — a
    placeholder that nothing consults. -/
def out0_A_5 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) : Vec F S1x1024x2048 .bf16 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- Case A's pieces for the accumulator cover it (each store is of the whole buffer). -/
theorem scover0_A_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (y : S1024x2048.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S1024x2048.size (by sl_kernel_rfl) y

/-- What case A leaves in the accumulator: its pieces read back. -/
def sout0_A_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) : Vec F S1024x2048 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- Case B stores nothing into the output window (idle at its points and not written back there): no pieces — a
    placeholder that nothing consults. -/
def out0_B_5 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) : Vec F S1x1024x2048 .bf16 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-- Case B's pieces for the accumulator cover it (each store is of the whole buffer). -/
theorem scover0_B_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) (y : S1024x2048.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S1024x2048.size (by sl_kernel_rfl) y

/-- What case B leaves in the accumulator: its pieces read back. -/
def sout0_B_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) : Vec F S1024x2048 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- Case C's pieces for the output window tile its block (one store of the whole block), so they cover it. -/
theorem cover0_C_5 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) (y : S1x1024x2048.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1x1024x2048.size (by sl_kernel_rfl) y

/-- What case C leaves in the output window's staging buffer: its pieces read back. -/
def out0_C_5 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) : Vec F S1x1024x2048 .bf16 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

/-- Case C's pieces for the accumulator cover it (each store is of the whole buffer). -/
theorem scover0_C_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) (y : S1024x2048.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S1024x2048.size (by sl_kernel_rfl) y

/-- What case C leaves in the accumulator: its pieces read back. -/
def sout0_C_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) : Vec F S1024x2048 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-! ## What the output's staging buffer and the accumulator hold after each point -/

/-- THE ACCUMULATION. What the output window's staging buffer and the accumulator hold after the body at position
    `n` (a pair: the output, then the accumulator): the case the closed forms select at `n`, run at the point's
    memrefs and input blocks, the accumulator (where the case reads it) at what this leaves at `n - 1`. -/
def outsAt0 (c : Dev nD) : (n : ℕ) → n < cfg0.N → Vec F S1x1024x2048 .bf16 × Vec F S1024x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- `outsAt0` at a point of case B: that case's contents, over what the point before left in the accumulator. -/
theorem outsAt0_B (c : Dev nD) (t : Fin cfg0.N) (h0 : ¬t.val % 4 = 0) (h1 : ¬t.val % 4 = 3) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the accumulator. -/
theorem outsAt0_C (c : Dev nD) (t : Fin cfg0.N) (h0 : ¬t.val % 4 = 0) (h1 : t.val % 4 = 3) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the generator register at some state and the
    scoped buffers no window stages at some contents; afterwards the register, the accumulator at what the point
    before left in it, and the other scoped buffers at some contents. -/
def PhiS (c : Dev nD) : (n : ℕ) → n ≤ cfg0.N → sProp 𝕄
  | 0, _ => iprop((∃ r, prngReg c r) ∗ Pipeline.scopedRest spec0 c)
  | n + 1, hn => iprop((∃ r, prngReg c r) ∗ owns (c : Thread nD τ) scM0_0 fullShare ((outsAt0 V c n hn).2) ∗ rest0 c)

theorem PhiS_zero (c : Dev nD) (n : ℕ) (h : n ≤ cfg0.N) (hz : n = 0) :
    PhiS V c n h = iprop((∃ r, prngReg c r) ∗ Pipeline.scopedRest spec0 c) := by
  subst hz; rfl

/-- After point `n` (before point `n + 1`): the accumulator at that point's contents. -/
theorem PhiS_succ (c : Dev nD) (n : ℕ) (hn : n < cfg0.N) :
    PhiS V c (n + 1) hn = iprop((∃ r, prngReg c r) ∗ owns (c : Thread nD τ) scM0_0 fullShare ((outsAt0 V c n hn).2) ∗ rest0 c) := rfl

/-- Before a point that is not the first: the accumulator at what the point before left. -/
theorem PhiS_pos (c : Dev nD) (n : ℕ) (h : n ≤ cfg0.N) (hz : n ≠ 0) :
    PhiS V c n h = iprop((∃ r, prngReg c r) ∗ owns (c : Thread nD τ) scM0_0 fullShare ((outsAt0 V c (n - 1) (by omega)).2) ∗ rest0 c) := by
  cases n with
  | zero => exact absurd rfl hz
  | succ n => rfl

/-! ## The pipeline's proof data -/

/-- The proof data of pipeline 0 on core `c`: the arrays as the region finds them (`V`); after the body at point
    `t` each input's buffer at its block and the output's at `outsAt0`; the invariant `PhiS`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the closed forms say which case the point is in,
    so that case's run applies; the invariant hands the body the accumulator at what the point before left (at
    anything at the first point) and takes it back at this point's contents; the other scoped buffers, the
    generator register and the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, scopedRest0_split]
        iintro ⟨⟨Hg, HS0, Hr⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hg HS0 Hr]
        · isplitl [Hg]; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨Hg, HS0, Hr⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Hg HS0 Hr]
        · isplitl [Hg]; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      have hz : t.val ≠ 0 := by omega
      · rw [PhiS_castSucc V c t, PhiS_pos V c _ _ hz]
        iintro ⟨⟨Hg, HS0, Hr⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Hg HS0 Hr]
        · isplitl [Hg]; · iexact Hg
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      have hz : t.val ≠ 0 := by omega
      · rw [PhiS_castSucc V c t, PhiS_pos V c _ _ hz]
        iintro ⟨⟨Hg, HS0, Hr⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hg HS0 Hr]
        · isplitl [Hg]; · iexact Hg
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the invariant -/

/-- What the region is entered with — the generator register and the scoped buffers no window stages — is the
    invariant before the first point. -/
theorem hin0 (c : Dev nD) : (iprop((∃ r, prngReg c r) ∗ Pipeline.scopedRest spec0 c) : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the same back: the accumulator's named contents are forgotten. -/
theorem Phi_out0 (c : Dev nD) (t : Fin (cfg0.N + 1)) (ht : t.val ≠ 0) :
    (dat0 V c).Φ t ⊢ (iprop((∃ r, prngReg c r) ∗ Pipeline.scopedRest spec0 c) : sProp 𝕄) := by
  rw [show (dat0 V c).Φ t = PhiS V c t.val (Nat.le_of_lt_succ t.isLt) from rfl, PhiS_pos V c _ _ ht, scopedRest0_split]
  iintro ⟨Hg, HS0, Hr⟩
  isplitl [Hg]; · iexact Hg
  isplitl [HS0]
  · iexists _; iexact HS0
  iexact Hr

/-- The same after the last point. -/
theorem hout0 (c : Dev nD) : (dat0 V c).Φ (Fin.last cfg0.N) ⊢ (iprop((∃ r, prngReg c r) ∗ Pipeline.scopedRest spec0 c) : sProp 𝕄) :=
  Phi_out0 V c _ (by rw [Fin.val_last]; have : cfg0.N = 64 := N_0; omega)

end Cert.KernelIdeal.Stage1

end
-- ==== Proof.Ideal.Stage2Body.lean ====
/- The second stage's kernel body (four row normalisations, the gate nonlinearities and the cell
   update) as a separation-logic triple over its fifteen staging buffers: the thirteen inputs are
   read through whole-buffer rectangles and left as found, and each of the two outputs ends at the
   payload of its one store, a closed function of the thirteen input blocks. -/
import proofs.«160278_j67095979098853_2_alg».proof.Proof.Gen.KernelIdeal.Launch
import proofs.«160278_j67095979098853_2_alg».proof.Proof.Gen.KernelIdeal.Skeleton
import proofs.«160278_j67095979098853_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is through the whole buffer -/

abbrev rA : Rect S1x256x2048 := Rect.unit (s := S1x256x2048) ![0, 0, 0] S1x256x2048.size inb_S1x256x2048_S1x256x2048_0_0_0
abbrev rB : Rect S256x2048 := Rect.unit (s := S256x2048) ![0, 0] S256x2048.size inb_S256x2048_S256x2048_0_0
abbrev rC : Rect S1x2048 := Rect.unit (s := S1x2048) ![0, 0] S1x2048.size inb_S1x2048_S1x2048_0_0

/-! ## What the body leaves in each output buffer -/

/-- The new hidden state's staging buffer after the body, from the thirteen input blocks (the four
    pre-activation blocks, the old cell block, the eight gain and bias rows): its one store. -/
def out1_13 (x0 : Vec F S1x256x2048 .bf16) (x1 : Vec F S1x256x2048 .bf16) (x2 : Vec F S1x256x2048 .bf16) (x3 : Vec F S1x256x2048 .bf16) (x4 : Vec F S256x2048 .f32) (x5 : Vec F S1x2048 .f32) (x6 : Vec F S1x2048 .f32) (x7 : Vec F S1x2048 .f32) (x8 : Vec F S1x2048 .f32) (x9 : Vec F S1x2048 .f32) (x10 : Vec F S1x2048 .f32) (x11 : Vec F S1x2048 .f32) (x12 : Vec F S1x2048 .f32) : Vec F S256x2048 .f32 :=
  View.canon [⟨rB, (k1_pay8 (k1_pay1 (View.ld x0 rA) (View.ld x5 rC) (View.ld x6 rC)) (k1_pay5 (k1_pay2 (View.ld x1 rA)) (k1_pay3 (View.ld x1 rA)) (k1_pay4 (View.ld x1 rA)) (View.ld x7 rC) (View.ld x8 rC)) (k1_pay6 (View.ld x2 rA) (View.ld x9 rC)) (View.ld x10 rC) (View.ld x3 rA) (View.ld x11 rC) (View.ld x12 rC) (View.ld x4 rB))⟩]

/-- The new cell state's staging buffer after the body: its one store. -/
def out1_14 (x0 : Vec F S1x256x2048 .bf16) (x1 : Vec F S1x256x2048 .bf16) (x2 : Vec F S1x256x2048 .bf16) (x3 : Vec F S1x256x2048 .bf16) (x4 : Vec F S256x2048 .f32) (x5 : Vec F S1x2048 .f32) (x6 : Vec F S1x2048 .f32) (x7 : Vec F S1x2048 .f32) (x8 : Vec F S1x2048 .f32) (x9 : Vec F S1x2048 .f32) (x10 : Vec F S1x2048 .f32) (x11 : Vec F S1x2048 .f32) (x12 : Vec F S1x2048 .f32) : Vec F S256x2048 .f32 :=
  View.canon [⟨rB, (k1_pay7 (k1_pay1 (View.ld x0 rA) (View.ld x5 rC) (View.ld x6 rC)) (k1_pay5 (k1_pay2 (View.ld x1 rA)) (k1_pay3 (View.ld x1 rA)) (k1_pay4 (View.ld x1 rA)) (View.ld x7 rC) (View.ld x8 rC)) (k1_pay6 (View.ld x2 rA) (View.ld x9 rC)) (View.ld x10 rC) (View.ld x4 rB))⟩]

/-- A whole-buffer store covers the buffer. -/
theorem cover1_13 (p0 : Vec F S256x2048 .f32) (y : S256x2048.Idx) :
    ∃ pc ∈ ([⟨rB, p0⟩] : List (View.Piece (Elt F) S256x2048 .f32)), y ∈ pc.1.set :=
  View.cover_of_tiled [⟨rB, p0⟩] S256x2048.size (by rfl) y

theorem cover1_14 (p0 : Vec F S256x2048 .f32) (y : S256x2048.Idx) :
    ∃ pc ∈ ([⟨rB, p0⟩] : List (View.Piece (Elt F) S256x2048 .f32)), y ∈ pc.1.set :=
  View.cover_of_tiled [⟨rB, p0⟩] S256x2048.size (by rfl) y

/-! ## The body's triple -/

set_option maxHeartbeats 4000000 in
/-- The kernel body on whole staging memrefs, the inputs' at read contents and the outputs' at
    anything, runs to the continuation holding the inputs' as they were and each output's at
    its store's payload over the inputs. -/
theorem sound_kernel1 (c : Dev nD) (E : Set ℕ) (i : grid1.Coords) (arg1 : Memref sig .tc .vmem S1x256x2048 .bf16) (harg1 : arg1.IsWhole) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S256x2048 .f32) (harg14 : arg14.IsWhole) (arg15 : Memref sig .tc .vmem S256x2048 .f32) (harg15 : arg15.IsWhole)
    (x0 : Vec F S1x256x2048 .bf16) (x1 : Vec F S1x256x2048 .bf16) (x2 : Vec F S1x256x2048 .bf16) (x3 : Vec F S1x256x2048 .bf16) (x4 : Vec F S256x2048 .f32) (x5 : Vec F S1x2048 .f32) (x6 : Vec F S1x2048 .f32) (x7 : Vec F S1x2048 .f32) (x8 : Vec F S1x2048 .f32) (x9 : Vec F S1x2048 .f32) (x10 : Vec F S1x2048 .f32) (x11 : Vec F S1x2048 .f32) (x12 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 x0 x1 x2 x3 x4 x5 x6 x7 x8 x9 x10 x11 x12) ∗ owns (c : Thread nD τ) arg15 fullShare (out1_14 x0 x1 x2 x3 x4 x5 x6 x7 x8 x9 x10 x11 x12)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__stage2_kernel_eq_skeleton]; unfold cc1__stage2_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover1_13 _)
  iexists _; isplitr
  swap; · iexact H14
  ipureintro
  try dsimp only
  exact View.read_writes_eq_canon _ _ _ (cover1_14 _)

end Cert.KernelIdeal.Stage2

end
-- ==== Proof.Ideal.Stage2.lean ====
/- The second stage as a pipeline on one core: each window's block at a grid point, the proof data
   (the arrays as the region finds them, what the body leaves in every staging buffer, the four
   windows on the shared pre-activation array each at a quarter of its share) and the body obligation
   at every point. -/
import proofs.«160278_j67095979098853_2_alg».proof.Proof.Ideal.Stage2Body

set_option maxRecDepth 16384

noncomputable section

namespace Cert.KernelIdeal.Stage2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched,
    the block index has not moved), for any proof data on the entry arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched,
    the block index has not moved), for any proof data on the entry arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched,
    the block index has not moved), for any proof data on the entry arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched,
    the block index has not moved), for any proof data on the entry arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched,
    the block index has not moved), for any proof data on the entry arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched,
    the block index has not moved), for any proof data on the entry arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched,
    the block index has not moved), for any proof data on the entry arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched,
    the block index has not moved), for any proof data on the entry arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not (unfetched,
    the block index has not moved), for any proof data on the entry arrays whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not (unfetched,
    the block index has not moved), for any proof data on the entry arrays whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not (unfetched,
    the block index has not moved), for any proof data on the entry arrays whose body leaves the block in place. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, fetched there or not (unfetched,
    the block index has not moved), for any proof data on the entry arrays whose body leaves the block in place. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's current staging buffer holds its block at every point, fetched there or not (unfetched,
    the block index has not moved), for any proof data on the entry arrays whose body leaves the block in place. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the second stage on core `c`: the arrays as the region finds them; after the body at point `t`
    each input's buffer at its block and each output's at its store's payload over the input blocks; the invariant
    the scoped rest and the generator register, untouched; nothing owed; the four windows on the pre-activation
    array at the four quarters of its share, every other input at the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The shares of the four windows on the shared array, and of the others. -/
theorem q1_0 (c : Dev nD) : (dat1 V c).q 0 = fullShare.left.left := by dsimp only [dat1]
theorem q1_1 (c : Dev nD) : (dat1 V c).q 1 = fullShare.left.right := by dsimp only [dat1]
theorem q1_2 (c : Dev nD) : (dat1 V c).q 2 = fullShare.right.left := by dsimp only [dat1]
theorem q1_3 (c : Dev nD) : (dat1 V c).q 3 = fullShare.right.right := by dsimp only [dat1]
theorem q1_4 (c : Dev nD) : (dat1 V c).q 4 = fullShare := by dsimp only [dat1]
theorem q1_5 (c : Dev nD) : (dat1 V c).q 5 = fullShare := by dsimp only [dat1]
theorem q1_6 (c : Dev nD) : (dat1 V c).q 6 = fullShare := by dsimp only [dat1]
theorem q1_7 (c : Dev nD) : (dat1 V c).q 7 = fullShare := by dsimp only [dat1]
theorem q1_8 (c : Dev nD) : (dat1 V c).q 8 = fullShare := by dsimp only [dat1]
theorem q1_9 (c : Dev nD) : (dat1 V c).q 9 = fullShare := by dsimp only [dat1]
theorem q1_10 (c : Dev nD) : (dat1 V c).q 10 = fullShare := by dsimp only [dat1]
theorem q1_11 (c : Dev nD) : (dat1 V c).q 11 = fullShare := by dsimp only [dat1]
theorem q1_12 (c : Dev nD) : (dat1 V c).q 12 = fullShare := by dsimp only [dat1]
theorem q1_13 (c : Dev nD) : (dat1 V c).q 13 = fullShare := by dsimp only [dat1]
theorem q1_14 (c : Dev nD) : (dat1 V c).q 14 = fullShare := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at any point: the inputs' memrefs hold their blocks, so the body's triple applies; the invariant and
    the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Stage2

end
-- ==== Proof.Ideal.AsmDefs.lean ====
/-
  The buffers' contents between the items of @main.

  After the first stretch of host operations: the launch contents pushed through them.  After the first region: the
  same with the region's result array replaced by what its write-backs leave.  After the second stretch: that pushed
  through its reshapes.  After the second region: the two result arrays replaced by what the second region's
  write-backs leave.
-/
import proofs.«160278_j67095979098853_2_alg».proof.Proof.Ideal.Stage1
import proofs.«160278_j67095979098853_2_alg».proof.Proof.Ideal.Stage2
import proofs.«160278_j67095979098853_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- The first region's entry contents, read at the TensorCore's references. -/
abbrev Vr1 : (c : Dev nD) → (b : Ref sig .tc) → Buf (Elt F) ((c : Thread nD τ).loc b) := fun c b => V1 m c b

/-- What the first region leaves in its result array. -/
def X2 (c : Dev nD) : Buf (Elt F) ((c : Thread nD τ).loc main_v14) := (Stage1.dat0 (Vr1 m) c).arrAt 5 cfg0.N

/-- The buffers after the first region. -/
def W2 (c : Dev nD) : Valuation τ sig (Elt F) := Function.update (V1 m c) main_v14 (X2 m c)

/-- The second region's entry contents, read at the TensorCore's references. -/
abbrev Vr3 : (c : Dev nD) → (b : Ref sig .tc) → Buf (Elt F) ((c : Thread nD τ).loc b) :=
  fun c b => StableHlo.after hostOps1 (W2 m c) b

/-- What the second region leaves in its two result arrays. -/
def X40 (c : Dev nD) : Buf (Elt F) ((c : Thread nD τ).loc main_v23_0) := (Stage2.dat1 (Vr3 m) c).arrAt 13 cfg1.N
def X41 (c : Dev nD) : Buf (Elt F) ((c : Thread nD τ).loc main_v23_1) := (Stage2.dat1 (Vr3 m) c).arrAt 14 cfg1.N

/-- The buffers at the end. -/
def W4 (c : Dev nD) : Valuation τ sig (Elt F) :=
  Function.update (Function.update (StableHlo.after hostOps1 (W2 m c)) main_v23_0 (X40 m c)) main_v23_1 (X41 m c)

/-- What the regions leave, as the conditional run reads it: the valuation after the region at the reference asked. -/
def outs : Outs (F := F) := fun J r c => if J = 2 then W2 m c r else W4 m c r

theorem V2_eq (c : Dev nD) : V2 m (outs m) c = W2 m c := by
  show Function.update (V1 m c) main_v14 (if (2 : ℕ) = 2 then W2 m c main_v14 else W4 m c main_v14) = W2 m c
  rw [if_pos rfl]
  unfold W2
  rw [Function.update_self]

theorem V3_eq (c : Dev nD) : V3 m (outs m) c = StableHlo.after hostOps1 (W2 m c) := by
  show StableHlo.after hostOps1 (V2 m (outs m) c) = _
  rw [V2_eq]

theorem V4_eq (c : Dev nD) : V4 m (outs m) c = W4 m c := by
  show Function.update (Function.update (V3 m (outs m) c) main_v23_0 (if (4 : ℕ) = 2 then W2 m c main_v23_0 else W4 m c main_v23_0)) main_v23_1
      (if (4 : ℕ) = 2 then W2 m c main_v23_1 else W4 m c main_v23_1) = W4 m c
  rw [if_neg (by decide), if_neg (by decide), V3_eq]
  unfold W4
  rw [Function.update_self, Function.update_of_ne (StableHlo.devRef_ne_of_ne (by decide)), Function.update_self]

end Cert.KernelIdeal.Asm

end
-- ==== Proof.Ideal.Reg1.lean ====
/-
  The second kernel region's arrays at entry and exit.

  Four of the region's input windows read four different blocks of ONE array (the first region's result), so the
  core's full ownership of that array is dealt among them in quarters at entry and gathered again at exit; every
  other window's array is held whole.  The two result arrays leave the region at what the write-backs made of them,
  every other buffer as it entered.
-/
import proofs.«160278_j67095979098853_2_alg».proof.Proof.Ideal.Stage2
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct arrays behind the region's fifteen windows. -/
abbrev arrs1 : List (Ref sig .tc) :=
  [main_v14, main_arg2, main_v15, main_v16, main_v17, main_v18, main_v19, main_v20, main_v21, main_v22, main_v23_0, main_v23_1]

theorem arrs1_eq : Finset.univ.image (Pipeline.arrRef spec1) = arrs1.toFinset := by decide
theorem arrs1_nodup : arrs1.Nodup := by decide

/-- The buffers behind the windows' arrays, one by one. -/
theorem arrBufs1_eq (c : Dev nD) (W : (b : Ref sig .tc) → Buf (Elt F) ((c.tc : Thread nD τ).loc b)) :
    (Pipeline.arrBufs spec1 c W : sProp 𝕄)
      = iprop((((c.tc : Thread nD τ).loc main_v14) ↦{fullShare} W main_v14) ∗ (((c.tc : Thread nD τ).loc main_arg2) ↦{fullShare} W main_arg2) ∗ (((c.tc : Thread nD τ).loc main_v15) ↦{fullShare} W main_v15) ∗ (((c.tc : Thread nD τ).loc main_v16) ↦{fullShare} W main_v16) ∗ (((c.tc : Thread nD τ).loc main_v17) ↦{fullShare} W main_v17) ∗ (((c.tc : Thread nD τ).loc main_v18) ↦{fullShare} W main_v18) ∗ (((c.tc : Thread nD τ).loc main_v19) ↦{fullShare} W main_v19) ∗ (((c.tc : Thread nD τ).loc main_v20) ↦{fullShare} W main_v20) ∗ (((c.tc : Thread nD τ).loc main_v21) ↦{fullShare} W main_v21) ∗ (((c.tc : Thread nD τ).loc main_v22) ↦{fullShare} W main_v22) ∗ (((c.tc : Thread nD τ).loc main_v23_0) ↦{fullShare} W main_v23_0) ∗ (((c.tc : Thread nD τ).loc main_v23_1) ↦{fullShare} W main_v23_1)) := by
  unfold Pipeline.arrBufs
  exact bigSep_eq_bigSepL_of_eq arrs1 arrs1_eq arrs1_nodup _

/-- The share each window holds its array at. -/
theorem share1_0 (c : Dev nD) : (dat1 V c).share 0 = fullShare.left.left := by unfold Dat.share; rw [q1_0]; rfl
theorem share1_1 (c : Dev nD) : (dat1 V c).share 1 = fullShare.left.right := by unfold Dat.share; rw [q1_1]; rfl
theorem share1_2 (c : Dev nD) : (dat1 V c).share 2 = fullShare.right.left := by unfold Dat.share; rw [q1_2]; rfl
theorem share1_3 (c : Dev nD) : (dat1 V c).share 3 = fullShare.right.right := by unfold Dat.share; rw [q1_3]; rfl
theorem share1_4 (c : Dev nD) : (dat1 V c).share 4 = fullShare := by unfold Dat.share; rw [q1_4]; rfl
theorem share1_5 (c : Dev nD) : (dat1 V c).share 5 = fullShare := by unfold Dat.share; rw [q1_5]; rfl
theorem share1_6 (c : Dev nD) : (dat1 V c).share 6 = fullShare := by unfold Dat.share; rw [q1_6]; rfl
theorem share1_7 (c : Dev nD) : (dat1 V c).share 7 = fullShare := by unfold Dat.share; rw [q1_7]; rfl
theorem share1_8 (c : Dev nD) : (dat1 V c).share 8 = fullShare := by unfold Dat.share; rw [q1_8]; rfl
theorem share1_9 (c : Dev nD) : (dat1 V c).share 9 = fullShare := by unfold Dat.share; rw [q1_9]; rfl
theorem share1_10 (c : Dev nD) : (dat1 V c).share 10 = fullShare := by unfold Dat.share; rw [q1_10]; rfl
theorem share1_11 (c : Dev nD) : (dat1 V c).share 11 = fullShare := by unfold Dat.share; rw [q1_11]; rfl
theorem share1_12 (c : Dev nD) : (dat1 V c).share 12 = fullShare := by unfold Dat.share; rw [q1_12]; rfl
theorem share1_13 (c : Dev nD) : (dat1 V c).share 13 = fullShare := by unfold Dat.share; rfl
theorem share1_14 (c : Dev nD) : (dat1 V c).share 14 = fullShare := by unfold Dat.share; rfl

/-- ENTRY: the buffers behind the windows' arrays, each held whole, make the proof data's arrays: the shared array's
    full ownership is dealt in quarters to the four windows that read it. -/
theorem arrays_of_arrBufs1 (c : Dev nD) (W : (b : Ref sig .tc) → Buf (Elt F) ((c.tc : Thread nD τ).loc b))
    (Fw : (w : Fin cfg1.W) → Buf (Elt F) ((cfg1.win w).arr.view.loc (c.tc : Thread nD τ)))
    (hF : ∀ w, Fw w = W (Pipeline.arrRef spec1 w)) :
    (Pipeline.arrBufs spec1 c W : sProp 𝕄) ⊢ (dat1 V c).arrays Fw := by
  obtain rfl : Fw = fun w => W (Pipeline.arrRef spec1 w) := funext hF
  rw [arrBufs1_eq]
  unfold Dat.arrays
  rw [bigSep_W1]
  simp only [share1_0, share1_1, share1_2, share1_3, share1_4, share1_5, share1_6, share1_7, share1_8, share1_9, share1_10, share1_11, share1_12, share1_13, share1_14, (arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ, (arr_whole1 11).set_eq_univ, (arr_whole1 12).set_eq_univ, (arr_whole1 13).set_eq_univ, (arr_whole1 14).set_eq_univ]
  iintro ⟨H14, Hc, H15, H16, H17, H18, H19, H20, H21, H22, Ho0, Ho1⟩
  ihave H := (pointsTo_share (PosShare.mem_left_op_right fullShare)).1 $$ H14
  icases H with ⟨HL, HR⟩
  ihave H := (pointsTo_share (PosShare.mem_left_op_right fullShare.left)).1 $$ HL
  icases H with ⟨HLL, HLR⟩
  ihave H := (pointsTo_share (PosShare.mem_left_op_right fullShare.right)).1 $$ HR
  icases H with ⟨HRL, HRR⟩
  isplitl [HLL]; · iexact HLL
  isplitl [HLR]; · iexact HLR
  isplitl [HRL]; · iexact HRL
  isplitl [HRR]; · iexact HRR
  isplitl [Hc]; · iexact Hc
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [Ho0]; · iexact Ho0
  iexact Ho1

/-- EXIT: the proof data's arrays, the four windows on the shared array holding it at the same contents, make the
    buffers behind the arrays held whole again. -/
theorem arrBufs_of_arrays1 (c : Dev nD) (W : (b : Ref sig .tc) → Buf (Elt F) ((c.tc : Thread nD τ).loc b))
    (Fw : (w : Fin cfg1.W) → Buf (Elt F) ((cfg1.win w).arr.view.loc (c.tc : Thread nD τ)))
    (hF : ∀ w, Fw w = W (Pipeline.arrRef spec1 w)) :
    (dat1 V c).arrays Fw ⊢ (Pipeline.arrBufs spec1 c W : sProp 𝕄) := by
  obtain rfl : Fw = fun w => W (Pipeline.arrRef spec1 w) := funext hF
  rw [arrBufs1_eq]
  unfold Dat.arrays
  rw [bigSep_W1]
  simp only [share1_0, share1_1, share1_2, share1_3, share1_4, share1_5, share1_6, share1_7, share1_8, share1_9, share1_10, share1_11, share1_12, share1_13, share1_14, (arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ, (arr_whole1 11).set_eq_univ, (arr_whole1 12).set_eq_univ, (arr_whole1 13).set_eq_univ, (arr_whole1 14).set_eq_univ]
  iintro ⟨HLL, HLR, HRL, HRR, Hc, H15, H16, H17, H18, H19, H20, H21, H22, Ho0, Ho1⟩
  ihave HL := (pointsTo_share (PosShare.mem_left_op_right fullShare.left)).2 $$ [HLL HLR]
  · isplitl [HLL]; · iexact HLL
    iexact HLR
  ihave HR := (pointsTo_share (PosShare.mem_left_op_right fullShare.right)).2 $$ [HRL HRR]
  · isplitl [HRL]; · iexact HRL
    iexact HRR
  ihave H14 := (pointsTo_share (PosShare.mem_left_op_right fullShare)).2 $$ [HL HR]
  · isplitl [HL]; · iexact HL
    iexact HR
  isplitl [H14]; · iexact H14
  isplitl [Hc]; · iexact Hc
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [Ho0]; · iexact Ho0
  iexact Ho1

end Cert.KernelIdeal.Stage2

end
-- ==== Proof.Ideal.RunCond.lean ====
/-
  The run of @main with every buffer named at the end.

  @main is a stretch of host operations, the first kernel region, a second stretch and the second region.  Given,
  for each region, its segment record entered from the buffers' contents before it and left at the contents after it,
  every weakly fair execution from the launch memory terminates, and at the end EVERY unscoped buffer of a core
  holds the last valuation: the launch contents pushed through the host operations, with each region's result
  arrays replaced by what the region leaves.  The frame (arguments unchanged) and the values of the two results are
  both read off this one statement.
-/
import proofs.«160278_j67095979098853_2_alg».proof.Proof.Gen.KernelIdeal.Regions

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

-- the library theorem's implicit arguments are found by unifying its conclusion with this one, which takes unfolding plain
-- definitions in a metavariable's type
set_option backward.isDefEq.respectTransparency.types false in
/-- Every weakly fair execution of @main terminates with every unscoped buffer of every core at the last valuation,
    given one segment record per kernel region chained through the valuations between the items. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => ∀ b ∈ Pipeline.ucRefs τ sig, s.mem (((c : Thread nD τ)).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

end Cert.KernelIdeal.Asm

end
-- ==== Proof.Ideal.Asm.lean ====
/-
  @main from the launch to the return, with both kernel regions' proof data in place.

  The buffers' contents between the items of @main are fixed here: after the first stretch of host operations the
  launch contents pushed through them; after the first region the same with the region's result array replaced by
  what its write-backs leave; after the second stretch that pushed through its reshapes; after the second region
  the two result arrays replaced by what the second region's write-backs leave.  Each region is a segment entered
  from "every unscoped buffer held at the contents before it, the generator register at some state, nothing owed"
  and left at the same with the contents after it.  The first region's arrays are six distinct buffers; four of the
  second region's windows share one array, dealt in quarters at entry and gathered at exit.
-/
import proofs.«160278_j67095979098853_2_alg».proof.Proof.Ideal.AsmDefs
import proofs.«160278_j67095979098853_2_alg».proof.Proof.Ideal.Reg1
import proofs.«160278_j67095979098853_2_alg».proof.Proof.Ideal.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every pipeline's proof data, each at its region's entry contents: a literal match on the pipeline's number. -/
def pdats : (p : Fin 2) → (c : Dev nD) → Dat τ (Elt F) Unit ℕ (UR sig nD τ) ℕ (cfgs p) c
  | ⟨0, _⟩ => fun c => Stage1.dat0 (Vr1 m) c
  | ⟨1, _⟩ => fun c => Stage2.dat1 (Vr3 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its debts,
    at nothing. -/
abbrev R (c : Dev nD) : sProp 𝕄 :=
  iprop((∃ r, prngReg c r) ∗ ∃ W, owes (c : Thread nD τ) (0 : CellTallies nD τ sig Unit) W)

/-! ## The first region as a segment -/

/-- After the first region each of its arrays holds what the pipeline leaves: the inputs as entered, the result
    array what its write-backs made of it. -/
theorem hF0 (c : Dev nD) (w : Fin cfg0.W) :
    (pdats m 0 c).arrAt w cfg0.N = (fun b => V2 m (outs m) c b : (b : Ref sig .tc) → Buf (Elt F) ((c : Thread nD τ).loc b)) (Pipeline.arrRef spec0 w) := by
  have hin : ∀ (w : Fin cfg0.W) (hw : (cfg0.win w).isOut = false) (hr : Pipeline.arrRef spec0 w ∉ ([main_v14] : List (Ref sig .tc))),
      (pdats m 0 c).arrAt w cfg0.N = V2 m (outs m) c (Pipeline.arrRef spec0 w) := fun w hw hr =>
    ((pdats m 0 c).arrAt_in w hw _).trans ((Stage1.A_eq0 (Vr1 m) c w).trans (V2_of m (outs m) c _ hr).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    show X2 m c = V2 m (outs m) c main_v14
    rw [V2_eq]; unfold W2; rw [Function.update_self]

theorem hrest0 (c : Dev nD) : ∀ b, b ∉ Finset.univ.image (Pipeline.arrRef spec0) →
    (fun b => V2 m (outs m) c b : (b : Ref sig .tc) → Buf (Elt F) ((c : Thread nD τ).loc b)) b = Vr1 m c b :=
  fun b hb => V2_of m (outs m) c b (by
    intro h
    rw [List.mem_singleton] at h
    exact hb (Finset.mem_image.mpr ⟨5, Finset.mem_univ _, h.symm⟩))

-- a library lemma stated over a pinned configuration unifies with the printed one only when unification may unfold plain
-- definitions in a metavariable's type
set_option backward.isDefEq.respectTransparency.types false in
/-- REGION 0 over the thread state: entered from every unscoped buffer at the contents after the first stretch, left
    with the result array at what the region's write-backs leave.  Its six arrays are split out of the unscoped buffers
    and put back; the generator register and the carried scratch go into the region's invariant and come out. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Stage1.body_obligation0 (Vr1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Stage1.dat0 (Vr1 m) c).Φ 0 from rfl]
    iintro ⟨Hp, -, Hr⟩
    iapply (Stage1.hin0 (Vr1 m) c)
    isplitl [Hp]; · iexact Hp
    iexact Hr
  hout c := by
    rw [Pipeline.ownSems0_none, show (pdats m 0 c).Φ (Fin.last _) = (Stage1.dat0 (Vr1 m) c).Φ (Fin.last cfg0.N) from rfl]
    iintro H
    ihave H' := (Stage1.hout0 (Vr1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

set_option maxHeartbeats 2000000 in
/-- After the second region each of its arrays holds what the pipeline leaves: the inputs as entered (the four windows on
    the shared array all at its entry contents), the two result arrays what their write-backs made of them. -/
theorem hF1 (c : Dev nD) (w : Fin cfg1.W) :
    (pdats m 1 c).arrAt w cfg1.N = (fun b => V4 m (outs m) c b : (b : Ref sig .tc) → Buf (Elt F) ((c : Thread nD τ).loc b)) (Pipeline.arrRef spec1 w) := by
  have hin : ∀ (w : Fin cfg1.W) (hw : (cfg1.win w).isOut = false) (hr : Pipeline.arrRef spec1 w ∉ ([main_v23_0, main_v23_1] : List (Ref sig .tc))),
      (pdats m 1 c).arrAt w cfg1.N = V4 m (outs m) c (Pipeline.arrRef spec1 w) := fun w hw hr =>
    ((pdats m 1 c).arrAt_in w hw _).trans ((Stage2.A_eq1 (Vr3 m) c w).trans
      ((V4_of m (outs m) c _ hr).trans (congrFun (V3_eq m c) _)).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact hin 8 rfl (by decide)
  | ⟨9, _⟩ => exact hin 9 rfl (by decide)
  | ⟨10, _⟩ => exact hin 10 rfl (by decide)
  | ⟨11, _⟩ => exact hin 11 rfl (by decide)
  | ⟨12, _⟩ => exact hin 12 rfl (by decide)
  | ⟨13, _⟩ =>
    show X40 m c = V4 m (outs m) c main_v23_0
    rw [V4_eq]; unfold W4
    rw [Function.update_of_ne (StableHlo.devRef_ne_of_ne (by decide)), Function.update_self]
  | ⟨14, _⟩ =>
    show X41 m c = V4 m (outs m) c main_v23_1
    rw [V4_eq]; unfold W4
    rw [Function.update_self]

/-- Every buffer that is no array of the second region leaves it as it entered. -/
theorem hrest1 (c : Dev nD) (b : Ref sig .tc) (hb : b ∉ Finset.univ.image (Pipeline.arrRef spec1)) :
    V4 m (outs m) c b = Vr3 m c b :=
  (V4_of m (outs m) c b (by
    intro h
    rcases List.mem_cons.mp h with h | h
    · exact hb (Finset.mem_image.mpr ⟨13, Finset.mem_univ _, h.symm⟩)
    · rw [List.mem_singleton] at h
      exact hb (Finset.mem_image.mpr ⟨14, Finset.mem_univ _, h.symm⟩))).trans (congrFun (V3_eq m c) _)

/-- ENTRY: the unscoped buffers at the second region's entry contents are its arrays, the shared one dealt in quarters,
    and the rest. -/
theorem entry1 (c : Dev nD) :
    (StableHlo.held (c : Thread nD τ) (Pipeline.ucRefs τ sig) (V3 m (outs m) c) : sProp 𝕄)
      ⊢ iprop((pdats m 1 c).arrays ((pdats m 1 c).arrAt · 0)
          ∗ Pipeline.unscopedRest (Ix := Unit) (Name := ℕ) (U := UR sig nD τ) (Lvl := ℕ) spec1 c (Vr3 m c)) := by
  rw [V3_eq, ← Pipeline.unscopedBufs_held (Ix := Unit) (Name := ℕ) (U := UR sig nD τ) (Lvl := ℕ) c (StableHlo.after hostOps1 (W2 m c)),
    Pipeline.unscopedBufs_split₀ (Ix := Unit) (Name := ℕ) (U := UR sig nD τ) (Lvl := ℕ) cfgs 1 winFacts₀1.arr_unscoped c (Vr3 m c)]
  exact sep_mono (Stage2.arrays_of_arrBufs1 (Vr3 m) c (Vr3 m c) _ (fun w => Stage2.A_eq1 (Vr3 m) c w)) .rfl

/-- EXIT: the second region's arrays at what it leaves, and the rest, are the unscoped buffers at the last contents. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (Vr3 m c))
      ⊢ (StableHlo.held (c : Thread nD τ) (Pipeline.ucRefs τ sig) (V4 m (outs m) c) : sProp 𝕄) := by
  rw [← Pipeline.unscopedBufs_held (Ix := Unit) (Name := ℕ) (U := UR sig nD τ) (Lvl := ℕ) c (V4 m (outs m) c),
    Pipeline.unscopedBufs_split₀ (Ix := Unit) (Name := ℕ) (U := UR sig nD τ) (Lvl := ℕ) cfgs 1 winFacts₀1.arr_unscoped c (fun b => V4 m (outs m) c b)]
  refine sep_mono (Stage2.arrBufs_of_arrays1 (Vr3 m) c (fun b => V4 m (outs m) c b) _ (hF1 m c)) (Entails.of_eq ?_)
  unfold Pipeline.unscopedRest
  exact bigSep_congr fun b hb => congrArg (fun v => (((c.tc : Thread nD τ).loc b) ↦{fullShare} v : sProp 𝕄)) (hrest1 m c b (Finset.mem_sdiff.mp hb).2).symm

-- a library lemma stated over a pinned configuration unifies with the printed one only when unification may unfold plain
-- definitions in a metavariable's type
set_option backward.isDefEq.respectTransparency.types false in
/-- REGION 1 over the thread state: entered from every unscoped buffer at the contents after the second stretch, left
    with the two result arrays at what the region's write-backs leave.  The generator register goes into the region's
    invariant and comes out; nothing is owed; the kernel has no semaphore of its own. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Stage2.body_obligation1 (Vr3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of @main from the launch memory terminates, and at the end every unscoped buffer of
    every core holds the last contents: the conditional run with both regions' segments supplied. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V4 m (outs m) c b) := by
  have hR : ∀ c : Dev nD, (iprop(unscopedSems0 c ∗ owes (c : Thread nD τ) ((0 : Dev nD → CellTallies nD τ sig Unit) c) ∅
      ∗ Pipeline.launchCred (0 : Dev nD → CellTallies nD τ sig Unit) c ∗ prngReg c (ρ c) ∗ (fun _ : Dev nD => (iprop(emp) : sProp 𝕄)) c) : sProp 𝕄) ⊢ R c := fun c => by
    iintro ⟨-, HO, -, Hp, -⟩
    isplitl [Hp]; · iexists _; iexact Hp
    iexists ∅; iexact HO
  refine run_cond m emb₁ () 𝒱₀ L lv (fun _ _ => rfl) ρ (outs m) (pdats m) 0 (fun _ => iprop(emp))
    (initOf (Pipeline.cells cfgs cellOf_inj) (Pipeline.launchToks cfgs cellOf_inj)) ?_ (fun _ c => R c) ?_ ?_
    (reg0 m) (fun _ => .rfl) (fun _ => .rfl) (reg1 m) (fun _ => .rfl) (fun _ => .rfl)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hb : (bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ (fun _ : Dev nD => (iprop(emp) : sProp 𝕄)) c))
        ⊢ (bigSep Finset.univ (fun c : Dev nD => R c) : sProp 𝕄) := bigSep_mono fun c _ => hR c
    iintro ⟨H, -⟩
    imodintro
    ihave H' := hb $$ H
    iexact H'
  · intro c
    iintro ⟨-, HO⟩
    iexact HO

/-- THE FRAME, at any reading of the floats: every weakly fair execution of @main terminates, nothing faulting, and
    every argument array ends as launched (no host operation and no region writes one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
      (h c (Proc.devRef .tc main_arg0) (mem_uc main_arg0 (by decide))).trans (V4_main_arg0 m (outs m) c),
      (h c (Proc.devRef .tc main_arg1) (mem_uc main_arg1 (by decide))).trans (V4_main_arg1 m (outs m) c),
      (h c (Proc.devRef .tc main_arg2) (mem_uc main_arg2 (by decide))).trans (V4_main_arg2 m (outs m) c),
      (h c (Proc.devRef .tc main_arg3) (mem_uc main_arg3 (by decide))).trans (V4_main_arg3 m (outs m) c),
      (h c (Proc.devRef .tc main_arg4) (mem_uc main_arg4 (by decide))).trans (V4_main_arg4 m (outs m) c),
      (h c (Proc.devRef .tc main_arg5) (mem_uc main_arg5 (by decide))).trans (V4_main_arg5 m (outs m) c),
      (h c (Proc.devRef .tc main_arg6) (mem_uc main_arg6 (by decide))).trans (V4_main_arg6 m (outs m) c),
      (h c (Proc.devRef .tc main_arg7) (mem_uc main_arg7 (by decide))).trans (V4_main_arg7 m (outs m) c),
      (h c (Proc.devRef .tc main_arg8) (mem_uc main_arg8 (by decide))).trans (V4_main_arg8 m (outs m) c),
      (h c (Proc.devRef .tc main_arg9) (mem_uc main_arg9 (by decide))).trans (V4_main_arg9 m (outs m) c),
      (h c (Proc.devRef .tc main_arg10) (mem_uc main_arg10 (by decide))).trans (V4_main_arg10 m (outs m) c),
      (h c (Proc.devRef .tc main_arg11) (mem_uc main_arg11 (by decide))).trans (V4_main_arg11 m (outs m) c),
      (h c (Proc.devRef .tc main_arg12) (mem_uc main_arg12 (by decide))).trans (V4_main_arg12 m (outs m) c),
      (h c (Proc.devRef .tc main_arg13) (mem_uc main_arg13 (by decide))).trans (V4_main_arg13 m (outs m) c),
      (h c (Proc.devRef .tc main_arg14) (mem_uc main_arg14 (by decide))).trans (V4_main_arg14 m (outs m) c),
      (h c (Proc.devRef .tc main_arg15) (mem_uc main_arg15 (by decide))).trans (V4_main_arg15 m (outs m) c),
      (h c (Proc.devRef .tc main_arg16) (mem_uc main_arg16 (by decide))).trans (V4_main_arg16 m (outs m) c),
      (h c (Proc.devRef .tc main_arg17) (mem_uc main_arg17 (by decide))).trans (V4_main_arg17 m (outs m) c),
      (h c (Proc.devRef .tc main_arg18) (mem_uc main_arg18 (by decide))).trans (V4_main_arg18 m (outs m) c),
      (h c (Proc.devRef .tc main_arg19) (mem_uc main_arg19 (by decide))).trans (V4_main_arg19 m (outs m) c),
      (h c (Proc.devRef .tc main_arg20) (mem_uc main_arg20 (by decide))).trans (V4_main_arg20 m (outs m) c),
      (h c (Proc.devRef .tc main_arg21) (mem_uc main_arg21 (by decide))).trans (V4_main_arg21 m (outs m) c),
      (h c (Proc.devRef .tc main_arg22) (mem_uc main_arg22 (by decide))).trans (V4_main_arg22 m (outs m) c)⟩)
    (run_all m ρ)

/-- THE RUN WITH ITS RESULTS: as the frame, and the two result arrays end at what the second region leaves. -/
theorem run_results (ρ : Dev nD → PrngReg) :
    θ_run defs (onTc (τ := τ) (main (F := F))) ⟨m, fun _ => 0, ρ⟩ (fun r => ∀ c : Dev nD,
      r.2.mem ((c.tc : Thread nD τ).loc main_v23_0) = W4 m c main_v23_0
      ∧ r.2.mem ((c.tc : Thread nD τ).loc main_v23_1) = W4 m c main_v23_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
      (h c (Proc.devRef .tc main_v23_0) (mem_uc main_v23_0 (by decide))).trans (congrFun (V4_eq m c) _),
      (h c (Proc.devRef .tc main_v23_1) (mem_uc main_v23_1 (by decide))).trans (congrFun (V4_eq m c) _),
      (h c (Proc.devRef .tc main_arg0) (mem_uc main_arg0 (by decide))).trans (V4_main_arg0 m (outs m) c),
      (h c (Proc.devRef .tc main_arg1) (mem_uc main_arg1 (by decide))).trans (V4_main_arg1 m (outs m) c),
      (h c (Proc.devRef .tc main_arg2) (mem_uc main_arg2 (by decide))).trans (V4_main_arg2 m (outs m) c),
      (h c (Proc.devRef .tc main_arg3) (mem_uc main_arg3 (by decide))).trans (V4_main_arg3 m (outs m) c),
      (h c (Proc.devRef .tc main_arg4) (mem_uc main_arg4 (by decide))).trans (V4_main_arg4 m (outs m) c),
      (h c (Proc.devRef .tc main_arg5) (mem_uc main_arg5 (by decide))).trans (V4_main_arg5 m (outs m) c),
      (h c (Proc.devRef .tc main_arg6) (mem_uc main_arg6 (by decide))).trans (V4_main_arg6 m (outs m) c),
      (h c (Proc.devRef .tc main_arg7) (mem_uc main_arg7 (by decide))).trans (V4_main_arg7 m (outs m) c),
      (h c (Proc.devRef .tc main_arg8) (mem_uc main_arg8 (by decide))).trans (V4_main_arg8 m (outs m) c),
      (h c (Proc.devRef .tc main_arg9) (mem_uc main_arg9 (by decide))).trans (V4_main_arg9 m (outs m) c),
      (h c (Proc.devRef .tc main_arg10) (mem_uc main_arg10 (by decide))).trans (V4_main_arg10 m (outs m) c),
      (h c (Proc.devRef .tc main_arg11) (mem_uc main_arg11 (by decide))).trans (V4_main_arg11 m (outs m) c),
      (h c (Proc.devRef .tc main_arg12) (mem_uc main_arg12 (by decide))).trans (V4_main_arg12 m (outs m) c),
      (h c (Proc.devRef .tc main_arg13) (mem_uc main_arg13 (by decide))).trans (V4_main_arg13 m (outs m) c),
      (h c (Proc.devRef .tc main_arg14) (mem_uc main_arg14 (by decide))).trans (V4_main_arg14 m (outs m) c),
      (h c (Proc.devRef .tc main_arg15) (mem_uc main_arg15 (by decide))).trans (V4_main_arg15 m (outs m) c),
      (h c (Proc.devRef .tc main_arg16) (mem_uc main_arg16 (by decide))).trans (V4_main_arg16 m (outs m) c),
      (h c (Proc.devRef .tc main_arg17) (mem_uc main_arg17 (by decide))).trans (V4_main_arg17 m (outs m) c),
      (h c (Proc.devRef .tc main_arg18) (mem_uc main_arg18 (by decide))).trans (V4_main_arg18 m (outs m) c),
      (h c (Proc.devRef .tc main_arg19) (mem_uc main_arg19 (by decide))).trans (V4_main_arg19 m (outs m) c),
      (h c (Proc.devRef .tc main_arg20) (mem_uc main_arg20 (by decide))).trans (V4_main_arg20 m (outs m) c),
      (h c (Proc.devRef .tc main_arg21) (mem_uc main_arg21 (by decide))).trans (V4_main_arg21 m (outs m) c),
      (h c (Proc.devRef .tc main_arg22) (mem_uc main_arg22 (by decide))).trans (V4_main_arg22 m (outs m) c)⟩)
    (run_all m ρ)

end Cert.KernelIdeal.Asm

end
-- ==== Proof.Ideal.HostVals.lean ====
/-
  What the host operations before each kernel region leave in the buffers the regions read, entry by entry, at the
  ideal reading (a change of float format is the identity there).

  * The four gates' weight matrices [2048, 2048] are stacked along the rows into [8192, 2048], transposed to
    [2048, 8192] and narrowed: entry (k, 2048·g + j) of the result is entry (j, k) of gate g's matrix.
  * The four bias vectors are each made a row [1, 2048], stacked into [4, 2048] and reshaped to [4, 1, 2048]:
    entry (g, 0, j) is entry j of gate g's bias.
  * The inputs x and h are narrowed: the same entries.
  * Each LayerNorm gain or bias vector [2048] is reshaped to a row [1, 2048]: entry (0, j) is entry j.
-/
import proofs.«160278_j67095979098853_2_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostVals

open Cert.KernelIdeal Cert.KernelIdeal.Gen
open Idealize.ShloMosaic Idealize.ShloMosaic.TcCoe Idealize.SL.Sem Idealize.ShloMosaic.StableHlo
open Idealize.ShloMosaic.ValueIdx

/-- One of four by the gate's number. -/
def pick4 {α : Sort _} (a b c d : α) : Fin 4 → α
  | ⟨0, _⟩ => a
  | ⟨1, _⟩ => b
  | ⟨2, _⟩ => c
  | ⟨3, _⟩ => d

/-- Column `2048·g + j` of the stacked matrix: gate `g`'s column `j`. -/
def gcol (g : Fin 4) (j : Fin 2048) : Fin 8192 := ⟨2048 * g.val + j.val, by omega⟩

/-- The stacked, transposed, narrowed weights at (k, 2048·g + j): gate g's matrix at (j, k). -/
theorem stacked_apply (W0 W1 W2 W3 : FVec Ideal S2048x2048 .f32) (g : Fin 4) (j k : Fin 2048) :
    (truncf (F := Ideal) .bf16
      (transpose S2048x8192 [1, 0]
        (concatenate S8192x2048 0 [⟨S2048x2048, W0⟩, ⟨S2048x2048, W1⟩, ⟨S2048x2048, W2⟩, ⟨S2048x2048, W3⟩]
          concatenates_S2048x2048_S2048x2048_S2048x2048_S2048x2048_S8192x2048_d0)
        transposes_S8192x2048_S2048x8192_1_0)
      bitsLt_bf16_f32 : FVec Ideal S2048x8192 .bf16) (ix2 k (gcol g j))
      = pick4 W0 W1 W2 W3 g (ix2 j k) := by
  rw [truncf_apply]
  rw [transpose_apply [1, 0] _ transposes_S8192x2048_S2048x8192_1_0 (ix2 k (gcol g j)) (ix2 (gcol g j) k)
    (fun b => match b with | ⟨0, _⟩ => rfl | ⟨1, _⟩ => rfl)]
  match g with
  | ⟨0, _⟩ =>
    exact concatenate_apply_piece (t := S8192x2048) 0 [⟨S2048x2048, W0⟩, ⟨S2048x2048, W1⟩, ⟨S2048x2048, W2⟩, ⟨S2048x2048, W3⟩]
      concatenates_S2048x2048_S2048x2048_S2048x2048_S2048x2048_S8192x2048_d0 (ix2 (gcol ⟨0, by omega⟩ j) k)
      0 (by simp) S2048x2048 W0 rfl rfl 0 (by rfl) (ix2 j k)
      (fun b hb => by match b with | ⟨0, _⟩ => exact absurd (Fin.ext rfl) hb | ⟨1, _⟩ => rfl) (by simp [gcol])
  | ⟨1, _⟩ =>
    exact concatenate_apply_piece (t := S8192x2048) 0 [⟨S2048x2048, W0⟩, ⟨S2048x2048, W1⟩, ⟨S2048x2048, W2⟩, ⟨S2048x2048, W3⟩]
      concatenates_S2048x2048_S2048x2048_S2048x2048_S2048x2048_S8192x2048_d0 (ix2 (gcol ⟨1, by omega⟩ j) k)
      1 (by simp) S2048x2048 W1 rfl rfl 2048 (by rfl) (ix2 j k)
      (fun b hb => by match b with | ⟨0, _⟩ => exact absurd (Fin.ext rfl) hb | ⟨1, _⟩ => rfl) (by simp [gcol])
  | ⟨2, _⟩ =>
    exact concatenate_apply_piece (t := S8192x2048) 0 [⟨S2048x2048, W0⟩, ⟨S2048x2048, W1⟩, ⟨S2048x2048, W2⟩, ⟨S2048x2048, W3⟩]
      concatenates_S2048x2048_S2048x2048_S2048x2048_S2048x2048_S8192x2048_d0 (ix2 (gcol ⟨2, by omega⟩ j) k)
      2 (by simp) S2048x2048 W2 rfl rfl 4096 (by rfl) (ix2 j k)
      (fun b hb => by match b with | ⟨0, _⟩ => exact absurd (Fin.ext rfl) hb | ⟨1, _⟩ => rfl) (by simp [gcol])
  | ⟨3, _⟩ =>
    exact concatenate_apply_piece (t := S8192x2048) 0 [⟨S2048x2048, W0⟩, ⟨S2048x2048, W1⟩, ⟨S2048x2048, W2⟩, ⟨S2048x2048, W3⟩]
      concatenates_S2048x2048_S2048x2048_S2048x2048_S2048x2048_S8192x2048_d0 (ix2 (gcol ⟨3, by omega⟩ j) k)
      3 (by simp) S2048x2048 W3 rfl rfl 6144 (by rfl) (ix2 j k)
      (fun b hb => by match b with | ⟨0, _⟩ => exact absurd (Fin.ext rfl) hb | ⟨1, _⟩ => rfl) (by simp [gcol])

variable (m : (ℓ : Loc nD τ sig) → Buf (Elt Ideal) ℓ)

/-- The launch contents of an argument array on core `c`. -/
abbrev arg (c : Dev nD) (r : Ref sig .tc) : Buf (Elt Ideal) ((c.tc : Thread nD τ).loc r) := m ((c.tc : Thread nD τ).loc r)

theorem v11_eq (c : Dev nD) : (V1 m c main_v11 : S4x1x2048.Idx → EReal) =
    shapeCast S4x1x2048 (concatenate S4x2048 0
      [⟨S1x2048, broadcastInDim S1x2048 ![1] bcast_S2048_S1x2048_1 (arg m c main_arg4)⟩,
       ⟨S1x2048, broadcastInDim S1x2048 ![1] bcast_S2048_S1x2048_1 (arg m c main_arg9)⟩,
       ⟨S1x2048, broadcastInDim S1x2048 ![1] bcast_S2048_S1x2048_1 (arg m c main_arg14)⟩,
       ⟨S1x2048, broadcastInDim S1x2048 ![1] bcast_S2048_S1x2048_1 (arg m c main_arg19)⟩]
      concatenates_S1x2048_S1x2048_S1x2048_S1x2048_S4x2048_d0) shapeCasts_S4x2048_S4x1x2048 := by
  dsimp only [V1, V0, hostOps0]
  after_results
  rfl

theorem v2_eq (c : Dev nD) : (V1 m c main_v2 : S2048x8192.Idx → EReal) =
    truncf (F := Ideal) .bf16
      (transpose S2048x8192 [1, 0]
        (concatenate S8192x2048 0 [⟨S2048x2048, arg m c main_arg3⟩, ⟨S2048x2048, arg m c main_arg8⟩, ⟨S2048x2048, arg m c main_arg13⟩, ⟨S2048x2048, arg m c main_arg18⟩]
          concatenates_S2048x2048_S2048x2048_S2048x2048_S2048x2048_S8192x2048_d0)
        transposes_S8192x2048_S2048x8192_1_0)
      bitsLt_bf16_f32 := by
  dsimp only [V1, V0, hostOps0]
  after_results
  rfl

theorem v2_apply (c : Dev nD) (g : Fin 4) (j k : Fin 2048) :
    (V1 m c main_v2 : S2048x8192.Idx → EReal) (ix2 k (gcol g j))
      = pick4 (arg m c main_arg3) (arg m c main_arg8) (arg m c main_arg13) (arg m c main_arg18) g (ix2 j k) := by
  rw [v2_eq]
  exact stacked_apply _ _ _ _ g j k

theorem v5_eq (c : Dev nD) : (V1 m c main_v5 : S2048x8192.Idx → EReal) =
    truncf (F := Ideal) .bf16
      (transpose S2048x8192 [1, 0]
        (concatenate S8192x2048 0 [⟨S2048x2048, arg m c main_arg5⟩, ⟨S2048x2048, arg m c main_arg10⟩, ⟨S2048x2048, arg m c main_arg15⟩, ⟨S2048x2048, arg m c main_arg20⟩]
          concatenates_S2048x2048_S2048x2048_S2048x2048_S2048x2048_S8192x2048_d0)
        transposes_S8192x2048_S2048x8192_1_0)
      bitsLt_bf16_f32 := by
  dsimp only [V1, V0, hostOps0]
  after_results
  rfl

/-- The stacked recurrent weights at (k, 2048·g + j): gate g's recurrent matrix at (j, k). -/
theorem v5_apply (c : Dev nD) (g : Fin 4) (j k : Fin 2048) :
    (V1 m c main_v5 : S2048x8192.Idx → EReal) (ix2 k (gcol g j))
      = pick4 (arg m c main_arg5) (arg m c main_arg10) (arg m c main_arg15) (arg m c main_arg20) g (ix2 j k) := by
  rw [v5_eq]
  exact stacked_apply _ _ _ _ g j k

/-- The narrowed input x: the same entries. -/
theorem v12_apply (c : Dev nD) (i : S4096x2048.Idx) :
    (V1 m c main_v12 : S4096x2048.Idx → EReal) i = arg m c main_arg0 i := by
  have e : (V1 m c main_v12 : S4096x2048.Idx → EReal) = truncf (F := Ideal) .bf16 (arg m c main_arg0) bitsLt_bf16_f32 := by
    dsimp only [V1, V0, hostOps0]
    after_results
  rw [e, truncf_apply]

/-- The narrowed input h: the same entries. -/
theorem v13_apply (c : Dev nD) (i : S4096x2048.Idx) :
    (V1 m c main_v13 : S4096x2048.Idx → EReal) i = arg m c main_arg1 i := by
  have e : (V1 m c main_v13 : S4096x2048.Idx → EReal) = truncf (F := Ideal) .bf16 (arg m c main_arg1) bitsLt_bf16_f32 := by
    dsimp only [V1, V0, hostOps0]
    after_results
  rw [e, truncf_apply]

/-- Four rows [1, 2048] made of four vectors, stacked and given a unit middle axis, at (g, 0, j): vector g at j. -/
theorem biases_apply (b0 b1 b2 b3 : FVec Ideal S2048 .f32) (g : Fin 4) (j : Fin 2048) :
    (shapeCast S4x1x2048 (concatenate S4x2048 0
      [⟨S1x2048, broadcastInDim S1x2048 ![1] bcast_S2048_S1x2048_1 b0⟩,
       ⟨S1x2048, broadcastInDim S1x2048 ![1] bcast_S2048_S1x2048_1 b1⟩,
       ⟨S1x2048, broadcastInDim S1x2048 ![1] bcast_S2048_S1x2048_1 b2⟩,
       ⟨S1x2048, broadcastInDim S1x2048 ![1] bcast_S2048_S1x2048_1 b3⟩]
      concatenates_S1x2048_S1x2048_S1x2048_S1x2048_S4x2048_d0) shapeCasts_S4x2048_S4x1x2048 : FVec Ideal S4x1x2048 .f32)
      (ix3 g (0 : Fin 1) j) = pick4 b0 b1 b2 b3 g (ix1 j) := by
  rw [shapeCast_apply _ shapeCasts_S4x2048_S4x1x2048 (ix3 g (0 : Fin 1) j) (ix2 g j)
    (by rw [Shape.rowMajor_val_two, Shape.rowMajor_val_three]; simp)]
  have hb : ∀ (b : FVec Ideal S2048 .f32), (broadcastInDim S1x2048 ![1] bcast_S2048_S1x2048_1 b : FVec Ideal S1x2048 .f32) (ix2 (0 : Fin 1) j) = b (ix1 j) :=
    fun b => broadcastInDim_apply ![1] bcast_S2048_S1x2048_1 b (ix2 (0 : Fin 1) j) (ix1 j)
      (fun a => by match a with | ⟨0, _⟩ => rfl)
  match g with
  | ⟨0, _⟩ =>
    refine (concatenate_apply_piece (t := S4x2048) 0 [⟨S1x2048, broadcastInDim S1x2048 ![1] bcast_S2048_S1x2048_1 b0⟩, ⟨S1x2048, broadcastInDim S1x2048 ![1] bcast_S2048_S1x2048_1 b1⟩, ⟨S1x2048, broadcastInDim S1x2048 ![1] bcast_S2048_S1x2048_1 b2⟩, ⟨S1x2048, broadcastInDim S1x2048 ![1] bcast_S2048_S1x2048_1 b3⟩] concatenates_S1x2048_S1x2048_S1x2048_S1x2048_S4x2048_d0 (ix2 (⟨0, by omega⟩ : Fin 4) j)
      0 (by simp) S1x2048 _ rfl rfl 0 (by rfl) (ix2 (0 : Fin 1) j)
      (fun b hb => by match b with | ⟨0, _⟩ => exact absurd (Fin.ext rfl) hb | ⟨1, _⟩ => rfl) (by simp)).trans (hb b0)
  | ⟨1, _⟩ =>
    refine (concatenate_apply_piece (t := S4x2048) 0 [⟨S1x2048, broadcastInDim S1x2048 ![1] bcast_S2048_S1x2048_1 b0⟩, ⟨S1x2048, broadcastInDim S1x2048 ![1] bcast_S2048_S1x2048_1 b1⟩, ⟨S1x2048, broadcastInDim S1x2048 ![1] bcast_S2048_S1x2048_1 b2⟩, ⟨S1x2048, broadcastInDim S1x2048 ![1] bcast_S2048_S1x2048_1 b3⟩] concatenates_S1x2048_S1x2048_S1x2048_S1x2048_S4x2048_d0 (ix2 (⟨1, by omega⟩ : Fin 4) j)
      1 (by simp) S1x2048 _ rfl rfl 1 (by rfl) (ix2 (0 : Fin 1) j)
      (fun b hb => by match b with | ⟨0, _⟩ => exact absurd (Fin.ext rfl) hb | ⟨1, _⟩ => rfl) (by simp)).trans (hb b1)
  | ⟨2, _⟩ =>
    refine (concatenate_apply_piece (t := S4x2048) 0 [⟨S1x2048, broadcastInDim S1x2048 ![1] bcast_S2048_S1x2048_1 b0⟩, ⟨S1x2048, broadcastInDim S1x2048 ![1] bcast_S2048_S1x2048_1 b1⟩, ⟨S1x2048, broadcastInDim S1x2048 ![1] bcast_S2048_S1x2048_1 b2⟩, ⟨S1x2048, broadcastInDim S1x2048 ![1] bcast_S2048_S1x2048_1 b3⟩] concatenates_S1x2048_S1x2048_S1x2048_S1x2048_S4x2048_d0 (ix2 (⟨2, by omega⟩ : Fin 4) j)
      2 (by simp) S1x2048 _ rfl rfl 2 (by rfl) (ix2 (0 : Fin 1) j)
      (fun b hb => by match b with | ⟨0, _⟩ => exact absurd (Fin.ext rfl) hb | ⟨1, _⟩ => rfl) (by simp)).trans (hb b2)
  | ⟨3, _⟩ =>
    refine (concatenate_apply_piece (t := S4x2048) 0 [⟨S1x2048, broadcastInDim S1x2048 ![1] bcast_S2048_S1x2048_1 b0⟩, ⟨S1x2048, broadcastInDim S1x2048 ![1] bcast_S2048_S1x2048_1 b1⟩, ⟨S1x2048, broadcastInDim S1x2048 ![1] bcast_S2048_S1x2048_1 b2⟩, ⟨S1x2048, broadcastInDim S1x2048 ![1] bcast_S2048_S1x2048_1 b3⟩] concatenates_S1x2048_S1x2048_S1x2048_S1x2048_S4x2048_d0 (ix2 (⟨3, by omega⟩ : Fin 4) j)
      3 (by simp) S1x2048 _ rfl rfl 3 (by rfl) (ix2 (0 : Fin 1) j)
      (fun b hb => by match b with | ⟨0, _⟩ => exact absurd (Fin.ext rfl) hb | ⟨1, _⟩ => rfl) (by simp)).trans (hb b3)

/-- The stacked biases at (g, 0, j): gate g's bias at j. -/
theorem v11_apply (c : Dev nD) (g : Fin 4) (j : Fin 2048) :
    (V1 m c main_v11 : S4x1x2048.Idx → EReal) (ix3 g (0 : Fin 1) j)
      = pick4 (arg m c main_arg4) (arg m c main_arg9) (arg m c main_arg14) (arg m c main_arg19) g (ix1 j) := by
  rw [v11_eq]
  exact biases_apply _ _ _ _ g j

/-! ## Before the second region -/

/-- A vector reshaped to one row, at (0, k): the vector at k. -/
theorem row_apply (outs : Outs (F := Ideal)) (c : Dev nD) (k : Fin 2048) :
    (V3 m outs c main_v15 : S1x2048.Idx → EReal) (ix2 (0 : Fin 1) k) = arg m c main_arg6 (ix1 k)
    ∧ (V3 m outs c main_v16 : S1x2048.Idx → EReal) (ix2 (0 : Fin 1) k) = arg m c main_arg7 (ix1 k)
    ∧ (V3 m outs c main_v17 : S1x2048.Idx → EReal) (ix2 (0 : Fin 1) k) = arg m c main_arg11 (ix1 k)
    ∧ (V3 m outs c main_v18 : S1x2048.Idx → EReal) (ix2 (0 : Fin 1) k) = arg m c main_arg12 (ix1 k)
    ∧ (V3 m outs c main_v19 : S1x2048.Idx → EReal) (ix2 (0 : Fin 1) k) = arg m c main_arg16 (ix1 k)
    ∧ (V3 m outs c main_v20 : S1x2048.Idx → EReal) (ix2 (0 : Fin 1) k) = arg m c main_arg17 (ix1 k)
    ∧ (V3 m outs c main_v21 : S1x2048.Idx → EReal) (ix2 (0 : Fin 1) k) = arg m c main_arg21 (ix1 k)
    ∧ (V3 m outs c main_v22 : S1x2048.Idx → EReal) (ix2 (0 : Fin 1) k) = arg m c main_arg22 (ix1 k) := by
  have hr : ∀ (r : Ref sig .tc) (x : FVec Ideal S2048 .f32), (shapeCast S1x2048 x shapeCasts_S2048_S1x2048 : FVec Ideal S1x2048 .f32) (ix2 (0 : Fin 1) k) = x (ix1 k) :=
    fun _ x => shapeCast_a_1a_apply x shapeCasts_S2048_S1x2048 (0 : Fin 1) k
  have ha : ∀ (r : Ref sig .tc), r ∉ ([main_v14] : List (Ref sig .tc)) → r ∉ hostOps0_W → V2 m outs c r = m ((c : Thread nD τ).loc r) :=
    fun r h1 h2 => (V2_of m outs c r h1).trans ((V1_of m c r h2).trans rfl)
  refine ⟨?_, ?_, ?_, ?_, ?_, ?_, ?_, ?_⟩
  · have e : (V3 m outs c main_v15 : S1x2048.Idx → EReal) = shapeCast S1x2048 (V2 m outs c main_arg6 : S2048.Idx → EReal) shapeCasts_S2048_S1x2048 := by
      dsimp only [V3, hostOps1]; after_results; rfl
    rw [e, hr main_arg6, ha main_arg6 (by decide) (by decide)]
  · have e : (V3 m outs c main_v16 : S1x2048.Idx → EReal) = shapeCast S1x2048 (V2 m outs c main_arg7 : S2048.Idx → EReal) shapeCasts_S2048_S1x2048 := by
      dsimp only [V3, hostOps1]; after_results; rfl
    rw [e, hr main_arg7, ha main_arg7 (by decide) (by decide)]
  · have e : (V3 m outs c main_v17 : S1x2048.Idx → EReal) = shapeCast S1x2048 (V2 m outs c main_arg11 : S2048.Idx → EReal) shapeCasts_S2048_S1x2048 := by
      dsimp only [V3, hostOps1]; after_results; rfl
    rw [e, hr main_arg11, ha main_arg11 (by decide) (by decide)]
  · have e : (V3 m outs c main_v18 : S1x2048.Idx → EReal) = shapeCast S1x2048 (V2 m outs c main_arg12 : S2048.Idx → EReal) shapeCasts_S2048_S1x2048 := by
      dsimp only [V3, hostOps1]; after_results; rfl
    rw [e, hr main_arg12, ha main_arg12 (by decide) (by decide)]
  · have e : (V3 m outs c main_v19 : S1x2048.Idx → EReal) = shapeCast S1x2048 (V2 m outs c main_arg16 : S2048.Idx → EReal) shapeCasts_S2048_S1x2048 := by
      dsimp only [V3, hostOps1]; after_results; rfl
    rw [e, hr main_arg16, ha main_arg16 (by decide) (by decide)]
  · have e : (V3 m outs c main_v20 : S1x2048.Idx → EReal) = shapeCast S1x2048 (V2 m outs c main_arg17 : S2048.Idx → EReal) shapeCasts_S2048_S1x2048 := by
      dsimp only [V3, hostOps1]; after_results; rfl
    rw [e, hr main_arg17, ha main_arg17 (by decide) (by decide)]
  · have e : (V3 m outs c main_v21 : S1x2048.Idx → EReal) = shapeCast S1x2048 (V2 m outs c main_arg21 : S2048.Idx → EReal) shapeCasts_S2048_S1x2048 := by
      dsimp only [V3, hostOps1]; after_results; rfl
    rw [e, hr main_arg21, ha main_arg21 (by decide) (by decide)]
  · have e : (V3 m outs c main_v22 : S1x2048.Idx → EReal) = shapeCast S1x2048 (V2 m outs c main_arg22 : S2048.Idx → EReal) shapeCasts_S2048_S1x2048 := by
      dsimp only [V3, hostOps1]; after_results; rfl
    rw [e, hr main_arg22, ha main_arg22 (by decide) (by decide)]

/-- The old cell state reaches the second region as launched. -/
theorem c_V3 (outs : Outs (F := Ideal)) (c : Dev nD) : V3 m outs c main_arg2 = arg m c main_arg2 :=
  (V3_of m outs c main_arg2 (by decide)).trans ((V2_of m outs c main_arg2 (by decide)).trans ((V1_of m c main_arg2 (by decide)).trans rfl))

/-- The first region's result reaches the second region as the first region left it. -/
theorem v14_V3 (outs : Outs (F := Ideal)) (c : Dev nD) : V3 m outs c main_v14 = outs 2 main_v14 c :=
  (V3_of m outs c main_v14 (by decide)).trans (by simp only [V2, Function.update_self])

end Cert.KernelIdeal.HostVals

end
-- ==== Proof.Ideal.Stage1Pieces.lean ====
/- Region 0: what each case of the body leaves in the accumulator and in the output's staging buffer, as the
   body's payloads of the point's input blocks and of what the point before left in the accumulator. -/
import proofs.«160278_j67095979098853_2_alg».proof.Proof.Ideal.Stage1
import Idealize.ShloMosaic.Lib.Pipeline.Value

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The reduction's first step leaves in the accumulator the step's two products added onto the zero splat. -/
theorem soutA_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) :
    sout0_A_0 c i arg3 harg3 arg4 harg4 arg5 harg5 arg6 harg6 arg7 harg7 arg8 harg8 arg9 harg9 hc0 hc1 x0 x1 x2 x3 x4 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  try sl_unfold_words
  rw [View.canon_cons_unit_zero hz2, View.readCov_unit_zero (S := S1024x2048) _ hz2]
  simp only [View.readAt_eq_ld, harg3.read_unread, harg4.read_unread, harg5.read_unread, harg6.read_unread, harg7.read_unread, harg9.read_unread,
    View.ld_unit_zero (S := S1024x512) hz2, View.ld_unit_zero (S := S512x2048) hz2, View.ld_unit_zero (S := S1024x2048) hz2, View.ld_unit_zero (S := S1x1x2048) hz3]

/-- A middle step leaves in the accumulator the step's two products added onto what it held. -/
theorem soutB_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : ¬cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) :
    sout0_B_0 c i arg3 harg3 arg4 harg4 arg5 harg5 arg6 harg6 arg7 harg7 arg8 harg8 arg9 harg9 hc0 hc1 x0 x1 x2 x3 x4 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  try sl_unfold_words
  rw [View.canon_unit_zero hz2]
  simp only [View.readAt_eq_ld, harg3.read_unread, harg4.read_unread, harg5.read_unread, harg6.read_unread, harg7.read_unread, harg9.read_unread,
    View.ld_unit_zero (S := S1024x512) hz2, View.ld_unit_zero (S := S512x2048) hz2, View.ld_unit_zero (S := S1024x2048) hz2, View.ld_unit_zero (S := S1x1x2048) hz3]

/-- The last step leaves in the accumulator the step's two products added onto what it held, -/
theorem soutC_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) :
    sout0_C_0 c i arg3 harg3 arg4 harg4 arg5 harg5 arg6 harg6 arg7 harg7 arg8 harg8 arg9 harg9 hc0 hc1 x0 x1 x2 x3 x4 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  try sl_unfold_words
  rw [View.canon_unit_zero hz2]
  simp only [View.readAt_eq_ld, harg3.read_unread, harg4.read_unread, harg5.read_unread, harg6.read_unread, harg7.read_unread, harg9.read_unread,
    View.ld_unit_zero (S := S1024x512) hz2, View.ld_unit_zero (S := S512x2048) hz2, View.ld_unit_zero (S := S1024x2048) hz2, View.ld_unit_zero (S := S1x1x2048) hz3]

/-- and in the output's staging buffer that sum with the bias row added, rounded to the output's type. -/
theorem outC_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x1x2048 .f32) (harg7 : arg7.IsWhole) (arg8 : Memref sig .tc .vmem S1x1024x2048 .bf16) (harg8 : arg8.IsWhole) (arg9 : Memref sig .tc .vmem S1024x2048 .f32) (harg9 : arg9.IsWhole) (hc0 : ¬cond0_0 i) (hc1 : cond0_1 i)
    (x0 : Vec F S1024x512 .bf16) (x1 : Vec F S1024x512 .bf16) (x2 : Vec F S512x2048 .bf16) (x3 : Vec F S512x2048 .bf16) (x4 : Vec F S1x1x2048 .f32) (xs0 : Vec F S1024x2048 .f32) :
    out0_C_5 c i arg3 harg3 arg4 harg4 arg5 harg5 arg6 harg6 arg7 harg7 arg8 harg8 arg9 harg9 hc0 hc1 x0 x1 x2 x3 x4 xs0 = k0_pay3 (k0_pay2 x0 x1 x2 x3 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  try sl_unfold_words
  rw [View.canon_unit_zero hz3, View.readCov_unit_zero (S := S1024x2048) _ hz2]
  simp only [View.readAt_eq_ld, harg3.read_unread, harg4.read_unread, harg5.read_unread, harg6.read_unread, harg7.read_unread, harg9.read_unread,
    View.ld_unit_zero (S := S1024x512) hz2, View.ld_unit_zero (S := S512x2048) hz2, View.ld_unit_zero (S := S1024x2048) hz2, View.ld_unit_zero (S := S1x1x2048) hz3]

end Cert.KernelIdeal.Stage1

end
-- ==== Proof.Ideal.Stage1Pay.lean ====
/- Region 0 at the ideal values: the body's three payloads read at one index — the zero splat, one reduction
   step (two row-by-column products added onto the accumulator), and the last step's bias row and rounding. -/
import proofs.«160278_j67095979098853_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Stage1

open Idealize.ShloMosaic Idealize.ShloMosaic.ValueIdx
open Cert.KernelIdeal.Gen

/-! ## The contraction's index maps -/

theorem dot_lhs_0 (i : S1024x2048.Idx) (q : (dot_S1024x512_S512x2048_S1024x2048_1_0_0_1_n_n).contr.Idx) :
    ((dot_S1024x512_S512x2048_S1024x2048_1_0_0_1_n_n).lhsIdx i q 0).val = (i 0).val := by
  unfold DotDims.lhsIdx
  rw [dif_neg (show ¬(0 : Fin S1024x512.rank) ∈ (dot_S1024x512_S512x2048_S1024x2048_1_0_0_1_n_n).lhsBatch by decide), dif_pos (show (0 : Fin S1024x512.rank) ∈ (dot_S1024x512_S512x2048_S1024x2048_1_0_0_1_n_n).lhsNonContracting by decide)]
  rfl
theorem dot_lhs_1 (i : S1024x2048.Idx) (q : (dot_S1024x512_S512x2048_S1024x2048_1_0_0_1_n_n).contr.Idx) :
    ((dot_S1024x512_S512x2048_S1024x2048_1_0_0_1_n_n).lhsIdx i q 1).val = (q ⟨0, by decide⟩).val :=
  (dot_S1024x512_S512x2048_S1024x2048_1_0_0_1_n_n).lhsIdx_val_of_single rfl i q
theorem dot_rhs_0 (i : S1024x2048.Idx) (q : (dot_S1024x512_S512x2048_S1024x2048_1_0_0_1_n_n).contr.Idx) :
    ((dot_S1024x512_S512x2048_S1024x2048_1_0_0_1_n_n).rhsIdx i q 0).val = (q ⟨0, by decide⟩).val :=
  (dot_S1024x512_S512x2048_S1024x2048_1_0_0_1_n_n).rhsIdx_val_of_single rfl i q
theorem dot_rhs_1 (i : S1024x2048.Idx) (q : (dot_S1024x512_S512x2048_S1024x2048_1_0_0_1_n_n).contr.Idx) :
    ((dot_S1024x512_S512x2048_S1024x2048_1_0_0_1_n_n).rhsIdx i q 1).val = (i 1).val := by
  unfold DotDims.rhsIdx
  rw [dif_neg (show ¬(1 : Fin S512x2048.rank) ∈ (dot_S1024x512_S512x2048_S1024x2048_1_0_0_1_n_n).rhsBatch by decide), dif_pos (show (1 : Fin S512x2048.rank) ∈ (dot_S1024x512_S512x2048_S1024x2048_1_0_0_1_n_n).rhsNonContracting by decide)]
  rfl

/-- A row block times a column block, accumulated into the zero splat, at row `p` and column `j`: the sum over the
    512 inner positions. -/
theorem matmul_zero_ix2 (a : FVec Ideal S1024x512 .bf16) (b : FVec Ideal S512x2048 .bf16) (p : Fin 1024) (j : Fin 2048) :
    matmul dot_S1024x512_S512x2048_S1024x2048_1_0_0_1_n_n none a b (constant (F := Ideal) S1024x2048 .f32 0x00000000#32) (ix2 p j)
      = ∑ k : Fin 512, a (ix2 p k) * b (ix2 k j) := by
  refine (Ideal.matmul_constant_zero_apply dot_S1024x512_S512x2048_S1024x2048_1_0_0_1_n_n none a b (ix2 p j)).trans ?_
  rw [← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : (dot_S1024x512_S512x2048_S1024x2048_1_0_0_1_n_n).lhsIdx (ix2 p j) ((contrEquiv1 dot_S1024x512_S512x2048_S1024x2048_1_0_0_1_n_n 512 rfl rfl).symm k) = ix2 p k := funext fun a => Fin.ext (by
    match a with
    | ⟨0, _⟩ => exact dot_lhs_0 _ _
    | ⟨1, _⟩ => exact (dot_lhs_1 _ _).trans hk)
  have er : (dot_S1024x512_S512x2048_S1024x2048_1_0_0_1_n_n).rhsIdx (ix2 p j) ((contrEquiv1 dot_S1024x512_S512x2048_S1024x2048_1_0_0_1_n_n 512 rfl rfl).symm k) = ix2 k j := funext fun a => Fin.ext (by
    match a with
    | ⟨0, _⟩ => exact (dot_rhs_0 _ _).trans hk
    | ⟨1, _⟩ => exact dot_rhs_1 _ _)
  rw [el, er]

/-! ## The payloads at an index -/

/-- The zero splat is zero everywhere. -/
theorem pay1_apply (p : Fin 1024) (j : Fin 2048) : k0_pay1 (F := Ideal) (ix2 p j) = 0 := by
  unfold k0_pay1
  simp only [shapeCast_self]
  exact Ideal.ofBits_zero_f32

/-- One reduction step at row `p`, column `j`: the accumulator's entry plus the two row-by-column sums of the
    step's blocks (the activation block with its weight block, the state block with its weight block). -/
theorem pay2_apply (x0 x1 : Vec Ideal S1024x512 .bf16) (x2 x3 : Vec Ideal S512x2048 .bf16) (acc : Vec Ideal S1024x2048 .f32)
    (p : Fin 1024) (j : Fin 2048) :
    k0_pay2 (F := Ideal) x0 x1 x2 x3 acc (ix2 p j)
      = acc (ix2 p j) + ((∑ k : Fin 512, x0 (ix2 p k) * x2 (ix2 k j)) + (∑ k : Fin 512, x1 (ix2 p k) * x3 (ix2 k j))) := by
  unfold k0_pay2
  simp only [shapeCast_self]
  refine (addf_apply _ _ _).trans ?_
  refine congrArg (acc (ix2 p j) + ·) ?_
  refine (addf_apply _ _ _).trans ?_
  exact congrArg₂ (· + ·) (matmul_zero_ix2 x0 x2 p j) (matmul_zero_ix2 x1 x3 p j)

/-- The last step's store at row `p`, column `j` of its one-gate block: the accumulator's entry plus the bias row's
    entry (the rounding to the output's type is the identity on ideal values). -/
theorem pay3_apply (acc : Vec Ideal S1024x2048 .f32) (b : Vec Ideal S1x1x2048 .f32) (p : Fin 1024) (j : Fin 2048) :
    k0_pay3 (F := Ideal) acc b (ix3 (0 : Fin 1) p j) = acc (ix2 p j) + b (ix3 (0 : Fin 1) (0 : Fin 1) j) := by
  unfold k0_pay3
  refine (shapeCast_apply _ _ (ix3 (0 : Fin 1) p j) (ix2 p j) (by
    rw [Shape.rowMajor_val_two, Shape.rowMajor_val_three]
    show p.val * 2048 + j.val = ((0 : Fin 1).val * 1024 + p.val) * 2048 + j.val
    simp)).trans ?_
  refine (truncf_apply (ψ := .bf16) _ bitsLt_bf16_f32 (ix2 p j)).trans ?_
  refine (addf_apply _ _ _).trans ?_
  refine congrArg (acc (ix2 p j) + ·) ?_
  refine (broadcastTo_apply _ _ (ix2 p j) (ix2 (0 : Fin 1) j) (fun a => by
    match a with
    | ⟨0, _⟩ => rfl
    | ⟨1, _⟩ => rfl)).trans ?_
  exact shapeCast_apply _ _ (ix2 (0 : Fin 1) j) (ix3 (0 : Fin 1) (0 : Fin 1) j) (by
    rw [Shape.rowMajor_val_two, Shape.rowMajor_val_three]
    show ((0 : Fin 1).val * 1 + (0 : Fin 1).val) * 2048 + j.val = (0 : Fin 1).val * 2048 + j.val
    simp)

end Cert.KernelIdeal.Stage1

end
-- ==== Proof.Math.Spec.lean ====
/-
  The cell both programs compute, entry by entry on the extended reals.

  A gate's pre-activation at batch row `p` and hidden unit `j` is an inner product of the input row with a weight
  row, plus a bias, plus an inner product of the hidden row with a recurrent weight row.  The reference takes each
  inner product over all 2048 positions at once (`preRef`); the kernel takes them in four tiles of 512 positions,
  adds the two tile products, accumulates the four tile sums from zero and adds the bias last (`preTiled`).  On the
  extended reals addition is commutative and associative, so the two are one number (`preTiled_eq_preRef`): no
  finiteness is needed.

  A gate is then LayerNorm over the row (mean and variance as quotients by 2048, the deviation scaled by the
  reciprocal square root of the variance plus eps, then gain and bias) followed by its activation (`lnAct`), and the
  new cell and hidden states are `f * c + i * c̃` and `o * tanh c'` (`cNew`, `hNew`).
-/
import Idealize.ShloMosaic.PureOps.Ideal
import Idealize.ShloMosaic.PureOps.Ideal.Laws

noncomputable section

namespace Cert.Lstm

open Idealize.ShloMosaic

/-- The LayerNorm epsilon, the f32 value both programs print (it denotes the same extended real on both sides). -/
abbrev eps : EReal := Ideal.ofBits .f32 0x3727C5AC#32
/-- The row length 2048 as the f32 value both programs divide by. -/
abbrev n2048 : EReal := Ideal.ofBits .f32 0x45000000#32

/-- A row's mean: its sum divided by 2048. -/
def rowMean (row : Fin 2048 → EReal) : EReal := Ideal.div (∑ k, row k) n2048

/-- A row's variance: the mean of the squared deviations from the row's mean. -/
def rowVar (row : Fin 2048 → EReal) : EReal :=
  Ideal.div (∑ k, (row k - rowMean row) * (row k - rowMean row)) n2048

/-- LayerNorm of a row at position `j` with gain `g` and bias `b`, then the activation. -/
def lnAct (act : EReal → EReal) (row g b : Fin 2048 → EReal) (j : Fin 2048) : EReal :=
  act ((row j - rowMean row) * Ideal.rsqrt (rowVar row + eps) * g j + b j)

/-- The new cell state at position `j` of a row: forget gate times old cell plus input gate times candidate. -/
def cNew (pi pf pc c gi bi gf bf gc bc : Fin 2048 → EReal) (j : Fin 2048) : EReal :=
  lnAct Ideal.logistic pf gf bf j * c j + lnAct Ideal.logistic pi gi bi j * lnAct Ideal.tanh pc gc bc j

/-- The new hidden state at position `j` of a row: output gate times tanh of the new cell state. -/
def hNew (pi pf pc po c gi bi gf bf gc bc go bo : Fin 2048 → EReal) (j : Fin 2048) : EReal :=
  lnAct Ideal.logistic po go bo j * Ideal.tanh (cNew pi pf pc c gi bi gf bf gc bc j)

/-- Position `k` of tile `kt` among 2048 positions cut into four tiles of 512. -/
def tilePos (kt : Fin 4) (k : Fin 512) : Fin 2048 := ⟨512 * kt.val + k.val, by omega⟩

/-- The reference's pre-activation: input row against weight row, plus bias, plus hidden row against recurrent row. -/
def preRef (x h wrow urow : Fin 2048 → EReal) (b : EReal) : EReal :=
  ((∑ k, x k * wrow k) + b) + ∑ k, h k * urow k

/-- One tile's contribution: the two tile inner products added. -/
def tileSum (x h wrow urow : Fin 2048 → EReal) (kt : Fin 4) : EReal :=
  (∑ k : Fin 512, x (tilePos kt k) * wrow (tilePos kt k)) + ∑ k : Fin 512, h (tilePos kt k) * urow (tilePos kt k)

/-- The kernel's pre-activation: the four tile contributions accumulated from zero, the bias added last. -/
def preTiled (x h wrow urow : Fin 2048 → EReal) (b : EReal) : EReal :=
  ((((0 + tileSum x h wrow urow 0) + tileSum x h wrow urow 1) + tileSum x h wrow urow 2) + tileSum x h wrow urow 3) + b

/-- A sum over 2048 positions is the sum of its four tiles of 512. -/
theorem sum_tiles (f : Fin 2048 → EReal) :
    ∑ k, f k = (∑ k : Fin 512, f (tilePos 0 k)) + (∑ k : Fin 512, f (tilePos 1 k))
      + (∑ k : Fin 512, f (tilePos 2 k)) + (∑ k : Fin 512, f (tilePos 3 k)) := by
  have e : ∑ k, f k = ∑ q : Fin 4 × Fin 512, f (finProdFinEquiv q) :=
    (Equiv.sum_comp (finProdFinEquiv : Fin 4 × Fin 512 ≃ Fin 2048) f).symm
  rw [e, Fintype.sum_prod_type, Fin.sum_univ_four]
  have t : ∀ (kt : Fin 4) (k : Fin 512), (finProdFinEquiv (kt, k) : Fin 2048) = tilePos kt k := by
    intro kt k; apply Fin.ext; simp [finProdFinEquiv, tilePos]; omega
  simp only [t]

/-- Tiling the contraction and adding the bias last changes nothing on the extended reals. -/
theorem preTiled_eq_preRef (x h wrow urow : Fin 2048 → EReal) (b : EReal) :
    preTiled x h wrow urow b = preRef x h wrow urow b := by
  unfold preTiled preRef tileSum
  rw [sum_tiles (fun k => x k * wrow k), sum_tiles (fun k => h k * urow k)]
  abel

end Cert.Lstm

end
-- ==== Proof.Ideal.Stage1Value.lean ====
/- Region 0 at the ideal values: the array its output window writes, index by index, as one function of the five
   arrays the region reads — at gate `g`, row `p`, column `j` the four reduction steps' sums added in the grid's order
   onto zero, then the bias entry. -/
import proofs.«160278_j67095979098853_2_alg».proof.Proof.Ideal.Stage1Pieces
import proofs.«160278_j67095979098853_2_alg».proof.Proof.Ideal.Stage1Pay
import proofs.«160278_j67095979098853_2_alg».proof.Proof.Math.Spec

set_option maxRecDepth 16384

noncomputable section

open scoped BigOperators

namespace Cert.KernelIdeal.Stage1

open Idealize.ShloMosaic Idealize.ShloMosaic.TcCoe Idealize.ShloMosaic.ValueIdx Idealize.SL.Sem
open Idealize.ShloMosaic.Pipeline (Dat)
open Cert.KernelIdeal.Gen

variable (V : (c : Dev nD) → (b : Ref sig .tc) → Buf (Elt Ideal) ((c : Thread nD τ).loc b))

/-! ## The printed index maps, decided over the grid -/

/-- At point `t` = 16·gate + 4·(batch tile) + (reduction step): the activation and state windows sit at block
    (batch tile, step), the two weight windows at (step, gate), the bias window at gate, the output window at
    (gate, batch tile). -/
theorem idx_facts0 : ∀ t : Fin cfg0.N,
    win0_0.index t (0 : Fin 2) = (t.val / 4) % 4 ∧ win0_0.index t (1 : Fin 2) = t.val % 4
    ∧ win0_1.index t (0 : Fin 2) = (t.val / 4) % 4 ∧ win0_1.index t (1 : Fin 2) = t.val % 4
    ∧ win0_2.index t (0 : Fin 2) = t.val % 4 ∧ win0_2.index t (1 : Fin 2) = t.val / 16
    ∧ win0_3.index t (0 : Fin 2) = t.val % 4 ∧ win0_3.index t (1 : Fin 2) = t.val / 16
    ∧ win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = (t.val / 4) % 4 ∧ win0_5.index t (2 : Fin 3) = 0 :=
  (by decide +kernel : ∀ t : Fin grid0.N, _)

/-! ## The input blocks as entries of the arrays -/

/-- The activation block at point `t`: rows of the batch tile, columns of the step's slice. -/
theorem iblk0_0_apply (c : Dev nD) (t : Fin cfg0.N) (q : Fin 1024) (k : Fin 512) (R : Fin 4096) (K : Fin 2048)
    (hR : R.val = 1024 * ((t.val / 4) % 4) + q.val) (hK : K.val = 512 * (t.val % 4) + k.val) :
    (iblk0 V c 0 t : Vec Ideal S1024x512 .bf16) (ix2 q k) = (V c main_v12 : S4096x2048.Idx → Elt Ideal .bf16) (ix2 R K) := by
  obtain ⟨e0, e1, -⟩ := idx_facts0 t
  unfold iblk0
  show (V c main_v12 : S4096x2048.Idx → Elt Ideal .bf16) _ = _
  refine congrArg (V c main_v12 : S4096x2048.Idx → Elt Ideal .bf16) (funext fun a => Fin.ext ?_)
  match a with
  | ⟨0, _⟩ => show win0_0.index t (0 : Fin 2) * 1024 + 1 * q.val = R.val; rw [e0, hR]; omega
  | ⟨1, _⟩ => show win0_0.index t (1 : Fin 2) * 512 + 1 * k.val = K.val; rw [e1, hK]; omega

/-- The state block at point `t`: the same rows and columns of the state array. -/
theorem iblk0_1_apply (c : Dev nD) (t : Fin cfg0.N) (q : Fin 1024) (k : Fin 512) (R : Fin 4096) (K : Fin 2048)
    (hR : R.val = 1024 * ((t.val / 4) % 4) + q.val) (hK : K.val = 512 * (t.val % 4) + k.val) :
    (iblk0 V c 1 t : Vec Ideal S1024x512 .bf16) (ix2 q k) = (V c main_v13 : S4096x2048.Idx → Elt Ideal .bf16) (ix2 R K) := by
  obtain ⟨-, -, e0, e1, -⟩ := idx_facts0 t
  unfold iblk0
  show (V c main_v13 : S4096x2048.Idx → Elt Ideal .bf16) _ = _
  refine congrArg (V c main_v13 : S4096x2048.Idx → Elt Ideal .bf16) (funext fun a => Fin.ext ?_)
  match a with
  | ⟨0, _⟩ => show win0_1.index t (0 : Fin 2) * 1024 + 1 * q.val = R.val; rw [e0, hR]; omega
  | ⟨1, _⟩ => show win0_1.index t (1 : Fin 2) * 512 + 1 * k.val = K.val; rw [e1, hK]; omega

/-- The input-weight block at point `t`: rows of the step's slice, columns of the gate. -/
theorem iblk0_2_apply (c : Dev nD) (t : Fin cfg0.N) (k : Fin 512) (j : Fin 2048) (K : Fin 2048) (J : Fin 8192)
    (hK : K.val = 512 * (t.val % 4) + k.val) (hJ : J.val = 2048 * (t.val / 16) + j.val) :
    (iblk0 V c 2 t : Vec Ideal S512x2048 .bf16) (ix2 k j) = (V c main_v2 : S2048x8192.Idx → Elt Ideal .bf16) (ix2 K J) := by
  obtain ⟨-, -, -, -, e0, e1, -⟩ := idx_facts0 t
  unfold iblk0
  show (V c main_v2 : S2048x8192.Idx → Elt Ideal .bf16) _ = _
  refine congrArg (V c main_v2 : S2048x8192.Idx → Elt Ideal .bf16) (funext fun a => Fin.ext ?_)
  match a with
  | ⟨0, _⟩ => show win0_2.index t (0 : Fin 2) * 512 + 1 * k.val = K.val; rw [e0, hK]; omega
  | ⟨1, _⟩ => show win0_2.index t (1 : Fin 2) * 2048 + 1 * j.val = J.val; rw [e1, hJ]; omega

/-- The state-weight block at point `t`: the same rows and columns of the state weights. -/
theorem iblk0_3_apply (c : Dev nD) (t : Fin cfg0.N) (k : Fin 512) (j : Fin 2048) (K : Fin 2048) (J : Fin 8192)
    (hK : K.val = 512 * (t.val % 4) + k.val) (hJ : J.val = 2048 * (t.val / 16) + j.val) :
    (iblk0 V c 3 t : Vec Ideal S512x2048 .bf16) (ix2 k j) = (V c main_v5 : S2048x8192.Idx → Elt Ideal .bf16) (ix2 K J) := by
  obtain ⟨-, -, -, -, -, -, e0, e1, -⟩ := idx_facts0 t
  unfold iblk0
  show (V c main_v5 : S2048x8192.Idx → Elt Ideal .bf16) _ = _
  refine congrArg (V c main_v5 : S2048x8192.Idx → Elt Ideal .bf16) (funext fun a => Fin.ext ?_)
  match a with
  | ⟨0, _⟩ => show win0_3.index t (0 : Fin 2) * 512 + 1 * k.val = K.val; rw [e0, hK]; omega
  | ⟨1, _⟩ => show win0_3.index t (1 : Fin 2) * 2048 + 1 * j.val = J.val; rw [e1, hJ]; omega

/-- The bias block at point `t`: the gate's row. -/
theorem iblk0_4_apply (c : Dev nD) (t : Fin cfg0.N) (j : Fin 2048) (g : Fin 4) (hg : g.val = t.val / 16) :
    (iblk0 V c 4 t : Vec Ideal S1x1x2048 .f32) (ix3 (0 : Fin 1) (0 : Fin 1) j) = (V c main_v11 : S4x1x2048.Idx → Elt Ideal .f32) (ix3 g (0 : Fin 1) j) := by
  obtain ⟨-, -, -, -, -, -, -, -, e0, e1, e2, -⟩ := idx_facts0 t
  unfold iblk0
  show (V c main_v11 : S4x1x2048.Idx → Elt Ideal .f32) _ = _
  refine congrArg (V c main_v11 : S4x1x2048.Idx → Elt Ideal .f32) (funext fun a => Fin.ext ?_)
  match a with
  | ⟨0, _⟩ => show win0_4.index t (0 : Fin 3) * 1 + 1 * (0 : Fin 1).val = g.val; rw [e0, hg]; simp
  | ⟨1, _⟩ => show win0_4.index t (1 : Fin 3) * 1 + 1 * (0 : Fin 1).val = (0 : Fin 1).val; rw [e1]; simp
  | ⟨2, _⟩ => show win0_4.index t (2 : Fin 3) * 2048 + 1 * j.val = j.val; rw [e2]; omega

/-! ## Rows and columns of the arrays the region reads -/

/-- Column `2048·g + j` of a stacked weight matrix: gate `g`'s column `j`. -/
def gateCol (g : Fin 4) (j : Fin 2048) : Fin 8192 := ⟨2048 * g.val + j.val, by omega⟩

/-- Row `R` of the activations, -/
def xrow (c : Dev nD) (R : Fin 4096) : Fin 2048 → EReal := (fun k : Fin 2048 => (((V c main_v12 : S4096x2048.Idx → Elt Ideal .bf16) (ix2 R k) : EReal)))
/-- row `R` of the state, -/
def hrow (c : Dev nD) (R : Fin 4096) : Fin 2048 → EReal := (fun k : Fin 2048 => (((V c main_v13 : S4096x2048.Idx → Elt Ideal .bf16) (ix2 R k) : EReal)))
/-- gate `g`'s column `j` of the input weights, -/
def wcol (c : Dev nD) (g : Fin 4) (j : Fin 2048) : Fin 2048 → EReal := (fun k : Fin 2048 => (((V c main_v2 : S2048x8192.Idx → Elt Ideal .bf16) (ix2 k (gateCol g j)) : EReal)))
/-- gate `g`'s column `j` of the state weights, -/
def ucol (c : Dev nD) (g : Fin 4) (j : Fin 2048) : Fin 2048 → EReal := (fun k : Fin 2048 => (((V c main_v5 : S2048x8192.Idx → Elt Ideal .bf16) (ix2 k (gateCol g j)) : EReal)))
/-- gate `g`'s bias entry `j`. -/
def biasAt (c : Dev nD) (g : Fin 4) (j : Fin 2048) : EReal := (((V c main_v11 : S4x1x2048.Idx → Elt Ideal .f32) (ix3 g (0 : Fin 1) j) : EReal))

/-! ## One reduction step, and the accumulator after each -/

/-- The body's accumulation at point `t` (gate `g`, batch tile `bt`, step `kt`), at row `q` of the tile and column
    `j`: the accumulator's entry plus the step's tile sum at the array's row `R` = 1024·bt + q. -/
theorem step_apply (c : Dev nD) (t : Fin cfg0.N) (kt : Fin 4) (hkt : t.val % 4 = kt.val) (g bt : Fin 4) (hg : t.val / 16 = g.val) (hbt : (t.val / 4) % 4 = bt.val)
    (q : Fin 1024) (j : Fin 2048) (R : Fin 4096) (hR : R.val = 1024 * bt.val + q.val)
    (acc : Vec Ideal S1024x2048 .f32) :
    (k0_pay2 (F := Ideal) (iblk0 V c 0 t) (iblk0 V c 1 t) (iblk0 V c 2 t) (iblk0 V c 3 t) acc (ix2 q j) : EReal)
      = (acc (ix2 q j) : EReal) + Cert.Lstm.tileSum (xrow V c R) (hrow V c R) (wcol V c g j) (ucol V c g j) kt := by
  refine (pay2_apply (iblk0 V c 0 t) (iblk0 V c 1 t) (iblk0 V c 2 t) (iblk0 V c 3 t) acc q j).trans ?_
  refine congrArg (fun z : EReal => (acc (ix2 q j) : EReal) + z) ?_
  unfold Cert.Lstm.tileSum
  refine congrArg₂ (fun a b : EReal => a + b) (Finset.sum_congr rfl fun k _ => ?_) (Finset.sum_congr rfl fun k _ => ?_)
  · refine congrArg₂ (fun a b : EReal => a * b) ?_ ?_
    · exact iblk0_0_apply V c t q k R (Cert.Lstm.tilePos kt k) (by rw [hR, hbt]) (by show 512 * kt.val + k.val = _; rw [hkt])
    · exact iblk0_2_apply V c t k j (Cert.Lstm.tilePos kt k) (gateCol g j) (by show 512 * kt.val + k.val = _; rw [hkt]) (by show 2048 * g.val + j.val = _; rw [hg])
  · refine congrArg₂ (fun a b : EReal => a * b) ?_ ?_
    · exact iblk0_1_apply V c t q k R (Cert.Lstm.tilePos kt k) (by rw [hR, hbt]) (by show 512 * kt.val + k.val = _; rw [hkt])
    · exact iblk0_3_apply V c t k j (Cert.Lstm.tilePos kt k) (gateCol g j) (by show 512 * kt.val + k.val = _; rw [hkt]) (by show 2048 * g.val + j.val = _; rw [hg])

/-- After the first step of a reduction the accumulator holds that step's tile sum added onto zero. -/
theorem scratch_kt0 (c : Dev nD) (t : Fin cfg0.N) (h : t.val % 4 = 0) (g bt : Fin 4) (hg : t.val / 16 = g.val) (hbt : (t.val / 4) % 4 = bt.val)
    (q : Fin 1024) (j : Fin 2048) (R : Fin 4096) (hR : R.val = 1024 * bt.val + q.val) :
    ((outsAt0 V c t.val t.isLt).2 (ix2 q j) : EReal) = 0 + Cert.Lstm.tileSum (xrow V c R) (hrow V c R) (wcol V c g j) (ucol V c g j) 0 := by
  have h0 : t.val % 4 = 0 := h
  have h1 : ¬t.val % 4 = 3 := by omega
  rw [outsAt0_A V c t h0 h1]
  dsimp only
  refine (congrFun (soutA_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) (ix2 q j)).trans ?_
  refine (step_apply V c t 0 h g bt hg hbt q j R hR (k0_pay1 (F := Ideal))).trans ?_
  exact congrArg (fun z : EReal => z + Cert.Lstm.tileSum (xrow V c R) (hrow V c R) (wcol V c g j) (ucol V c g j) 0) (pay1_apply q j)

/-- After the second step: the first two tile sums. -/
theorem scratch_kt1 (c : Dev nD) (t : Fin cfg0.N) (h : t.val % 4 = 1) (g bt : Fin 4) (hg : t.val / 16 = g.val) (hbt : (t.val / 4) % 4 = bt.val)
    (q : Fin 1024) (j : Fin 2048) (R : Fin 4096) (hR : R.val = 1024 * bt.val + q.val) :
    ((outsAt0 V c t.val t.isLt).2 (ix2 q j) : EReal) = (0 + Cert.Lstm.tileSum (xrow V c R) (hrow V c R) (wcol V c g j) (ucol V c g j) 0) + Cert.Lstm.tileSum (xrow V c R) (hrow V c R) (wcol V c g j) (ucol V c g j) 1 := by
  have h0 : ¬t.val % 4 = 0 := by omega
  have h1 : ¬t.val % 4 = 3 := by omega
  rw [outsAt0_B V c t h0 h1]
  dsimp only
  refine (congrFun (soutB_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) (ix2 q j)).trans ?_
  refine (step_apply V c t 1 h g bt hg hbt q j R hR (outsAt0 V c (t.val - 1) (Nat.lt_of_le_of_lt (Nat.sub_le _ _) t.isLt)).2).trans ?_
  exact congrArg (fun z : EReal => z + Cert.Lstm.tileSum (xrow V c R) (hrow V c R) (wcol V c g j) (ucol V c g j) 1)
    (scratch_kt0 V c (⟨t.val - 1, Nat.lt_of_le_of_lt (Nat.sub_le _ _) t.isLt⟩ : Fin cfg0.N) (by show (t.val - 1) % 4 = 0; omega) g bt (by show (t.val - 1) / 16 = g.val; omega) (by show ((t.val - 1) / 4) % 4 = bt.val; omega) q j R hR)

/-- After the third step: the first three tile sums. -/
theorem scratch_kt2 (c : Dev nD) (t : Fin cfg0.N) (h : t.val % 4 = 2) (g bt : Fin 4) (hg : t.val / 16 = g.val) (hbt : (t.val / 4) % 4 = bt.val)
    (q : Fin 1024) (j : Fin 2048) (R : Fin 4096) (hR : R.val = 1024 * bt.val + q.val) :
    ((outsAt0 V c t.val t.isLt).2 (ix2 q j) : EReal) = ((0 + Cert.Lstm.tileSum (xrow V c R) (hrow V c R) (wcol V c g j) (ucol V c g j) 0) + Cert.Lstm.tileSum (xrow V c R) (hrow V c R) (wcol V c g j) (ucol V c g j) 1) + Cert.Lstm.tileSum (xrow V c R) (hrow V c R) (wcol V c g j) (ucol V c g j) 2 := by
  have h0 : ¬t.val % 4 = 0 := by omega
  have h1 : ¬t.val % 4 = 3 := by omega
  rw [outsAt0_B V c t h0 h1]
  dsimp only
  refine (congrFun (soutB_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) (ix2 q j)).trans ?_
  refine (step_apply V c t 2 h g bt hg hbt q j R hR (outsAt0 V c (t.val - 1) (Nat.lt_of_le_of_lt (Nat.sub_le _ _) t.isLt)).2).trans ?_
  exact congrArg (fun z : EReal => z + Cert.Lstm.tileSum (xrow V c R) (hrow V c R) (wcol V c g j) (ucol V c g j) 2)
    (scratch_kt1 V c (⟨t.val - 1, Nat.lt_of_le_of_lt (Nat.sub_le _ _) t.isLt⟩ : Fin cfg0.N) (by show (t.val - 1) % 4 = 1; omega) g bt (by show (t.val - 1) / 16 = g.val; omega) (by show ((t.val - 1) / 4) % 4 = bt.val; omega) q j R hR)

/-- What the last step stores into the output's staging buffer: the four tile sums accumulated from zero, then the
    gate's bias entry. -/
theorem out_kt3 (c : Dev nD) (t : Fin cfg0.N) (h : t.val % 4 = 3) (g bt : Fin 4) (hg : t.val / 16 = g.val) (hbt : (t.val / 4) % 4 = bt.val)
    (q : Fin 1024) (j : Fin 2048) (R : Fin 4096) (hR : R.val = 1024 * bt.val + q.val) :
    ((outsAt0 V c t.val t.isLt).1 (ix3 (0 : Fin 1) q j) : EReal)
      = Cert.Lstm.preTiled (xrow V c R) (hrow V c R) (wcol V c g j) (ucol V c g j) (biasAt V c g j) := by
  have h0 : ¬t.val % 4 = 0 := by omega
  have h1 : t.val % 4 = 3 := h
  rw [outsAt0_C V c t h0 h1]
  dsimp only
  refine (congrFun (outC_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) (ix3 (0 : Fin 1) q j)).trans ?_
  refine (pay3_apply _ (iblk0 V c 4 t) q j).trans ?_
  unfold Cert.Lstm.preTiled
  refine congrArg₂ (fun a b : EReal => a + b) ?_ (iblk0_4_apply V c t j g hg.symm)
  refine (step_apply V c t 3 h g bt hg hbt q j R hR (outsAt0 V c (t.val - 1) (Nat.lt_of_le_of_lt (Nat.sub_le _ _) t.isLt)).2).trans ?_
  exact congrArg (fun z : EReal => z + Cert.Lstm.tileSum (xrow V c R) (hrow V c R) (wcol V c g j) (ucol V c g j) 3)
    (scratch_kt2 V c (⟨t.val - 1, Nat.lt_of_le_of_lt (Nat.sub_le _ _) t.isLt⟩ : Fin cfg0.N) (by show (t.val - 1) % 4 = 2; omega) g bt (by show (t.val - 1) / 16 = g.val; omega) (by show ((t.val - 1) / 4) % 4 = bt.val; omega) q j R hR)

/-! ## From blocks to the array -/

/-- THE RESULT, index by index: at gate `g`, row `p`, column `j` the four steps' contributions added in the grid's
    order onto zero, then the gate's bias entry — a function of the five arrays the region reads. -/
def G0 (c : Dev nD) : S4x4096x2048.Idx → Elt Ideal .bf16 := fun i =>
  Cert.Lstm.preTiled (xrow V c (i 1)) (hrow V c (i 1)) (wcol V c (i 0) (i 2)) (ucol V c (i 0) (i 2)) (biasAt V c (i 0) (i 2))

/-- The same at explicit coordinates. -/
theorem G0_apply (c : Dev nD) (g : Fin 4) (p : Fin 4096) (j : Fin 2048) :
    (G0 V c (ix3 g p j) : EReal) = Cert.Lstm.preTiled (xrow V c p) (hrow V c p) (wcol V c g j) (ucol V c g j) (biasAt V c g j) := rfl

/-- What a write-back at point `t` writes is block `t` of the result. -/
theorem flushed5_eq (c : Dev nD) (t : Fin cfg0.N) (hf : (cfg0.win 5).flush t = true) :
    (dat0 V c).flushed 5 t = ((cfg0.win 5).blk t).view.read (Elt Ideal) (G0 V c) := by
  have h3 : t.val % 4 = 3 := (flush0_5 t).mp hf
  have hN : t.val < 64 := lt_of_lt_of_eq t.isLt (show cfg0.N = 64 from N_0)
  obtain ⟨-, -, -, -, -, -, -, -, -, -, -, e0, e1, e2⟩ := idx_facts0 t
  show (cfg0.win 5).cut (grid0.coords t) ((dat0 V c).after 5 t) = _
  rw [after0_5]
  refine funext fun (y : S1x1024x2048.Idx) => ?_
  obtain ⟨z, q, j, rfl⟩ : ∃ (z : Fin 1) (q : Fin 1024) (j : Fin 2048), y = ix3 z q j := ⟨y 0, y 1, y 2, eq_ix3 y⟩
  obtain rfl : z = 0 := Subsingleton.elim _ _
  have he : ((cfg0.win 5).blk t).view.emb (ix3 (0 : Fin 1) q j)
      = ix3 (⟨t.val / 16, by omega⟩ : Fin 4) (⟨1024 * ((t.val / 4) % 4) + q.val, by have := q.isLt; omega⟩ : Fin 4096) j :=
    funext fun a => Fin.ext (by
      match a with
      | ⟨0, _⟩ => show win0_5.index t (0 : Fin 3) * 1 + 1 * (0 : Fin 1).val = t.val / 16; rw [e0]; simp
      | ⟨1, _⟩ => show win0_5.index t (1 : Fin 3) * 1024 + 1 * q.val = 1024 * ((t.val / 4) % 4) + q.val; rw [e1]; omega
      | ⟨2, _⟩ => show win0_5.index t (2 : Fin 3) * 2048 + 1 * j.val = j.val; rw [e2]; omega)
  show (outsAt0 V c t.val t.isLt).1 (ix3 (0 : Fin 1) q j) = G0 V c (((cfg0.win 5).blk t).view.emb (ix3 (0 : Fin 1) q j))
  rw [he]
  exact out_kt3 V c t h3 ⟨t.val / 16, by omega⟩ ⟨(t.val / 4) % 4, by omega⟩ rfl rfl q j _ rfl

/-- An index of the array is in point `t`'s block iff each coordinate is in the block's range on its axis. -/
theorem mem_blk5 (t : Fin cfg0.N) (i : S4x4096x2048.Idx) :
    i ∈ ((cfg0.win 5).blk t).view.set ↔ ∀ a : Fin 3, win0_5.index t a * S1x1024x2048.size a ≤ (i a).val ∧ (i a).val < win0_5.index t a * S1x1024x2048.size a + S1x1024x2048.size a := by
  show i ∈ ((View.whole main_v14).slice (win0_5.rect t)).set ↔ _
  rw [View.set_slice_whole, Rect.mem_set_unit]
  exact Iff.rfl

/-- Every index of the array lies in the block some last step writes back: gate `i 0`, batch tile `i 1 / 1024`. -/
theorem cover5 (i : S4x4096x2048.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 2048 := (i 2).isLt
  have hN : cfg0.N = 64 := N_0
  obtain ⟨t, ht⟩ : ∃ t : Fin cfg0.N, t.val = 16 * (i 0).val + 4 * ((i 1).val / 1024) + 3 :=
    ⟨⟨16 * (i 0).val + 4 * ((i 1).val / 1024) + 3, by rw [hN]; omega⟩, rfl⟩
  obtain ⟨-, -, -, -, -, -, -, -, -, -, -, e0, e1, e2⟩ := idx_facts0 t
  refine ⟨t, (flush0_5 t).mpr (by rw [ht]; omega), ?_⟩
  rw [mem_blk5]
  intro a
  match a with
  | ⟨0, _⟩ => show win0_5.index t (0 : Fin 3) * 1 ≤ (i 0).val ∧ (i 0).val < win0_5.index t (0 : Fin 3) * 1 + 1; rw [e0, ht]; omega
  | ⟨1, _⟩ => show win0_5.index t (1 : Fin 3) * 1024 ≤ (i 1).val ∧ (i 1).val < win0_5.index t (1 : Fin 3) * 1024 + 1024; rw [e1, ht]; omega
  | ⟨2, _⟩ => show win0_5.index t (2 : Fin 3) * 2048 ≤ (i 2).val ∧ (i 2).val < win0_5.index t (2 : Fin 3) * 2048 + 2048; rw [e2]; omega

/-- THE ARRAY after the region: the result function, everywhere. -/
theorem arr5_final (c : Dev nD) : (dat0 (F := Ideal) V c).arrAt 5 cfg0.N = G0 V c :=
  (dat0 V c).arrAt_eq_of_cover 5 (G0 V c) (fun t hf => flushed5_eq V c t hf) cover5

/-- The same read at explicit coordinates, the rows and columns spelt out. -/
theorem arr5_final_apply (c : Dev nD) (g : Fin 4) (p : Fin 4096) (j : Fin 2048) :
    ((dat0 (F := Ideal) V c).arrAt 5 cfg0.N : S4x4096x2048.Idx → EReal) (ix3 g p j)
      = Cert.Lstm.preTiled (fun k : Fin 2048 => (((V c main_v12 : S4096x2048.Idx → Elt Ideal .bf16) (ix2 p k) : EReal))) (fun k : Fin 2048 => (((V c main_v13 : S4096x2048.Idx → Elt Ideal .bf16) (ix2 p k) : EReal))) (fun k : Fin 2048 => (((V c main_v2 : S2048x8192.Idx → Elt Ideal .bf16) (ix2 k (gateCol g j)) : EReal))) (fun k : Fin 2048 => (((V c main_v5 : S2048x8192.Idx → Elt Ideal .bf16) (ix2 k (gateCol g j)) : EReal))) (((V c main_v11 : S4x1x2048.Idx → Elt Ideal .f32) (ix3 g (0 : Fin 1) j) : EReal)) := by
  rw [arr5_final]; rfl

end Cert.KernelIdeal.Stage1

end
-- ==== Proof.Ideal.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.Ideal.Stage2Pay.lean ====
/- The second stage's payloads read at an index, on the extended reals: every pointwise operation
   passes the index through, a row sum is a sum over the row's 2048 positions, a kept-dimension
   column broadcast along a row is the row's value, and a [1,2048] row broadcast over the block is the
   row's entry; so each gate's payload at (r, j) is the normalised row r at position j under its
   activation, and the two stored payloads are the new cell and hidden states there. -/
import proofs.«160278_j67095979098853_2_alg».proof.Proof.Gen.KernelIdeal.Skeleton
import proofs.«160278_j67095979098853_2_alg».proof.Proof.Math.Spec
import proofs.«160278_j67095979098853_2_alg».proof.Proof.Ideal.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage2

open Cert.KernelIdeal.Gen Cert.LibKeepdims
open Idealize.ShloMosaic Idealize.ShloMosaic.ValueIdx

/-! ## The layout operations of the body at an index -/

theorem rsqrt_at {s : Shape} {φ : FTy} (a : FVec Ideal s φ) (i : s.Idx) : rsqrt a i = Ideal.rsqrt (a i) := rfl
theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-- A kept-dimension column broadcast over the block reads the column's entry of the row. -/
theorem bcCol_at (v : FVec Ideal S256x1 .f32) (r : Fin 256) (j : Fin 2048) :
    broadcastTo S256x2048 v broadcasts_S256x1_S256x2048 (ix2 r j) = v (ix2 r (0 : Fin 1)) :=
  broadcastTo_a1_ab_apply v _ r j

/-- A [1,2048] row broadcast over the block reads the row's entry of the column. -/
theorem bcRow_at (v : FVec Ideal S1x2048 .f32) (r : Fin 256) (j : Fin 2048) :
    broadcastTo S256x2048 v broadcasts_S1x2048_S256x2048 (ix2 r j) = v (ix2 (0 : Fin 1) j) :=
  broadcastTo_1b_ab_apply v _ r j

/-- A vector of row values as a column. -/
theorem castCol_at (v : FVec Ideal S256 .f32) (r : Fin 256) (u : Fin 1) :
    shapeCast S256x1 v shapeCasts_S256_S256x1 (ix2 r u) = v (ix1 r) :=
  shapeCast_a_a1_apply v _ r u

/-- The block's leading unit axis dropped. -/
theorem castBlk_at (v : FVec Ideal S1x256x2048 .bf16) (r : Fin 256) (j : Fin 2048) :
    shapeCast S256x2048 v shapeCasts_S1x256x2048_S256x2048 (ix2 r j) = v (ix3 (0 : Fin 1) r j) :=
  shapeCast_1ab_ab_apply v _ r j

theorem castRow_eq (v : FVec Ideal S1x2048 .f32) : shapeCast S1x2048 v shapeCasts_S1x2048_S1x2048 = v :=
  shapeCast_self v _

/-- A row sum of the block is the sum over the row's 2048 positions. -/
theorem rowSum_at (v : FVec Ideal S256x2048 .f32) (hφ : FTy.f32 = FTy.f32 ∨ FTy.f32 = FTy.bf16) (hacc : @Eq (BitVec FTy.f32.bits) 0x00000000#32 0x00000000#32) (r : Fin 256) :
    multiReduction (F := Ideal) .add [1] S256 v 0x00000000#32 reduces_S256x2048_S256 hφ hacc (ix1 r) = ∑ k : Fin 2048, v (ix2 r k) := by
  refine (Ideal.multiReduction_add_single v 0x00000000#32 reduces_S256x2048_S256 hφ hacc (ix1 r)).trans ?_
  refine Finset.sum_congr rfl fun k _ => congrArg v ?_
  funext a
  match a with
  | ⟨0, _⟩ => rfl
  | ⟨1, _⟩ => rfl

/-! ## The payloads at an index -/

/-- The input gate: the normalised row under the logistic. -/
theorem pay1_at (x : Vec Ideal S1x256x2048 .bf16) (g b : Vec Ideal S1x2048 .f32) (r : Fin 256) (j : Fin 2048) :
    k1_pay1 (F := Ideal) x g b (ix2 r j)
      = Cert.Lstm.lnAct Ideal.logistic (fun k => x (ix3 (0 : Fin 1) r k)) (fun k => g (ix2 (0 : Fin 1) k)) (fun k => b (ix2 (0 : Fin 1) k)) j := by
  unfold k1_pay1
  simp only [logistic_at, tanh_at, addf_apply, mulf_apply, subf_apply, divf_apply, rsqrt_at, bcCol_at, bcRow_at, castRow_eq, castCol_at, broadcast_apply, extf_apply, castBlk_at]
  repeat rw [rowSum_at]
  simp only [logistic_at, tanh_at, addf_apply, mulf_apply, subf_apply, divf_apply, rsqrt_at, bcCol_at, bcRow_at, castRow_eq, castCol_at, broadcast_apply, extf_apply, castBlk_at]
  repeat rw [rowSum_at]
  try simp only [logistic_at, tanh_at, addf_apply, mulf_apply, subf_apply, divf_apply, rsqrt_at, bcCol_at, bcRow_at, castRow_eq, castCol_at, broadcast_apply, extf_apply, castBlk_at]
  rfl

/-- The forget gate's pre-activation block, widened. -/
theorem pay2_at (x : Vec Ideal S1x256x2048 .bf16) (r : Fin 256) (j : Fin 2048) :
    k1_pay2 (F := Ideal) x (ix2 r j) = x (ix3 (0 : Fin 1) r j) := by
  unfold k1_pay2
  simp only [logistic_at, tanh_at, addf_apply, mulf_apply, subf_apply, divf_apply, rsqrt_at, bcCol_at, bcRow_at, castRow_eq, castCol_at, broadcast_apply, extf_apply, castBlk_at]

/-- Its row means, as a column. -/
theorem pay3_at (x : Vec Ideal S1x256x2048 .bf16) (r : Fin 256) (u : Fin 1) :
    k1_pay3 (F := Ideal) x (ix2 r u) = Cert.Lstm.rowMean (fun k => x (ix3 (0 : Fin 1) r k)) := by
  unfold k1_pay3
  simp only [logistic_at, tanh_at, addf_apply, mulf_apply, subf_apply, divf_apply, rsqrt_at, bcCol_at, bcRow_at, castRow_eq, castCol_at, broadcast_apply, extf_apply, castBlk_at]
  repeat rw [rowSum_at]
  simp only [pay2_at]
  rfl

/-- Its rows' sums of squared deviations. -/
theorem pay4_at (x : Vec Ideal S1x256x2048 .bf16) (r : Fin 256) :
    k1_pay4 (F := Ideal) x (ix1 r)
      = ∑ k : Fin 2048, (x (ix3 (0 : Fin 1) r k) - Cert.Lstm.rowMean (fun k => x (ix3 (0 : Fin 1) r k))) * (x (ix3 (0 : Fin 1) r k) - Cert.Lstm.rowMean (fun k => x (ix3 (0 : Fin 1) r k))) := by
  unfold k1_pay4
  repeat rw [rowSum_at]
  simp only [logistic_at, tanh_at, addf_apply, mulf_apply, subf_apply, divf_apply, rsqrt_at, bcCol_at, bcRow_at, castRow_eq, castCol_at, broadcast_apply, extf_apply, castBlk_at, pay2_at, pay3_at]

/-- The forget gate, from those three: the normalised row under the logistic. -/
theorem pay5_at (x : Vec Ideal S1x256x2048 .bf16) (g b : Vec Ideal S1x2048 .f32) (r : Fin 256) (j : Fin 2048) :
    k1_pay5 (F := Ideal) (k1_pay2 x) (k1_pay3 x) (k1_pay4 x) g b (ix2 r j)
      = Cert.Lstm.lnAct Ideal.logistic (fun k => x (ix3 (0 : Fin 1) r k)) (fun k => g (ix2 (0 : Fin 1) k)) (fun k => b (ix2 (0 : Fin 1) k)) j := by
  unfold k1_pay5
  simp only [logistic_at, tanh_at, addf_apply, mulf_apply, subf_apply, divf_apply, rsqrt_at, bcCol_at, bcRow_at, castRow_eq, castCol_at, broadcast_apply, extf_apply, castBlk_at, pay2_at, pay3_at, pay4_at]
  rfl

/-- The candidate's normalised row times its gain (the bias and the tanh come with the cell update). -/
theorem pay6_at (x : Vec Ideal S1x256x2048 .bf16) (g : Vec Ideal S1x2048 .f32) (r : Fin 256) (j : Fin 2048) :
    k1_pay6 (F := Ideal) x g (ix2 r j)
      = (x (ix3 (0 : Fin 1) r j) - Cert.Lstm.rowMean (fun k => x (ix3 (0 : Fin 1) r k))) * Ideal.rsqrt (Cert.Lstm.rowVar (fun k => x (ix3 (0 : Fin 1) r k)) + Cert.Lstm.eps) * g (ix2 (0 : Fin 1) j) := by
  unfold k1_pay6
  simp only [logistic_at, tanh_at, addf_apply, mulf_apply, subf_apply, divf_apply, rsqrt_at, bcCol_at, bcRow_at, castRow_eq, castCol_at, broadcast_apply, extf_apply, castBlk_at]
  repeat rw [rowSum_at]
  simp only [logistic_at, tanh_at, addf_apply, mulf_apply, subf_apply, divf_apply, rsqrt_at, bcCol_at, bcRow_at, castRow_eq, castCol_at, broadcast_apply, extf_apply, castBlk_at]
  repeat rw [rowSum_at]
  try simp only [logistic_at, tanh_at, addf_apply, mulf_apply, subf_apply, divf_apply, rsqrt_at, bcCol_at, bcRow_at, castRow_eq, castCol_at, broadcast_apply, extf_apply, castBlk_at]
  rfl

/-- The cell update, pointwise in the three gates' blocks. -/
theorem pay7_at (v29 v59 v84 : FVec Ideal S256x2048 .f32) (v85 : Vec Ideal S1x2048 .f32) (v120 : Vec Ideal S256x2048 .f32) (r : Fin 256) (j : Fin 2048) :
    k1_pay7 (F := Ideal) v29 v59 v84 v85 v120 (ix2 r j)
      = v59 (ix2 r j) * v120 (ix2 r j) + v29 (ix2 r j) * Ideal.tanh (v84 (ix2 r j) + v85 (ix2 (0 : Fin 1) j)) := by
  unfold k1_pay7
  simp only [logistic_at, tanh_at, addf_apply, mulf_apply, subf_apply, divf_apply, rsqrt_at, bcCol_at, bcRow_at, castRow_eq, castCol_at, broadcast_apply, extf_apply, castBlk_at]

/-- The hidden update: the output gate (the normalised row under the logistic) times the tanh of the new cell. -/
theorem pay8_at (v29 v59 v84 : FVec Ideal S256x2048 .f32) (v85 : Vec Ideal S1x2048 .f32) (x : Vec Ideal S1x256x2048 .bf16)
    (g b : Vec Ideal S1x2048 .f32) (v120 : Vec Ideal S256x2048 .f32) (r : Fin 256) (j : Fin 2048) :
    k1_pay8 (F := Ideal) v29 v59 v84 v85 x g b v120 (ix2 r j)
      = Cert.Lstm.lnAct Ideal.logistic (fun k => x (ix3 (0 : Fin 1) r k)) (fun k => g (ix2 (0 : Fin 1) k)) (fun k => b (ix2 (0 : Fin 1) k)) j
          * Ideal.tanh (k1_pay7 (F := Ideal) v29 v59 v84 v85 v120 (ix2 r j)) := by
  unfold k1_pay8
  simp only [logistic_at, tanh_at, addf_apply, mulf_apply, subf_apply, divf_apply, rsqrt_at, bcCol_at, bcRow_at, castRow_eq, castCol_at, broadcast_apply, extf_apply, castBlk_at]
  repeat rw [rowSum_at]
  simp only [logistic_at, tanh_at, addf_apply, mulf_apply, subf_apply, divf_apply, rsqrt_at, bcCol_at, bcRow_at, castRow_eq, castCol_at, broadcast_apply, extf_apply, castBlk_at]
  repeat rw [rowSum_at]
  try simp only [logistic_at, tanh_at, addf_apply, mulf_apply, subf_apply, divf_apply, rsqrt_at, bcCol_at, bcRow_at, castRow_eq, castCol_at, broadcast_apply, extf_apply, castBlk_at]
  rfl

end Cert.KernelIdeal.Stage2

end
-- ==== Proof.Ideal.Stage2Value.lean ====
/- The second stage's two result arrays after the region, on the extended reals, entry by entry: the
   new hidden and cell states of row p at position j as functions of row p of the four gates'
   pre-activations, row p of the old cell state and the eight gain and bias rows, as the region
   finds them. Each grid point writes back 256 whole rows; the sixteen blocks tile the arrays. -/
import proofs.«160278_j67095979098853_2_alg».proof.Proof.Ideal.Stage2
import proofs.«160278_j67095979098853_2_alg».proof.Proof.Ideal.Stage2Pay

set_option maxRecDepth 16384

noncomputable section

namespace Cert.KernelIdeal.Stage2

open Cert.KernelIdeal.Gen
open Idealize.ShloMosaic Idealize.ShloMosaic.TcCoe Idealize.ShloMosaic.ValueIdx Idealize.SL.Sem
open Idealize.ShloMosaic.Pipeline (Dat)

/-! ## The two stored payloads at an index of the block -/

theorem hz2 : (![0, 0] : Fin 2 → Nat) = fun _ => 0 := funext fun a => by fin_cases a <;> rfl
theorem hz3 : (![0, 0, 0] : Fin 3 → Nat) = fun _ => 0 := funext fun a => by fin_cases a <;> rfl

/-- The new cell state's block at (r, j), from the input blocks. -/
theorem out14_at (x0 : Vec Ideal S1x256x2048 .bf16) (x1 : Vec Ideal S1x256x2048 .bf16) (x2 : Vec Ideal S1x256x2048 .bf16) (x3 : Vec Ideal S1x256x2048 .bf16) (x4 : Vec Ideal S256x2048 .f32) (x5 : Vec Ideal S1x2048 .f32) (x6 : Vec Ideal S1x2048 .f32) (x7 : Vec Ideal S1x2048 .f32) (x8 : Vec Ideal S1x2048 .f32) (x9 : Vec Ideal S1x2048 .f32) (x10 : Vec Ideal S1x2048 .f32) (x11 : Vec Ideal S1x2048 .f32) (x12 : Vec Ideal S1x2048 .f32) (r : Fin 256) (j : Fin 2048) :
    out1_14 x0 x1 x2 x3 x4 x5 x6 x7 x8 x9 x10 x11 x12 (ix2 r j)
      = Cert.Lstm.cNew (fun k => x0 (ix3 (0 : Fin 1) r k)) (fun k => x1 (ix3 (0 : Fin 1) r k)) (fun k => x2 (ix3 (0 : Fin 1) r k)) (fun k => x4 (ix2 r k))
          (fun k => x5 (ix2 (0 : Fin 1) k)) (fun k => x6 (ix2 (0 : Fin 1) k)) (fun k => x7 (ix2 (0 : Fin 1) k)) (fun k => x8 (ix2 (0 : Fin 1) k)) (fun k => x9 (ix2 (0 : Fin 1) k)) (fun k => x10 (ix2 (0 : Fin 1) k)) j := by
  unfold out1_14
  rw [View.canon_unit_zero hz2]
  simp only [View.ld_unit_zero (S := S1x256x2048) hz3, View.ld_unit_zero (S := S256x2048) hz2, View.ld_unit_zero (S := S1x2048) hz2]
  rw [pay7_at, pay1_at, pay5_at, pay6_at]
  rfl

/-- The new hidden state's block at (r, j), from the input blocks. -/
theorem out13_at (x0 : Vec Ideal S1x256x2048 .bf16) (x1 : Vec Ideal S1x256x2048 .bf16) (x2 : Vec Ideal S1x256x2048 .bf16) (x3 : Vec Ideal S1x256x2048 .bf16) (x4 : Vec Ideal S256x2048 .f32) (x5 : Vec Ideal S1x2048 .f32) (x6 : Vec Ideal S1x2048 .f32) (x7 : Vec Ideal S1x2048 .f32) (x8 : Vec Ideal S1x2048 .f32) (x9 : Vec Ideal S1x2048 .f32) (x10 : Vec Ideal S1x2048 .f32) (x11 : Vec Ideal S1x2048 .f32) (x12 : Vec Ideal S1x2048 .f32) (r : Fin 256) (j : Fin 2048) :
    out1_13 x0 x1 x2 x3 x4 x5 x6 x7 x8 x9 x10 x11 x12 (ix2 r j)
      = Cert.Lstm.hNew (fun k => x0 (ix3 (0 : Fin 1) r k)) (fun k => x1 (ix3 (0 : Fin 1) r k)) (fun k => x2 (ix3 (0 : Fin 1) r k)) (fun k => x3 (ix3 (0 : Fin 1) r k)) (fun k => x4 (ix2 r k))
          (fun k => x5 (ix2 (0 : Fin 1) k)) (fun k => x6 (ix2 (0 : Fin 1) k)) (fun k => x7 (ix2 (0 : Fin 1) k)) (fun k => x8 (ix2 (0 : Fin 1) k)) (fun k => x9 (ix2 (0 : Fin 1) k)) (fun k => x10 (ix2 (0 : Fin 1) k)) (fun k => x11 (ix2 (0 : Fin 1) k)) (fun k => x12 (ix2 (0 : Fin 1) k)) j := by
  unfold out1_13
  rw [View.canon_unit_zero hz2]
  simp only [View.ld_unit_zero (S := S1x256x2048) hz3, View.ld_unit_zero (S := S256x2048) hz2, View.ld_unit_zero (S := S1x2048) hz2]
  rw [pay8_at, pay7_at, pay1_at, pay5_at, pay6_at]
  rfl

/-! ## From the blocks to the arrays -/

-- the TensorCore's buffer contents when the region is entered
variable (V : (c : Dev nD) → (b : Ref sig .tc) → Buf (Elt Ideal) ((c : Thread nD τ).loc b))

/-- The new hidden state of row `p` at position `j`, from the arrays as the region finds them. -/
def hAt (c : Dev nD) (p : Fin 4096) (j : Fin 2048) : EReal :=
  Cert.Lstm.hNew (fun k => (V c main_v14 : S4x4096x2048.Idx → EReal) (ix3 (0 : Fin 4) p k)) (fun k => (V c main_v14 : S4x4096x2048.Idx → EReal) (ix3 (1 : Fin 4) p k)) (fun k => (V c main_v14 : S4x4096x2048.Idx → EReal) (ix3 (2 : Fin 4) p k)) (fun k => (V c main_v14 : S4x4096x2048.Idx → EReal) (ix3 (3 : Fin 4) p k))
    (fun k => (V c main_arg2 : S4096x2048.Idx → EReal) (ix2 p k))
    (fun k => (V c main_v15 : S1x2048.Idx → EReal) (ix2 (0 : Fin 1) k))
    (fun k => (V c main_v16 : S1x2048.Idx → EReal) (ix2 (0 : Fin 1) k))
    (fun k => (V c main_v17 : S1x2048.Idx → EReal) (ix2 (0 : Fin 1) k))
    (fun k => (V c main_v18 : S1x2048.Idx → EReal) (ix2 (0 : Fin 1) k))
    (fun k => (V c main_v19 : S1x2048.Idx → EReal) (ix2 (0 : Fin 1) k))
    (fun k => (V c main_v20 : S1x2048.Idx → EReal) (ix2 (0 : Fin 1) k))
    (fun k => (V c main_v21 : S1x2048.Idx → EReal) (ix2 (0 : Fin 1) k))
    (fun k => (V c main_v22 : S1x2048.Idx → EReal) (ix2 (0 : Fin 1) k)) j

/-- The new cell state of row `p` at position `j`. -/
def cAt (c : Dev nD) (p : Fin 4096) (j : Fin 2048) : EReal :=
  Cert.Lstm.cNew (fun k => (V c main_v14 : S4x4096x2048.Idx → EReal) (ix3 (0 : Fin 4) p k)) (fun k => (V c main_v14 : S4x4096x2048.Idx → EReal) (ix3 (1 : Fin 4) p k)) (fun k => (V c main_v14 : S4x4096x2048.Idx → EReal) (ix3 (2 : Fin 4) p k))
    (fun k => (V c main_arg2 : S4096x2048.Idx → EReal) (ix2 p k))
    (fun k => (V c main_v15 : S1x2048.Idx → EReal) (ix2 (0 : Fin 1) k))
    (fun k => (V c main_v16 : S1x2048.Idx → EReal) (ix2 (0 : Fin 1) k))
    (fun k => (V c main_v17 : S1x2048.Idx → EReal) (ix2 (0 : Fin 1) k))
    (fun k => (V c main_v18 : S1x2048.Idx → EReal) (ix2 (0 : Fin 1) k))
    (fun k => (V c main_v19 : S1x2048.Idx → EReal) (ix2 (0 : Fin 1) k))
    (fun k => (V c main_v20 : S1x2048.Idx → EReal) (ix2 (0 : Fin 1) k)) j

/-- The two result arrays. -/
def hArr (c : Dev nD) : S4096x2048.Idx → EReal := fun i => hAt V c (i 0) (i 1)
def cArr (c : Dev nD) : S4096x2048.Idx → EReal := fun i => cAt V c (i 0) (i 1)

/-- The array row of row `r` of point `t`'s block. -/
def rowOf (t : Fin cfg1.N) (r : Fin 256) : Fin 4096 :=
  ⟨256 * t.val + r.val, by have h := t.isLt; have hN : cfg1.N = 16 := N_1; omega⟩

theorem rowOf_val (t : Fin cfg1.N) (r : Fin 256) : (rowOf t r).val = 256 * t.val + r.val := rfl

/-! ## The index maps over the sixteen points -/

theorem idxA0 : ∀ t : Fin cfg1.N, win1_0.index t (0 : Fin 3) = 0 ∧ win1_0.index t (1 : Fin 3) = t.val ∧ win1_0.index t (2 : Fin 3) = 0 :=
  (by decide +kernel : ∀ t : Fin grid1.N, _)
theorem idxA1 : ∀ t : Fin cfg1.N, win1_1.index t (0 : Fin 3) = 1 ∧ win1_1.index t (1 : Fin 3) = t.val ∧ win1_1.index t (2 : Fin 3) = 0 :=
  (by decide +kernel : ∀ t : Fin grid1.N, _)
theorem idxA2 : ∀ t : Fin cfg1.N, win1_2.index t (0 : Fin 3) = 2 ∧ win1_2.index t (1 : Fin 3) = t.val ∧ win1_2.index t (2 : Fin 3) = 0 :=
  (by decide +kernel : ∀ t : Fin grid1.N, _)
theorem idxA3 : ∀ t : Fin cfg1.N, win1_3.index t (0 : Fin 3) = 3 ∧ win1_3.index t (1 : Fin 3) = t.val ∧ win1_3.index t (2 : Fin 3) = 0 :=
  (by decide +kernel : ∀ t : Fin grid1.N, _)
theorem idxB4 : ∀ t : Fin cfg1.N, win1_4.index t (0 : Fin 2) = t.val ∧ win1_4.index t (1 : Fin 2) = 0 :=
  (by decide +kernel : ∀ t : Fin grid1.N, _)
theorem idxB13 : ∀ t : Fin cfg1.N, win1_13.index t (0 : Fin 2) = t.val ∧ win1_13.index t (1 : Fin 2) = 0 :=
  (by decide +kernel : ∀ t : Fin grid1.N, _)
theorem idxB14 : ∀ t : Fin cfg1.N, win1_14.index t (0 : Fin 2) = t.val ∧ win1_14.index t (1 : Fin 2) = 0 :=
  (by decide +kernel : ∀ t : Fin grid1.N, _)
theorem idxC5 : ∀ t : Fin cfg1.N, win1_5.index t (0 : Fin 2) = 0 ∧ win1_5.index t (1 : Fin 2) = 0 :=
  (by decide +kernel : ∀ t : Fin grid1.N, _)
theorem idxC6 : ∀ t : Fin cfg1.N, win1_6.index t (0 : Fin 2) = 0 ∧ win1_6.index t (1 : Fin 2) = 0 :=
  (by decide +kernel : ∀ t : Fin grid1.N, _)
theorem idxC7 : ∀ t : Fin cfg1.N, win1_7.index t (0 : Fin 2) = 0 ∧ win1_7.index t (1 : Fin 2) = 0 :=
  (by decide +kernel : ∀ t : Fin grid1.N, _)
theorem idxC8 : ∀ t : Fin cfg1.N, win1_8.index t (0 : Fin 2) = 0 ∧ win1_8.index t (1 : Fin 2) = 0 :=
  (by decide +kernel : ∀ t : Fin grid1.N, _)
theorem idxC9 : ∀ t : Fin cfg1.N, win1_9.index t (0 : Fin 2) = 0 ∧ win1_9.index t (1 : Fin 2) = 0 :=
  (by decide +kernel : ∀ t : Fin grid1.N, _)
theorem idxC10 : ∀ t : Fin cfg1.N, win1_10.index t (0 : Fin 2) = 0 ∧ win1_10.index t (1 : Fin 2) = 0 :=
  (by decide +kernel : ∀ t : Fin grid1.N, _)
theorem idxC11 : ∀ t : Fin cfg1.N, win1_11.index t (0 : Fin 2) = 0 ∧ win1_11.index t (1 : Fin 2) = 0 :=
  (by decide +kernel : ∀ t : Fin grid1.N, _)
theorem idxC12 : ∀ t : Fin cfg1.N, win1_12.index t (0 : Fin 2) = 0 ∧ win1_12.index t (1 : Fin 2) = 0 :=
  (by decide +kernel : ∀ t : Fin grid1.N, _)

/-! ## Each input block's entries are the array's -/

theorem blk0_at (c : Dev nD) (t : Fin cfg1.N) (r : Fin 256) (k : Fin 2048) :
    iblk1 V c 0 t (ix3 (0 : Fin 1) r k) = (V c main_v14 : S4x4096x2048.Idx → EReal) (ix3 (0 : Fin 4) (rowOf t r) k) := by
  obtain ⟨e0, e1, e2⟩ := idxA0 t
  show (V c main_v14 : S4x4096x2048.Idx → EReal) (((cfg1.win 0).blk t).view.emb (ix3 (0 : Fin 1) r k)) = _
  refine congrArg _ (funext fun a => Fin.ext ?_)
  match a with
  | ⟨0, _⟩ => show win1_0.index t (0 : Fin 3) * 1 + 1 * 0 = 0; omega
  | ⟨1, _⟩ => show win1_0.index t (1 : Fin 3) * 256 + 1 * r.val = 256 * t.val + r.val; omega
  | ⟨2, _⟩ => show win1_0.index t (2 : Fin 3) * 2048 + 1 * k.val = k.val; omega

theorem blk1_at (c : Dev nD) (t : Fin cfg1.N) (r : Fin 256) (k : Fin 2048) :
    iblk1 V c 1 t (ix3 (0 : Fin 1) r k) = (V c main_v14 : S4x4096x2048.Idx → EReal) (ix3 (1 : Fin 4) (rowOf t r) k) := by
  obtain ⟨e0, e1, e2⟩ := idxA1 t
  show (V c main_v14 : S4x4096x2048.Idx → EReal) (((cfg1.win 1).blk t).view.emb (ix3 (0 : Fin 1) r k)) = _
  refine congrArg _ (funext fun a => Fin.ext ?_)
  match a with
  | ⟨0, _⟩ => show win1_1.index t (0 : Fin 3) * 1 + 1 * 0 = 1; omega
  | ⟨1, _⟩ => show win1_1.index t (1 : Fin 3) * 256 + 1 * r.val = 256 * t.val + r.val; omega
  | ⟨2, _⟩ => show win1_1.index t (2 : Fin 3) * 2048 + 1 * k.val = k.val; omega

theorem blk2_at (c : Dev nD) (t : Fin cfg1.N) (r : Fin 256) (k : Fin 2048) :
    iblk1 V c 2 t (ix3 (0 : Fin 1) r k) = (V c main_v14 : S4x4096x2048.Idx → EReal) (ix3 (2 : Fin 4) (rowOf t r) k) := by
  obtain ⟨e0, e1, e2⟩ := idxA2 t
  show (V c main_v14 : S4x4096x2048.Idx → EReal) (((cfg1.win 2).blk t).view.emb (ix3 (0 : Fin 1) r k)) = _
  refine congrArg _ (funext fun a => Fin.ext ?_)
  match a with
  | ⟨0, _⟩ => show win1_2.index t (0 : Fin 3) * 1 + 1 * 0 = 2; omega
  | ⟨1, _⟩ => show win1_2.index t (1 : Fin 3) * 256 + 1 * r.val = 256 * t.val + r.val; omega
  | ⟨2, _⟩ => show win1_2.index t (2 : Fin 3) * 2048 + 1 * k.val = k.val; omega

theorem blk3_at (c : Dev nD) (t : Fin cfg1.N) (r : Fin 256) (k : Fin 2048) :
    iblk1 V c 3 t (ix3 (0 : Fin 1) r k) = (V c main_v14 : S4x4096x2048.Idx → EReal) (ix3 (3 : Fin 4) (rowOf t r) k) := by
  obtain ⟨e0, e1, e2⟩ := idxA3 t
  show (V c main_v14 : S4x4096x2048.Idx → EReal) (((cfg1.win 3).blk t).view.emb (ix3 (0 : Fin 1) r k)) = _
  refine congrArg _ (funext fun a => Fin.ext ?_)
  match a with
  | ⟨0, _⟩ => show win1_3.index t (0 : Fin 3) * 1 + 1 * 0 = 3; omega
  | ⟨1, _⟩ => show win1_3.index t (1 : Fin 3) * 256 + 1 * r.val = 256 * t.val + r.val; omega
  | ⟨2, _⟩ => show win1_3.index t (2 : Fin 3) * 2048 + 1 * k.val = k.val; omega

theorem blk4_at (c : Dev nD) (t : Fin cfg1.N) (r : Fin 256) (k : Fin 2048) :
    iblk1 V c 4 t (ix2 r k) = (V c main_arg2 : S4096x2048.Idx → EReal) (ix2 (rowOf t r) k) := by
  obtain ⟨e0, e1⟩ := idxB4 t
  show (V c main_arg2 : S4096x2048.Idx → EReal) (((cfg1.win 4).blk t).view.emb (ix2 r k)) = _
  refine congrArg _ (funext fun a => Fin.ext ?_)
  match a with
  | ⟨0, _⟩ => show win1_4.index t (0 : Fin 2) * 256 + 1 * r.val = 256 * t.val + r.val; omega
  | ⟨1, _⟩ => show win1_4.index t (1 : Fin 2) * 2048 + 1 * k.val = k.val; omega

theorem blk5_at (c : Dev nD) (t : Fin cfg1.N) (k : Fin 2048) :
    iblk1 V c 5 t (ix2 (0 : Fin 1) k) = (V c main_v15 : S1x2048.Idx → EReal) (ix2 (0 : Fin 1) k) := by
  obtain ⟨e0, e1⟩ := idxC5 t
  show (V c main_v15 : S1x2048.Idx → EReal) (((cfg1.win 5).blk t).view.emb (ix2 (0 : Fin 1) k)) = _
  refine congrArg _ (funext fun a => Fin.ext ?_)
  match a with
  | ⟨0, _⟩ => show win1_5.index t (0 : Fin 2) * 1 + 1 * 0 = 0; omega
  | ⟨1, _⟩ => show win1_5.index t (1 : Fin 2) * 2048 + 1 * k.val = k.val; omega

theorem blk6_at (c : Dev nD) (t : Fin cfg1.N) (k : Fin 2048) :
    iblk1 V c 6 t (ix2 (0 : Fin 1) k) = (V c main_v16 : S1x2048.Idx → EReal) (ix2 (0 : Fin 1) k) := by
  obtain ⟨e0, e1⟩ := idxC6 t
  show (V c main_v16 : S1x2048.Idx → EReal) (((cfg1.win 6).blk t).view.emb (ix2 (0 : Fin 1) k)) = _
  refine congrArg _ (funext fun a => Fin.ext ?_)
  match a with
  | ⟨0, _⟩ => show win1_6.index t (0 : Fin 2) * 1 + 1 * 0 = 0; omega
  | ⟨1, _⟩ => show win1_6.index t (1 : Fin 2) * 2048 + 1 * k.val = k.val; omega

theorem blk7_at (c : Dev nD) (t : Fin cfg1.N) (k : Fin 2048) :
    iblk1 V c 7 t (ix2 (0 : Fin 1) k) = (V c main_v17 : S1x2048.Idx → EReal) (ix2 (0 : Fin 1) k) := by
  obtain ⟨e0, e1⟩ := idxC7 t
  show (V c main_v17 : S1x2048.Idx → EReal) (((cfg1.win 7).blk t).view.emb (ix2 (0 : Fin 1) k)) = _
  refine congrArg _ (funext fun a => Fin.ext ?_)
  match a with
  | ⟨0, _⟩ => show win1_7.index t (0 : Fin 2) * 1 + 1 * 0 = 0; omega
  | ⟨1, _⟩ => show win1_7.index t (1 : Fin 2) * 2048 + 1 * k.val = k.val; omega

theorem blk8_at (c : Dev nD) (t : Fin cfg1.N) (k : Fin 2048) :
    iblk1 V c 8 t (ix2 (0 : Fin 1) k) = (V c main_v18 : S1x2048.Idx → EReal) (ix2 (0 : Fin 1) k) := by
  obtain ⟨e0, e1⟩ := idxC8 t
  show (V c main_v18 : S1x2048.Idx → EReal) (((cfg1.win 8).blk t).view.emb (ix2 (0 : Fin 1) k)) = _
  refine congrArg _ (funext fun a => Fin.ext ?_)
  match a with
  | ⟨0, _⟩ => show win1_8.index t (0 : Fin 2) * 1 + 1 * 0 = 0; omega
  | ⟨1, _⟩ => show win1_8.index t (1 : Fin 2) * 2048 + 1 * k.val = k.val; omega

theorem blk9_at (c : Dev nD) (t : Fin cfg1.N) (k : Fin 2048) :
    iblk1 V c 9 t (ix2 (0 : Fin 1) k) = (V c main_v19 : S1x2048.Idx → EReal) (ix2 (0 : Fin 1) k) := by
  obtain ⟨e0, e1⟩ := idxC9 t
  show (V c main_v19 : S1x2048.Idx → EReal) (((cfg1.win 9).blk t).view.emb (ix2 (0 : Fin 1) k)) = _
  refine congrArg _ (funext fun a => Fin.ext ?_)
  match a with
  | ⟨0, _⟩ => show win1_9.index t (0 : Fin 2) * 1 + 1 * 0 = 0; omega
  | ⟨1, _⟩ => show win1_9.index t (1 : Fin 2) * 2048 + 1 * k.val = k.val; omega

theorem blk10_at (c : Dev nD) (t : Fin cfg1.N) (k : Fin 2048) :
    iblk1 V c 10 t (ix2 (0 : Fin 1) k) = (V c main_v20 : S1x2048.Idx → EReal) (ix2 (0 : Fin 1) k) := by
  obtain ⟨e0, e1⟩ := idxC10 t
  show (V c main_v20 : S1x2048.Idx → EReal) (((cfg1.win 10).blk t).view.emb (ix2 (0 : Fin 1) k)) = _
  refine congrArg _ (funext fun a => Fin.ext ?_)
  match a with
  | ⟨0, _⟩ => show win1_10.index t (0 : Fin 2) * 1 + 1 * 0 = 0; omega
  | ⟨1, _⟩ => show win1_10.index t (1 : Fin 2) * 2048 + 1 * k.val = k.val; omega

theorem blk11_at (c : Dev nD) (t : Fin cfg1.N) (k : Fin 2048) :
    iblk1 V c 11 t (ix2 (0 : Fin 1) k) = (V c main_v21 : S1x2048.Idx → EReal) (ix2 (0 : Fin 1) k) := by
  obtain ⟨e0, e1⟩ := idxC11 t
  show (V c main_v21 : S1x2048.Idx → EReal) (((cfg1.win 11).blk t).view.emb (ix2 (0 : Fin 1) k)) = _
  refine congrArg _ (funext fun a => Fin.ext ?_)
  match a with
  | ⟨0, _⟩ => show win1_11.index t (0 : Fin 2) * 1 + 1 * 0 = 0; omega
  | ⟨1, _⟩ => show win1_11.index t (1 : Fin 2) * 2048 + 1 * k.val = k.val; omega

theorem blk12_at (c : Dev nD) (t : Fin cfg1.N) (k : Fin 2048) :
    iblk1 V c 12 t (ix2 (0 : Fin 1) k) = (V c main_v22 : S1x2048.Idx → EReal) (ix2 (0 : Fin 1) k) := by
  obtain ⟨e0, e1⟩ := idxC12 t
  show (V c main_v22 : S1x2048.Idx → EReal) (((cfg1.win 12).blk t).view.emb (ix2 (0 : Fin 1) k)) = _
  refine congrArg _ (funext fun a => Fin.ext ?_)
  match a with
  | ⟨0, _⟩ => show win1_12.index t (0 : Fin 2) * 1 + 1 * 0 = 0; omega
  | ⟨1, _⟩ => show win1_12.index t (1 : Fin 2) * 2048 + 1 * k.val = k.val; omega

/-! ## The new hidden state array -/

/-- An index of the array is in point `t`'s block iff each coordinate is in the block's range on its axis. -/
theorem mem_blk13 (t : Fin cfg1.N) (i : S4096x2048.Idx) :
    i ∈ ((cfg1.win 13).blk t).view.set ↔ ∀ a : Fin 2, win1_13.index t a * S256x2048.size a ≤ (i a).val ∧ (i a).val < win1_13.index t a * S256x2048.size a + S256x2048.size a := by
  show i ∈ ((View.whole main_v23_0).slice (win1_13.rect t)).set ↔ _
  rw [View.set_slice_whole, Rect.mem_set_unit]
  exact Iff.rfl

/-- Row `p` is in the block of point `p / 256`: the blocks tile the array. -/
theorem cover13 (i : S4096x2048.Idx) : ∃ t : Fin cfg1.N, (cfg1.win 13).flush t = true ∧ i ∈ ((cfg1.win 13).blk t).view.set := by
  have hi0 : (i 0).val < 4096 := (i 0).isLt
  have hi1 : (i 1).val < 2048 := (i 1).isLt
  have hN : cfg1.N = 16 := N_1
  obtain ⟨t, ht⟩ : ∃ t : Fin cfg1.N, t.val = (i 0).val / 256 := ⟨⟨(i 0).val / 256, by omega⟩, rfl⟩
  obtain ⟨e0, e1⟩ := idxB13 t
  refine ⟨t, flush1_13 t, ?_⟩
  rw [mem_blk13]
  intro a
  match a with
  | ⟨0, _⟩ => show win1_13.index t (0 : Fin 2) * 256 ≤ (i 0).val ∧ (i 0).val < win1_13.index t (0 : Fin 2) * 256 + 256; omega
  | ⟨1, _⟩ => show win1_13.index t (1 : Fin 2) * 2048 ≤ (i 1).val ∧ (i 1).val < win1_13.index t (1 : Fin 2) * 2048 + 2048; omega

/-- What point `t` writes back is block `t` of the new hidden state array. -/
theorem flushed13_eq (c : Dev nD) (t : Fin cfg1.N) :
    (dat1 (F := Ideal) V c).flushed 13 t = ((cfg1.win 13).blk t).view.read (Elt Ideal) (hArr V c) := by
  show (cfg1.win 13).cut (grid1.coords t) ((dat1 (F := Ideal) V c).after 13 t) = _
  rw [after1_13]
  funext y
  obtain ⟨r, j, rfl⟩ : ∃ (r : Fin 256) (j : Fin 2048), y = ix2 r j := ⟨y 0, y 1, eq_ix2 y⟩
  show out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (ix2 r j) = hArr V c (((cfg1.win 13).blk t).view.emb (ix2 r j))
  refine (out13_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) r j).trans ?_
  have e : ((cfg1.win 13).blk t).view.emb (ix2 r j) = ix2 (rowOf t r) j := by
    obtain ⟨e0, e1⟩ := idxB13 t
    refine funext fun a => Fin.ext ?_
    match a with
    | ⟨0, _⟩ => show win1_13.index t (0 : Fin 2) * 256 + 1 * r.val = 256 * t.val + r.val; omega
    | ⟨1, _⟩ => show win1_13.index t (1 : Fin 2) * 2048 + 1 * j.val = j.val; omega
  rw [e]
  show _ = hAt V c (rowOf t r) j
  unfold hAt
  simp only [blk0_at V c t r, blk1_at V c t r, blk2_at V c t r, blk3_at V c t r, blk4_at V c t r, blk5_at V c t, blk6_at V c t, blk7_at V c t, blk8_at V c t, blk9_at V c t, blk10_at V c t, blk11_at V c t, blk12_at V c t]

/-- The new hidden state array after the region. -/
theorem arr13_final (c : Dev nD) : (dat1 (F := Ideal) V c).arrAt 13 cfg1.N = hArr V c :=
  (dat1 (F := Ideal) V c).arrAt_eq_of_cover 13 (hArr V c) (fun t _ => flushed13_eq V c t) cover13

/-- The same, entry by entry. -/
theorem arr13_at (c : Dev nD) (p : Fin 4096) (j : Fin 2048) :
    (dat1 (F := Ideal) V c).arrAt 13 cfg1.N (ix2 p j) = Cert.Lstm.hNew (fun k => (V c main_v14 : S4x4096x2048.Idx → EReal) (ix3 (0 : Fin 4) p k)) (fun k => (V c main_v14 : S4x4096x2048.Idx → EReal) (ix3 (1 : Fin 4) p k)) (fun k => (V c main_v14 : S4x4096x2048.Idx → EReal) (ix3 (2 : Fin 4) p k)) (fun k => (V c main_v14 : S4x4096x2048.Idx → EReal) (ix3 (3 : Fin 4) p k))
    (fun k => (V c main_arg2 : S4096x2048.Idx → EReal) (ix2 p k))
    (fun k => (V c main_v15 : S1x2048.Idx → EReal) (ix2 (0 : Fin 1) k))
    (fun k => (V c main_v16 : S1x2048.Idx → EReal) (ix2 (0 : Fin 1) k))
    (fun k => (V c main_v17 : S1x2048.Idx → EReal) (ix2 (0 : Fin 1) k))
    (fun k => (V c main_v18 : S1x2048.Idx → EReal) (ix2 (0 : Fin 1) k))
    (fun k => (V c main_v19 : S1x2048.Idx → EReal) (ix2 (0 : Fin 1) k))
    (fun k => (V c main_v20 : S1x2048.Idx → EReal) (ix2 (0 : Fin 1) k))
    (fun k => (V c main_v21 : S1x2048.Idx → EReal) (ix2 (0 : Fin 1) k))
    (fun k => (V c main_v22 : S1x2048.Idx → EReal) (ix2 (0 : Fin 1) k)) j := by
  rw [arr13_final]; rfl

/-! ## The new cell state array -/

/-- An index of the array is in point `t`'s block iff each coordinate is in the block's range on its axis. -/
theorem mem_blk14 (t : Fin cfg1.N) (i : S4096x2048.Idx) :
    i ∈ ((cfg1.win 14).blk t).view.set ↔ ∀ a : Fin 2, win1_14.index t a * S256x2048.size a ≤ (i a).val ∧ (i a).val < win1_14.index t a * S256x2048.size a + S256x2048.size a := by
  show i ∈ ((View.whole main_v23_1).slice (win1_14.rect t)).set ↔ _
  rw [View.set_slice_whole, Rect.mem_set_unit]
  exact Iff.rfl

/-- Row `p` is in the block of point `p / 256`: the blocks tile the array. -/
theorem cover14 (i : S4096x2048.Idx) : ∃ t : Fin cfg1.N, (cfg1.win 14).flush t = true ∧ i ∈ ((cfg1.win 14).blk t).view.set := by
  have hi0 : (i 0).val < 4096 := (i 0).isLt
  have hi1 : (i 1).val < 2048 := (i 1).isLt
  have hN : cfg1.N = 16 := N_1
  obtain ⟨t, ht⟩ : ∃ t : Fin cfg1.N, t.val = (i 0).val / 256 := ⟨⟨(i 0).val / 256, by omega⟩, rfl⟩
  obtain ⟨e0, e1⟩ := idxB14 t
  refine ⟨t, flush1_14 t, ?_⟩
  rw [mem_blk14]
  intro a
  match a with
  | ⟨0, _⟩ => show win1_14.index t (0 : Fin 2) * 256 ≤ (i 0).val ∧ (i 0).val < win1_14.index t (0 : Fin 2) * 256 + 256; omega
  | ⟨1, _⟩ => show win1_14.index t (1 : Fin 2) * 2048 ≤ (i 1).val ∧ (i 1).val < win1_14.index t (1 : Fin 2) * 2048 + 2048; omega

/-- What point `t` writes back is block `t` of the new cell state array. -/
theorem flushed14_eq (c : Dev nD) (t : Fin cfg1.N) :
    (dat1 (F := Ideal) V c).flushed 14 t = ((cfg1.win 14).blk t).view.read (Elt Ideal) (cArr V c) := by
  show (cfg1.win 14).cut (grid1.coords t) ((dat1 (F := Ideal) V c).after 14 t) = _
  rw [after1_14]
  funext y
  obtain ⟨r, j, rfl⟩ : ∃ (r : Fin 256) (j : Fin 2048), y = ix2 r j := ⟨y 0, y 1, eq_ix2 y⟩
  show out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (ix2 r j) = cArr V c (((cfg1.win 14).blk t).view.emb (ix2 r j))
  refine (out14_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) r j).trans ?_
  have e : ((cfg1.win 14).blk t).view.emb (ix2 r j) = ix2 (rowOf t r) j := by
    obtain ⟨e0, e1⟩ := idxB14 t
    refine funext fun a => Fin.ext ?_
    match a with
    | ⟨0, _⟩ => show win1_14.index t (0 : Fin 2) * 256 + 1 * r.val = 256 * t.val + r.val; omega
    | ⟨1, _⟩ => show win1_14.index t (1 : Fin 2) * 2048 + 1 * j.val = j.val; omega
  rw [e]
  show _ = cAt V c (rowOf t r) j
  unfold cAt
  simp only [blk0_at V c t r, blk1_at V c t r, blk2_at V c t r, blk3_at V c t r, blk4_at V c t r, blk5_at V c t, blk6_at V c t, blk7_at V c t, blk8_at V c t, blk9_at V c t, blk10_at V c t, blk11_at V c t, blk12_at V c t]

/-- The new cell state array after the region. -/
theorem arr14_final (c : Dev nD) : (dat1 (F := Ideal) V c).arrAt 14 cfg1.N = cArr V c :=
  (dat1 (F := Ideal) V c).arrAt_eq_of_cover 14 (cArr V c) (fun t _ => flushed14_eq V c t) cover14

/-- The same, entry by entry. -/
theorem arr14_at (c : Dev nD) (p : Fin 4096) (j : Fin 2048) :
    (dat1 (F := Ideal) V c).arrAt 14 cfg1.N (ix2 p j) = Cert.Lstm.cNew (fun k => (V c main_v14 : S4x4096x2048.Idx → EReal) (ix3 (0 : Fin 4) p k)) (fun k => (V c main_v14 : S4x4096x2048.Idx → EReal) (ix3 (1 : Fin 4) p k)) (fun k => (V c main_v14 : S4x4096x2048.Idx → EReal) (ix3 (2 : Fin 4) p k))
    (fun k => (V c main_arg2 : S4096x2048.Idx → EReal) (ix2 p k))
    (fun k => (V c main_v15 : S1x2048.Idx → EReal) (ix2 (0 : Fin 1) k))
    (fun k => (V c main_v16 : S1x2048.Idx → EReal) (ix2 (0 : Fin 1) k))
    (fun k => (V c main_v17 : S1x2048.Idx → EReal) (ix2 (0 : Fin 1) k))
    (fun k => (V c main_v18 : S1x2048.Idx → EReal) (ix2 (0 : Fin 1) k))
    (fun k => (V c main_v19 : S1x2048.Idx → EReal) (ix2 (0 : Fin 1) k))
    (fun k => (V c main_v20 : S1x2048.Idx → EReal) (ix2 (0 : Fin 1) k)) j := by
  rw [arr14_final]; rfl

end Cert.KernelIdeal.Stage2

end
-- ==== Proof.Math.RefSpelt.lean ====
/-
  The reference's gates at one entry, in the spelling its operations give them.

  The reference normalises a row by dividing its sum by 2048, subtracting, squaring, summing and dividing again,
  adding eps, taking the reciprocal square root, and multiplying; then gain and bias.  The logistic gates are spelt
  `1 / (1 + exp (-x))`, which is the ideal logistic by definition; the candidate gate uses tanh.  Each spelling is
  the specification's `lnAct` of the row, and the literal 1.0 is the extended real 1.
-/
import proofs.«160278_j67095979098853_2_alg».proof.Proof.Math.Spec

noncomputable section

namespace Cert.ReferenceIdeal.RefValue

open Idealize.ShloMosaic Cert.Lstm

/-- The f32 pattern of 1.0 denotes the extended real 1. -/
theorem ofBits_one_f32 : Ideal.ofBits .f32 0x3F800000#32 = 1 := by
  simp [Ideal.ofBits, Ideal.ieee, -EReal.coe_mul]; norm_num

/-- LayerNorm of a row at `j` as the operations spell it, before the activation. -/
def lnSpelt (row g b : Fin 2048 → EReal) (j : Fin 2048) : EReal :=
  (row j - Ideal.div (∑ k, row k) n2048)
      * Ideal.rsqrt (Ideal.div (∑ k, (row k - Ideal.div (∑ k', row k') n2048) * (row k - Ideal.div (∑ k', row k') n2048)) n2048 + eps)
      * g j + b j

/-- The spelt LayerNorm followed by the spelt logistic is the specification's logistic gate. -/
theorem logistic_spelt (row g b : Fin 2048 → EReal) (j : Fin 2048) :
    Ideal.div 1 (1 + Ideal.exp (-(lnSpelt row g b j))) = lnAct Ideal.logistic row g b j := rfl

/-- The spelt LayerNorm followed by tanh is the specification's tanh gate. -/
theorem tanh_spelt (row g b : Fin 2048 → EReal) (j : Fin 2048) :
    Ideal.tanh (lnSpelt row g b j) = lnAct Ideal.tanh row g b j := rfl

end Cert.ReferenceIdeal.RefValue

end
-- ==== Proof.Math.RefPre.lean ====
/-
  The four pre-activations of the reference, read at one entry.

  Each gate's pre-activation is `x · Wᵀ + b + h · Uᵀ`: at row `p` and unit `j` the two contractions pair row `p` of
  the input (of the hidden state) with row `j` of the weight, and the bias is read at `j`; in that order this is the
  specification's `preRef`.  The four gates (input, forget, candidate, output) differ only in their weights.
-/
import proofs.«160278_j67095979098853_2_alg».proof.Proof.Math.Spec
import proofs.«160278_j67095979098853_2_alg».proof.Proof.Gen.ReferenceIdeal.Read

noncomputable section

namespace Cert.ReferenceIdeal.RefValue

open Idealize.ShloMosaic Idealize.ShloMosaic.ValueIdx Cert.ReferenceIdeal Cert.ReferenceIdeal.Read Cert.Lstm

/-- Row `p` of a gate's pre-activation, as the reference computes it. -/
def preRow (x h : FVec Ideal S4096x2048 .f32) (W : FVec Ideal S2048x2048 .f32) (b : FVec Ideal S2048 .f32)
    (U : FVec Ideal S2048x2048 .f32) (p : Fin 4096) : Fin 2048 → EReal :=
  fun j => preRef (fun k => x (ix2 p k)) (fun k => h (ix2 p k)) (fun k => W (ix2 j k)) (fun k => U (ix2 j k)) (b (ix1 j))

/-- The i-gate's pre-activation at row `p`, unit `j`: both contractions run over the second axis of the weights
    (the reference contracts with the transposes), and the bias is read at `j`. -/
theorem pre_i (x h : (⟨S4096x2048, .f32⟩ : BufTy).Contents (Elt Ideal)) (w : (⟨S2048x2048, .f32⟩ : BufTy).Contents (Elt Ideal)) (b : (⟨S2048, .f32⟩ : BufTy).Contents (Elt Ideal)) (u : (⟨S2048x2048, .f32⟩ : BufTy).Contents (Elt Ideal)) (p : Fin 4096) (j : Fin 2048) :
    val_main_v7 (F := Ideal) x h w b u (ix2 p j) = preRow x h w b u p j := by
  have el : ∀ k : Fin 2048, lidx_main_v1 (ix2 p j) k = ix2 p k := fun k =>
    funext fun a => by match a with | ⟨0, _⟩ => rfl | ⟨1, _⟩ => rfl
  have er : ∀ k : Fin 2048, idx_main_v0 (ridx_main_v1 (ix2 p j) k) = ix2 j k := fun k =>
    funext fun a => by match a with | ⟨0, _⟩ => rfl | ⟨1, _⟩ => rfl
  have eb : idx_main_v2 (idx_main_v3 (ix2 p j)) = ix1 j :=
    funext fun a => by match a with | ⟨0, _⟩ => rfl
  have el' : ∀ k : Fin 2048, lidx_main_v6 (ix2 p j) k = ix2 p k := fun k =>
    funext fun a => by match a with | ⟨0, _⟩ => rfl | ⟨1, _⟩ => rfl
  have er' : ∀ k : Fin 2048, idx_main_v5 (ridx_main_v6 (ix2 p j) k) = ix2 j k := fun k =>
    funext fun a => by match a with | ⟨0, _⟩ => rfl | ⟨1, _⟩ => rfl
  simp only [val_main_v7_apply, val_main_v4_apply, val_main_v1_apply, val_main_v0_apply, val_main_v3_apply, val_main_v2_apply, val_main_v6_apply,
    val_main_v5_apply, el, er, eb, el', er', Ideal.addf_def]
  rfl

/-- The f-gate's pre-activation at row `p`, unit `j`: both contractions run over the second axis of the weights
    (the reference contracts with the transposes), and the bias is read at `j`. -/
theorem pre_f (x h : (⟨S4096x2048, .f32⟩ : BufTy).Contents (Elt Ideal)) (w : (⟨S2048x2048, .f32⟩ : BufTy).Contents (Elt Ideal)) (b : (⟨S2048, .f32⟩ : BufTy).Contents (Elt Ideal)) (u : (⟨S2048x2048, .f32⟩ : BufTy).Contents (Elt Ideal)) (p : Fin 4096) (j : Fin 2048) :
    val_main_v15 (F := Ideal) x h w b u (ix2 p j) = preRow x h w b u p j := by
  have el : ∀ k : Fin 2048, lidx_main_v9 (ix2 p j) k = ix2 p k := fun k =>
    funext fun a => by match a with | ⟨0, _⟩ => rfl | ⟨1, _⟩ => rfl
  have er : ∀ k : Fin 2048, idx_main_v8 (ridx_main_v9 (ix2 p j) k) = ix2 j k := fun k =>
    funext fun a => by match a with | ⟨0, _⟩ => rfl | ⟨1, _⟩ => rfl
  have eb : idx_main_v10 (idx_main_v11 (ix2 p j)) = ix1 j :=
    funext fun a => by match a with | ⟨0, _⟩ => rfl
  have el' : ∀ k : Fin 2048, lidx_main_v14 (ix2 p j) k = ix2 p k := fun k =>
    funext fun a => by match a with | ⟨0, _⟩ => rfl | ⟨1, _⟩ => rfl
  have er' : ∀ k : Fin 2048, idx_main_v13 (ridx_main_v14 (ix2 p j) k) = ix2 j k := fun k =>
    funext fun a => by match a with | ⟨0, _⟩ => rfl | ⟨1, _⟩ => rfl
  simp only [val_main_v15_apply, val_main_v12_apply, val_main_v9_apply, val_main_v8_apply, val_main_v11_apply, val_main_v10_apply, val_main_v14_apply,
    val_main_v13_apply, el, er, eb, el', er', Ideal.addf_def]
  rfl

/-- The c-gate's pre-activation at row `p`, unit `j`: both contractions run over the second axis of the weights
    (the reference contracts with the transposes), and the bias is read at `j`. -/
theorem pre_c (x h : (⟨S4096x2048, .f32⟩ : BufTy).Contents (Elt Ideal)) (w : (⟨S2048x2048, .f32⟩ : BufTy).Contents (Elt Ideal)) (b : (⟨S2048, .f32⟩ : BufTy).Contents (Elt Ideal)) (u : (⟨S2048x2048, .f32⟩ : BufTy).Contents (Elt Ideal)) (p : Fin 4096) (j : Fin 2048) :
    val_main_v23 (F := Ideal) x h w b u (ix2 p j) = preRow x h w b u p j := by
  have el : ∀ k : Fin 2048, lidx_main_v17 (ix2 p j) k = ix2 p k := fun k =>
    funext fun a => by match a with | ⟨0, _⟩ => rfl | ⟨1, _⟩ => rfl
  have er : ∀ k : Fin 2048, idx_main_v16 (ridx_main_v17 (ix2 p j) k) = ix2 j k := fun k =>
    funext fun a => by match a with | ⟨0, _⟩ => rfl | ⟨1, _⟩ => rfl
  have eb : idx_main_v18 (idx_main_v19 (ix2 p j)) = ix1 j :=
    funext fun a => by match a with | ⟨0, _⟩ => rfl
  have el' : ∀ k : Fin 2048, lidx_main_v22 (ix2 p j) k = ix2 p k := fun k =>
    funext fun a => by match a with | ⟨0, _⟩ => rfl | ⟨1, _⟩ => rfl
  have er' : ∀ k : Fin 2048, idx_main_v21 (ridx_main_v22 (ix2 p j) k) = ix2 j k := fun k =>
    funext fun a => by match a with | ⟨0, _⟩ => rfl | ⟨1, _⟩ => rfl
  simp only [val_main_v23_apply, val_main_v20_apply, val_main_v17_apply, val_main_v16_apply, val_main_v19_apply, val_main_v18_apply, val_main_v22_apply,
    val_main_v21_apply, el, er, eb, el', er', Ideal.addf_def]
  rfl

/-- The o-gate's pre-activation at row `p`, unit `j`: both contractions run over the second axis of the weights
    (the reference contracts with the transposes), and the bias is read at `j`. -/
theorem pre_o (x h : (⟨S4096x2048, .f32⟩ : BufTy).Contents (Elt Ideal)) (w : (⟨S2048x2048, .f32⟩ : BufTy).Contents (Elt Ideal)) (b : (⟨S2048, .f32⟩ : BufTy).Contents (Elt Ideal)) (u : (⟨S2048x2048, .f32⟩ : BufTy).Contents (Elt Ideal)) (p : Fin 4096) (j : Fin 2048) :
    val_main_v31 (F := Ideal) x h w b u (ix2 p j) = preRow x h w b u p j := by
  have el : ∀ k : Fin 2048, lidx_main_v25 (ix2 p j) k = ix2 p k := fun k =>
    funext fun a => by match a with | ⟨0, _⟩ => rfl | ⟨1, _⟩ => rfl
  have er : ∀ k : Fin 2048, idx_main_v24 (ridx_main_v25 (ix2 p j) k) = ix2 j k := fun k =>
    funext fun a => by match a with | ⟨0, _⟩ => rfl | ⟨1, _⟩ => rfl
  have eb : idx_main_v26 (idx_main_v27 (ix2 p j)) = ix1 j :=
    funext fun a => by match a with | ⟨0, _⟩ => rfl
  have el' : ∀ k : Fin 2048, lidx_main_v30 (ix2 p j) k = ix2 p k := fun k =>
    funext fun a => by match a with | ⟨0, _⟩ => rfl | ⟨1, _⟩ => rfl
  have er' : ∀ k : Fin 2048, idx_main_v29 (ridx_main_v30 (ix2 p j) k) = ix2 j k := fun k =>
    funext fun a => by match a with | ⟨0, _⟩ => rfl | ⟨1, _⟩ => rfl
  simp only [val_main_v31_apply, val_main_v28_apply, val_main_v25_apply, val_main_v24_apply, val_main_v27_apply, val_main_v26_apply, val_main_v30_apply,
    val_main_v29_apply, el, er, eb, el', er', Ideal.addf_def]
  rfl

end Cert.ReferenceIdeal.RefValue

end
-- ==== Proof.Math.RefGate.lean ====
/-
  The reference's four gates, read at one entry.

  After its pre-activation each gate is normalised along the row: the row's sum over 2048 entries (a reduction from
  zero), broadcast back as a column and divided by 2048; the deviations squared, summed and divided again; eps added;
  the reciprocal square root broadcast along the row; then the gain and the bias, each broadcast down the rows.  Read
  at row `p`, unit `j`, every broadcast lands on row `p` or unit `j`, so the entry is the specification's `lnAct` of
  row `p` of the pre-activation.  The input, forget and output gates end in the logistic, the candidate in tanh.
-/
import proofs.«160278_j67095979098853_2_alg».proof.Proof.Math.RefSpelt
import proofs.«160278_j67095979098853_2_alg».proof.Proof.Math.RefPre

noncomputable section

namespace Cert.ReferenceIdeal.RefValue

open Idealize.ShloMosaic Idealize.ShloMosaic.ValueIdx Cert.ReferenceIdeal Cert.ReferenceIdeal.Read Cert.Lstm

/-- The i-gate at row `p`, unit `j`: LayerNorm of row `p` of the gate's pre-activation, then the logistic spelt as `1 / (1 + exp (-x))`.
    Every broadcast reads row `p` (or unit `j` of a gain or bias), and both sums run over the whole row. -/
theorem gate_i (x h : (⟨S4096x2048, .f32⟩ : BufTy).Contents (Elt Ideal)) (w : (⟨S2048x2048, .f32⟩ : BufTy).Contents (Elt Ideal)) (b : (⟨S2048, .f32⟩ : BufTy).Contents (Elt Ideal)) (u : (⟨S2048x2048, .f32⟩ : BufTy).Contents (Elt Ideal))
    (g c : (⟨S2048, .f32⟩ : BufTy).Contents (Elt Ideal)) (p : Fin 4096) (j : Fin 2048) :
    val_main_v61 (F := Ideal) x h w b u g c (ix2 p j)
      = lnAct Ideal.logistic (preRow x h w b u p) (fun k => g (ix1 k)) (fun k => c (ix1 k)) j := by
  have eg : idx_main_v50 (idx_main_v51 (ix2 p j)) = ix1 j := funext fun a => by match a with | ⟨0, _⟩ => rfl
  have ec : idx_main_v53 (idx_main_v54 (ix2 p j)) = ix1 j := funext fun a => by match a with | ⟨0, _⟩ => rfl
  have em : ∀ q k : Fin 2048, idx_main_v32 (idx_main_v33 (idx_main_v43 (ix2 p q))) k = ix2 p k := fun q k =>
    funext fun a => by match a with | ⟨0, _⟩ => rfl | ⟨1, _⟩ => rfl
  have em' : ∀ q k : Fin 2048, idx_main_v32 (idx_main_v33 (idx_main_v36 (ix2 p q))) k = ix2 p k := fun q k =>
    funext fun a => by match a with | ⟨0, _⟩ => rfl | ⟨1, _⟩ => rfl
  have ev : ∀ k : Fin 2048, idx_main_v39 (idx_main_v40 (idx_main_v48 (ix2 p j))) k = ix2 p k := fun k =>
    funext fun a => by match a with | ⟨0, _⟩ => rfl | ⟨1, _⟩ => rfl
  have hrow : preRow x h w b u p = fun k => val_main_v7 (F := Ideal) x h w b u (ix2 p k) :=
    funext fun k => (pre_i x h w b u p k).symm
  rw [hrow]
  simp only [val_main_v61_apply, val_main_v60_apply, val_main_v59_apply, val_main_v58_apply, val_main_v57_apply, val_main_v56_apply,
    val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_v43_apply, val_main_v42_apply, val_main_v41_apply, val_main_v40_apply, val_main_v39_apply, val_main_v38_apply,
    val_main_v37_apply, val_main_v36_apply, val_main_v35_apply, val_main_v34_apply, val_main_v33_apply, val_main_v32_apply,
    val_main_cst_apply, val_main_cst_0_apply, val_main_cst_1_apply, val_main_cst_2_apply, val_main_cst_3_apply, val_main_cst_4_apply,
    val_main_cst_5_apply]
  generalize val_main_v7 (F := Ideal) x h w b u = pre
  simp only [ev, em, em', eg, ec, Ideal.ofBits_def, Ideal.addf_def, Ideal.subf_def, Ideal.mulf_def, Ideal.hostDivf_def,
    Ideal.hostUnary_rsqrt_def, Ideal.hostUnary_exp_def, Ideal.hostNegf_def, Ideal.negf_def, ofBits_one_f32,
    Ideal.ofBits_zero_f32, zero_add]
  exact logistic_spelt (fun k => pre (ix2 p k)) (fun k => g (ix1 k)) (fun k => c (ix1 k)) j

/-- The f-gate at row `p`, unit `j`: LayerNorm of row `p` of the gate's pre-activation, then the logistic spelt as `1 / (1 + exp (-x))`.
    Every broadcast reads row `p` (or unit `j` of a gain or bias), and both sums run over the whole row. -/
theorem gate_f (x h : (⟨S4096x2048, .f32⟩ : BufTy).Contents (Elt Ideal)) (w : (⟨S2048x2048, .f32⟩ : BufTy).Contents (Elt Ideal)) (b : (⟨S2048, .f32⟩ : BufTy).Contents (Elt Ideal)) (u : (⟨S2048x2048, .f32⟩ : BufTy).Contents (Elt Ideal))
    (g c : (⟨S2048, .f32⟩ : BufTy).Contents (Elt Ideal)) (p : Fin 4096) (j : Fin 2048) :
    val_main_v91 (F := Ideal) x h w b u g c (ix2 p j)
      = lnAct Ideal.logistic (preRow x h w b u p) (fun k => g (ix1 k)) (fun k => c (ix1 k)) j := by
  have eg : idx_main_v80 (idx_main_v81 (ix2 p j)) = ix1 j := funext fun a => by match a with | ⟨0, _⟩ => rfl
  have ec : idx_main_v83 (idx_main_v84 (ix2 p j)) = ix1 j := funext fun a => by match a with | ⟨0, _⟩ => rfl
  have em : ∀ q k : Fin 2048, idx_main_v62 (idx_main_v63 (idx_main_v73 (ix2 p q))) k = ix2 p k := fun q k =>
    funext fun a => by match a with | ⟨0, _⟩ => rfl | ⟨1, _⟩ => rfl
  have em' : ∀ q k : Fin 2048, idx_main_v62 (idx_main_v63 (idx_main_v66 (ix2 p q))) k = ix2 p k := fun q k =>
    funext fun a => by match a with | ⟨0, _⟩ => rfl | ⟨1, _⟩ => rfl
  have ev : ∀ k : Fin 2048, idx_main_v69 (idx_main_v70 (idx_main_v78 (ix2 p j))) k = ix2 p k := fun k =>
    funext fun a => by match a with | ⟨0, _⟩ => rfl | ⟨1, _⟩ => rfl
  have hrow : preRow x h w b u p = fun k => val_main_v15 (F := Ideal) x h w b u (ix2 p k) :=
    funext fun k => (pre_f x h w b u p k).symm
  rw [hrow]
  simp only [val_main_v91_apply, val_main_v90_apply, val_main_v89_apply, val_main_v88_apply, val_main_v87_apply, val_main_v86_apply,
    val_main_v85_apply, val_main_v84_apply, val_main_v83_apply, val_main_v82_apply, val_main_v81_apply, val_main_v80_apply,
    val_main_v79_apply, val_main_v78_apply, val_main_v77_apply, val_main_v76_apply, val_main_v75_apply, val_main_v74_apply,
    val_main_v73_apply, val_main_v72_apply, val_main_v71_apply, val_main_v70_apply, val_main_v69_apply, val_main_v68_apply,
    val_main_v67_apply, val_main_v66_apply, val_main_v65_apply, val_main_v64_apply, val_main_v63_apply, val_main_v62_apply,
    val_main_cst_6_apply, val_main_cst_7_apply, val_main_cst_8_apply, val_main_cst_9_apply, val_main_cst_10_apply, val_main_cst_11_apply,
    val_main_cst_12_apply]
  generalize val_main_v15 (F := Ideal) x h w b u = pre
  simp only [ev, em, em', eg, ec, Ideal.ofBits_def, Ideal.addf_def, Ideal.subf_def, Ideal.mulf_def, Ideal.hostDivf_def,
    Ideal.hostUnary_rsqrt_def, Ideal.hostUnary_exp_def, Ideal.hostNegf_def, Ideal.negf_def, ofBits_one_f32,
    Ideal.ofBits_zero_f32, zero_add]
  exact logistic_spelt (fun k => pre (ix2 p k)) (fun k => g (ix1 k)) (fun k => c (ix1 k)) j

/-- The c-gate at row `p`, unit `j`: LayerNorm of row `p` of the gate's pre-activation, then tanh.
    Every broadcast reads row `p` (or unit `j` of a gain or bias), and both sums run over the whole row. -/
theorem gate_c (x h : (⟨S4096x2048, .f32⟩ : BufTy).Contents (Elt Ideal)) (w : (⟨S2048x2048, .f32⟩ : BufTy).Contents (Elt Ideal)) (b : (⟨S2048, .f32⟩ : BufTy).Contents (Elt Ideal)) (u : (⟨S2048x2048, .f32⟩ : BufTy).Contents (Elt Ideal))
    (g c : (⟨S2048, .f32⟩ : BufTy).Contents (Elt Ideal)) (p : Fin 4096) (j : Fin 2048) :
    val_main_v116 (F := Ideal) x h w b u g c (ix2 p j)
      = lnAct Ideal.tanh (preRow x h w b u p) (fun k => g (ix1 k)) (fun k => c (ix1 k)) j := by
  have eg : idx_main_v110 (idx_main_v111 (ix2 p j)) = ix1 j := funext fun a => by match a with | ⟨0, _⟩ => rfl
  have ec : idx_main_v113 (idx_main_v114 (ix2 p j)) = ix1 j := funext fun a => by match a with | ⟨0, _⟩ => rfl
  have em : ∀ q k : Fin 2048, idx_main_v92 (idx_main_v93 (idx_main_v103 (ix2 p q))) k = ix2 p k := fun q k =>
    funext fun a => by match a with | ⟨0, _⟩ => rfl | ⟨1, _⟩ => rfl
  have em' : ∀ q k : Fin 2048, idx_main_v92 (idx_main_v93 (idx_main_v96 (ix2 p q))) k = ix2 p k := fun q k =>
    funext fun a => by match a with | ⟨0, _⟩ => rfl | ⟨1, _⟩ => rfl
  have ev : ∀ k : Fin 2048, idx_main_v99 (idx_main_v100 (idx_main_v108 (ix2 p j))) k = ix2 p k := fun k =>
    funext fun a => by match a with | ⟨0, _⟩ => rfl | ⟨1, _⟩ => rfl
  have hrow : preRow x h w b u p = fun k => val_main_v23 (F := Ideal) x h w b u (ix2 p k) :=
    funext fun k => (pre_c x h w b u p k).symm
  rw [hrow]
  simp only [val_main_v116_apply, val_main_v115_apply, val_main_v114_apply, val_main_v113_apply, val_main_v112_apply, val_main_v111_apply,
    val_main_v110_apply, val_main_v109_apply, val_main_v108_apply, val_main_v107_apply, val_main_v106_apply, val_main_v105_apply,
    val_main_v104_apply, val_main_v103_apply, val_main_v102_apply, val_main_v101_apply, val_main_v100_apply, val_main_v99_apply,
    val_main_v98_apply, val_main_v97_apply, val_main_v96_apply, val_main_v95_apply, val_main_v94_apply, val_main_v93_apply,
    val_main_v92_apply,
    val_main_cst_13_apply, val_main_cst_14_apply, val_main_cst_15_apply, val_main_cst_16_apply, val_main_cst_17_apply]
  generalize val_main_v23 (F := Ideal) x h w b u = pre
  simp only [ev, em, em', eg, ec, Ideal.ofBits_def, Ideal.addf_def, Ideal.subf_def, Ideal.mulf_def, Ideal.hostDivf_def,
    Ideal.hostUnary_rsqrt_def, Ideal.hostUnary_tanh_def,
    Ideal.ofBits_zero_f32, zero_add]
  exact tanh_spelt (fun k => pre (ix2 p k)) (fun k => g (ix1 k)) (fun k => c (ix1 k)) j

/-- The o-gate at row `p`, unit `j`: LayerNorm of row `p` of the gate's pre-activation, then the logistic spelt as `1 / (1 + exp (-x))`.
    Every broadcast reads row `p` (or unit `j` of a gain or bias), and both sums run over the whole row. -/
theorem gate_o (x h : (⟨S4096x2048, .f32⟩ : BufTy).Contents (Elt Ideal)) (w : (⟨S2048x2048, .f32⟩ : BufTy).Contents (Elt Ideal)) (b : (⟨S2048, .f32⟩ : BufTy).Contents (Elt Ideal)) (u : (⟨S2048x2048, .f32⟩ : BufTy).Contents (Elt Ideal))
    (g c : (⟨S2048, .f32⟩ : BufTy).Contents (Elt Ideal)) (p : Fin 4096) (j : Fin 2048) :
    val_main_v146 (F := Ideal) x h w b u g c (ix2 p j)
      = lnAct Ideal.logistic (preRow x h w b u p) (fun k => g (ix1 k)) (fun k => c (ix1 k)) j := by
  have eg : idx_main_v135 (idx_main_v136 (ix2 p j)) = ix1 j := funext fun a => by match a with | ⟨0, _⟩ => rfl
  have ec : idx_main_v138 (idx_main_v139 (ix2 p j)) = ix1 j := funext fun a => by match a with | ⟨0, _⟩ => rfl
  have em : ∀ q k : Fin 2048, idx_main_v117 (idx_main_v118 (idx_main_v128 (ix2 p q))) k = ix2 p k := fun q k =>
    funext fun a => by match a with | ⟨0, _⟩ => rfl | ⟨1, _⟩ => rfl
  have em' : ∀ q k : Fin 2048, idx_main_v117 (idx_main_v118 (idx_main_v121 (ix2 p q))) k = ix2 p k := fun q k =>
    funext fun a => by match a with | ⟨0, _⟩ => rfl | ⟨1, _⟩ => rfl
  have ev : ∀ k : Fin 2048, idx_main_v124 (idx_main_v125 (idx_main_v133 (ix2 p j))) k = ix2 p k := fun k =>
    funext fun a => by match a with | ⟨0, _⟩ => rfl | ⟨1, _⟩ => rfl
  have hrow : preRow x h w b u p = fun k => val_main_v31 (F := Ideal) x h w b u (ix2 p k) :=
    funext fun k => (pre_o x h w b u p k).symm
  rw [hrow]
  simp only [val_main_v146_apply, val_main_v145_apply, val_main_v144_apply, val_main_v143_apply, val_main_v142_apply, val_main_v141_apply,
    val_main_v140_apply, val_main_v139_apply, val_main_v138_apply, val_main_v137_apply, val_main_v136_apply, val_main_v135_apply,
    val_main_v134_apply, val_main_v133_apply, val_main_v132_apply, val_main_v131_apply, val_main_v130_apply, val_main_v129_apply,
    val_main_v128_apply, val_main_v127_apply, val_main_v126_apply, val_main_v125_apply, val_main_v124_apply, val_main_v123_apply,
    val_main_v122_apply, val_main_v121_apply, val_main_v120_apply, val_main_v119_apply, val_main_v118_apply, val_main_v117_apply,
    val_main_cst_18_apply, val_main_cst_19_apply, val_main_cst_20_apply, val_main_cst_21_apply, val_main_cst_22_apply, val_main_cst_23_apply,
    val_main_cst_24_apply]
  generalize val_main_v31 (F := Ideal) x h w b u = pre
  simp only [ev, em, em', eg, ec, Ideal.ofBits_def, Ideal.addf_def, Ideal.subf_def, Ideal.mulf_def, Ideal.hostDivf_def,
    Ideal.hostUnary_rsqrt_def, Ideal.hostUnary_exp_def, Ideal.hostNegf_def, Ideal.negf_def, ofBits_one_f32,
    Ideal.ofBits_zero_f32, zero_add]
  exact logistic_spelt (fun k => pre (ix2 p k)) (fun k => g (ix1 k)) (fun k => c (ix1 k)) j

end Cert.ReferenceIdeal.RefValue

end
-- ==== Proof.Math.RefValue.lean ====
/-
  The reference's two results, read at one entry and as whole arrays.

  The new cell state is the forget gate times the old cell state plus the input gate times the candidate; the new
  hidden state is the output gate times tanh of the new cell state.  With each gate read as the specification's
  `lnAct` of a row of its pre-activation, the two results at row `p`, unit `j` are the specification's `cNew` and
  `hNew` of the four pre-activation rows, row `p` of the old cell state, and the eight gain and bias vectors.

  The arguments, in the reference's order: the input `a0`, the hidden state `a1`, the cell state `a2`; then for each
  of the input, forget, candidate and output gates (at 3, 8, 13, 18) the input weight, the bias, the recurrent
  weight, and the LayerNorm gain and bias.
-/
import proofs.«160278_j67095979098853_2_alg».proof.Proof.Math.RefGate

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.Lstm

variable (a0 a1 a2 : (⟨S4096x2048, .f32⟩ : BufTy).Contents (Elt Ideal))
  (a3 : (⟨S2048x2048, .f32⟩ : BufTy).Contents (Elt Ideal)) (a4 : (⟨S2048, .f32⟩ : BufTy).Contents (Elt Ideal))
  (a5 : (⟨S2048x2048, .f32⟩ : BufTy).Contents (Elt Ideal)) (a6 a7 : (⟨S2048, .f32⟩ : BufTy).Contents (Elt Ideal))
  (a8 : (⟨S2048x2048, .f32⟩ : BufTy).Contents (Elt Ideal)) (a9 : (⟨S2048, .f32⟩ : BufTy).Contents (Elt Ideal))
  (a10 : (⟨S2048x2048, .f32⟩ : BufTy).Contents (Elt Ideal)) (a11 a12 : (⟨S2048, .f32⟩ : BufTy).Contents (Elt Ideal))
  (a13 : (⟨S2048x2048, .f32⟩ : BufTy).Contents (Elt Ideal)) (a14 : (⟨S2048, .f32⟩ : BufTy).Contents (Elt Ideal))
  (a15 : (⟨S2048x2048, .f32⟩ : BufTy).Contents (Elt Ideal)) (a16 a17 : (⟨S2048, .f32⟩ : BufTy).Contents (Elt Ideal))
  (a18 : (⟨S2048x2048, .f32⟩ : BufTy).Contents (Elt Ideal)) (a19 : (⟨S2048, .f32⟩ : BufTy).Contents (Elt Ideal))
  (a20 : (⟨S2048x2048, .f32⟩ : BufTy).Contents (Elt Ideal)) (a21 a22 : (⟨S2048, .f32⟩ : BufTy).Contents (Elt Ideal))

/-- The new cell state as one function of the reference's arguments. -/
def refC : FVec Ideal S4096x2048 .f32 :=
  fun i => cNew (preRow a0 a1 a3 a4 a5 (i 0)) (preRow a0 a1 a8 a9 a10 (i 0)) (preRow a0 a1 a13 a14 a15 (i 0))
      (fun k => a2 (ix2 (i 0) k)) (fun k => a6 (ix1 k)) (fun k => a7 (ix1 k)) (fun k => a11 (ix1 k)) (fun k => a12 (ix1 k))
      (fun k => a16 (ix1 k)) (fun k => a17 (ix1 k)) (i 1)

/-- The new hidden state as one function of the reference's arguments. -/
def refH : FVec Ideal S4096x2048 .f32 :=
  fun i => hNew (preRow a0 a1 a3 a4 a5 (i 0)) (preRow a0 a1 a8 a9 a10 (i 0)) (preRow a0 a1 a13 a14 a15 (i 0))
      (preRow a0 a1 a18 a19 a20 (i 0))
      (fun k => a2 (ix2 (i 0) k)) (fun k => a6 (ix1 k)) (fun k => a7 (ix1 k)) (fun k => a11 (ix1 k)) (fun k => a12 (ix1 k))
      (fun k => a16 (ix1 k)) (fun k => a17 (ix1 k))
      (fun k => a21 (ix1 k)) (fun k => a22 (ix1 k)) (i 1)

/-- `refC` at row `p`, unit `j`. -/
theorem refC_apply (p : Fin 4096) (j : Fin 2048) :
    refC a0 a1 a2 a3 a4 a5 a6 a7 a8 a9 a10 a11 a12 a13 a14 a15 a16 a17 (ix2 p j)
      = cNew (preRow a0 a1 a3 a4 a5 p) (preRow a0 a1 a8 a9 a10 p) (preRow a0 a1 a13 a14 a15 p)
          (fun k => a2 (ix2 p k)) (fun k => a6 (ix1 k)) (fun k => a7 (ix1 k)) (fun k => a11 (ix1 k)) (fun k => a12 (ix1 k))
          (fun k => a16 (ix1 k)) (fun k => a17 (ix1 k)) j := rfl

/-- `refH` at row `p`, unit `j`. -/
theorem refH_apply (p : Fin 4096) (j : Fin 2048) :
    refH a0 a1 a2 a3 a4 a5 a6 a7 a8 a9 a10 a11 a12 a13 a14 a15 a16 a17 a18 a19 a20 a21 a22 (ix2 p j)
      = hNew (preRow a0 a1 a3 a4 a5 p) (preRow a0 a1 a8 a9 a10 p) (preRow a0 a1 a13 a14 a15 p)
          (preRow a0 a1 a18 a19 a20 p)
          (fun k => a2 (ix2 p k)) (fun k => a6 (ix1 k)) (fun k => a7 (ix1 k)) (fun k => a11 (ix1 k)) (fun k => a12 (ix1 k))
          (fun k => a16 (ix1 k)) (fun k => a17 (ix1 k))
          (fun k => a21 (ix1 k)) (fun k => a22 (ix1 k)) j := rfl

/-- The reference's new cell state at row `p`, unit `j`. -/
theorem val_c_apply (p : Fin 4096) (j : Fin 2048) :
    val_main_v149 (F := Ideal) a0 a1 a2 a3 a4 a5 a6 a7 a8 a9 a10 a11 a12 a13 a14 a15 a16 a17 (ix2 p j)
      = cNew (preRow a0 a1 a3 a4 a5 p) (preRow a0 a1 a8 a9 a10 p) (preRow a0 a1 a13 a14 a15 p)
          (fun k => a2 (ix2 p k)) (fun k => a6 (ix1 k)) (fun k => a7 (ix1 k)) (fun k => a11 (ix1 k)) (fun k => a12 (ix1 k))
      (fun k => a16 (ix1 k)) (fun k => a17 (ix1 k)) j := by
  rw [val_main_v149_apply, val_main_v147_apply, val_main_v148_apply, gate_f, gate_i, gate_c]
  rfl

/-- The reference's new hidden state at row `p`, unit `j`. -/
theorem val_h_apply (p : Fin 4096) (j : Fin 2048) :
    val_main_v151 (F := Ideal) a0 a1 a2 a3 a4 a5 a6 a7 a8 a9 a10 a11 a12 a13 a14 a15 a16 a17 a18 a19 a20 a21 a22 (ix2 p j)
      = hNew (preRow a0 a1 a3 a4 a5 p) (preRow a0 a1 a8 a9 a10 p) (preRow a0 a1 a13 a14 a15 p)
          (preRow a0 a1 a18 a19 a20 p)
          (fun k => a2 (ix2 p k)) (fun k => a6 (ix1 k)) (fun k => a7 (ix1 k)) (fun k => a11 (ix1 k)) (fun k => a12 (ix1 k))
      (fun k => a16 (ix1 k)) (fun k => a17 (ix1 k))
          (fun k => a21 (ix1 k)) (fun k => a22 (ix1 k)) j := by
  rw [val_main_v151_apply, val_main_v150_apply, val_c_apply, gate_o]
  rfl

/-- The reference's new cell state as a whole array. -/
theorem val_c_eq :
    val_main_v149 (F := Ideal) a0 a1 a2 a3 a4 a5 a6 a7 a8 a9 a10 a11 a12 a13 a14 a15 a16 a17
      = refC a0 a1 a2 a3 a4 a5 a6 a7 a8 a9 a10 a11 a12 a13 a14 a15 a16 a17 := by
  funext i
  obtain ⟨p, j, rfl⟩ : ∃ (p : Fin 4096) (j : Fin 2048), i = ix2 p j := ⟨i 0, i 1, eq_ix2 i⟩
  exact val_c_apply a0 a1 a2 a3 a4 a5 a6 a7 a8 a9 a10 a11 a12 a13 a14 a15 a16 a17 p j

/-- The reference's new hidden state as a whole array. -/
theorem val_h_eq :
    val_main_v151 (F := Ideal) a0 a1 a2 a3 a4 a5 a6 a7 a8 a9 a10 a11 a12 a13 a14 a15 a16 a17 a18 a19 a20 a21 a22
      = refH a0 a1 a2 a3 a4 a5 a6 a7 a8 a9 a10 a11 a12 a13 a14 a15 a16 a17 a18 a19 a20 a21 a22 := by
  funext i
  obtain ⟨p, j, rfl⟩ : ∃ (p : Fin 4096) (j : Fin 2048), i = ix2 p j := ⟨i 0, i 1, eq_ix2 i⟩
  exact val_h_apply a0 a1 a2 a3 a4 a5 a6 a7 a8 a9 a10 a11 a12 a13 a14 a15 a16 a17 a18 a19 a20 a21 a22 p j

/-- The run's second result is `refC` of the arguments' launch contents. -/
theorem res_c_eq (m : (ℓ : Loc nD τ sig) → Buf (Elt Ideal) ℓ) (c : Dev nD) :
    Cert.ReferenceIdeal.Value.res_main_v149 (F := Ideal) m c
      = refC (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) :=
  (val_main_v149_eq (F := Ideal) m c).trans (val_c_eq ..)

/-- The run's first result is `refH` of the arguments' launch contents. -/
theorem res_h_eq (m : (ℓ : Loc nD τ sig) → Buf (Elt Ideal) ℓ) (c : Dev nD) :
    Cert.ReferenceIdeal.Value.res_main_v151 (F := Ideal) m c
      = refH (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20))
          (m ((c.tc : Thread nD τ).loc main_arg21)) (m ((c.tc : Thread nD τ).loc main_arg22)) :=
  (val_main_v151_eq (F := Ideal) m c).trans (val_h_eq ..)

end Cert.ReferenceIdeal.RefValue

end
-- ==== Proof.Ideal.KernelValue.lean ====
/-
  The kernel program's two results as the same functions of the arguments as the reference's.

  The first region leaves in its result array, at gate `g`, row `p`, unit `j`, the tiled pre-activation of the
  narrowed inputs against column `2048·g + j` of the stacked weights plus the stacked bias; read through what the
  host operations before it do, that is gate `g`'s pre-activation of the launch arguments, and tiling the
  contraction changes nothing.  The second region leaves the new hidden and cell states of the four gates' rows, the
  old cell state and the eight gain and bias rows; read through the reshapes before it, those are the launch
  arguments again.  So the two results are `refH` and `refC` of the launch arguments.
-/
import proofs.«160278_j67095979098853_2_alg».proof.Proof.Ideal.AsmDefs
import proofs.«160278_j67095979098853_2_alg».proof.Proof.Ideal.HostVals
import proofs.«160278_j67095979098853_2_alg».proof.Proof.Ideal.Stage1Value
import proofs.«160278_j67095979098853_2_alg».proof.Proof.Ideal.Stage2Value
import proofs.«160278_j67095979098853_2_alg».proof.Proof.Math.RefValue

noncomputable section

namespace Cert.KernelIdeal.KernelValue

open Cert.KernelIdeal Cert.KernelIdeal.Gen Cert.KernelIdeal.Asm Cert.KernelIdeal.HostVals
open Idealize.ShloMosaic Idealize.ShloMosaic.TcCoe Idealize.SL.Sem Idealize.ShloMosaic.StableHlo
open Idealize.ShloMosaic.ValueIdx Cert.Lstm
open Cert.ReferenceIdeal.RefValue (preRow refH refC refH_apply refC_apply)

/-- The new hidden state depends on its thirteen rows only through their values. -/
theorem hNew_congr {pi pf pc po cr gi bi gf bf gc bc go bo pi' pf' pc' po' cr' gi' bi' gf' bf' gc' bc' go' bo' : Fin 2048 → EReal} (j : Fin 2048)
    (h1 : pi = pi') (h2 : pf = pf') (h3 : pc = pc') (h4 : po = po') (h5 : cr = cr') (h6 : gi = gi') (h7 : bi = bi') (h8 : gf = gf') (h9 : bf = bf') (h10 : gc = gc') (h11 : bc = bc') (h12 : go = go') (h13 : bo = bo') :
    hNew pi pf pc po cr gi bi gf bf gc bc go bo j = hNew pi' pf' pc' po' cr' gi' bi' gf' bf' gc' bc' go' bo' j := by
  rw [h1, h2, h3, h4, h5, h6, h7, h8, h9, h10, h11, h12, h13]

/-- The new cell state depends on its ten rows only through their values. -/
theorem cNew_congr {pi pf pc cr gi bi gf bf gc bc pi' pf' pc' cr' gi' bi' gf' bf' gc' bc' : Fin 2048 → EReal} (j : Fin 2048)
    (h1 : pi = pi') (h2 : pf = pf') (h3 : pc = pc') (h4 : cr = cr') (h5 : gi = gi') (h6 : bi = bi') (h7 : gf = gf') (h8 : bf = bf') (h9 : gc = gc') (h10 : bc = bc') :
    cNew pi pf pc cr gi bi gf bf gc bc j = cNew pi' pf' pc' cr' gi' bi' gf' bf' gc' bc' j := by
  rw [h1, h2, h3, h4, h5, h6, h7, h8, h9, h10]

variable (m : (ℓ : Loc nD τ sig) → Buf (Elt Ideal) ℓ) (c : Dev nD)

/-- The second region reads the first region's result as the first region left it: the reshapes between them do
    not write it. -/
theorem v14_Vr3 : Vr3 m c main_v14 = X2 m c :=
  (StableHlo.after_of_writes_sub hostOps1 (W2 m c) hostOps1_writes (by decide)).trans
    (by unfold W2; rw [Function.update_self])

/-- The second region's entry contents are the generated ones at what the regions leave. -/
theorem Vr3_eq (r : Ref sig .tc) : Vr3 m c r = V3 m (outs m) c r := (congrFun (V3_eq m c) r).symm

/-- The first region's result at gate `g`, row `p`, unit `j`: the tiled pre-activation over the first region's
    entry contents. -/
theorem x2_apply (g : Fin 4) (p : Fin 4096) (j : Fin 2048) :
    (X2 m c : S4x4096x2048.Idx → EReal) (ix3 g p j)
      = preTiled (fun k => (Vr1 m c main_v12 : S4096x2048.Idx → EReal) (ix2 p k))
          (fun k => (Vr1 m c main_v13 : S4096x2048.Idx → EReal) (ix2 p k))
          (fun k => (Vr1 m c main_v2 : S2048x8192.Idx → EReal) (ix2 k (gcol g j)))
          (fun k => (Vr1 m c main_v5 : S2048x8192.Idx → EReal) (ix2 k (gcol g j)))
          ((Vr1 m c main_v11 : S4x1x2048.Idx → EReal) (ix3 g (0 : Fin 1) j)) := by
  unfold X2
  exact Stage1.arr5_final_apply (Vr1 m) c g p j

/-- Gate `g`'s row `p` of the first region's result is the reference's pre-activation row of the launch arguments. -/
theorem pre_row (g : Fin 4) (p : Fin 4096) :
    (fun k => (Vr3 m c main_v14 : S4x4096x2048.Idx → EReal) (ix3 g p k))
      = preRow (arg m c main_arg0) (arg m c main_arg1)
          (pick4 (arg m c main_arg3) (arg m c main_arg8) (arg m c main_arg13) (arg m c main_arg18) g)
          (pick4 (arg m c main_arg4) (arg m c main_arg9) (arg m c main_arg14) (arg m c main_arg19) g)
          (pick4 (arg m c main_arg5) (arg m c main_arg10) (arg m c main_arg15) (arg m c main_arg20) g) p := by
  funext k
  have hx : (fun k' => (Vr1 m c main_v12 : S4096x2048.Idx → EReal) (ix2 p k')) = fun k' => arg m c main_arg0 (ix2 p k') :=
    funext fun k' => v12_apply m c _
  have hh : (fun k' => (Vr1 m c main_v13 : S4096x2048.Idx → EReal) (ix2 p k')) = fun k' => arg m c main_arg1 (ix2 p k') :=
    funext fun k' => v13_apply m c _
  have hw : (fun k' => (Vr1 m c main_v2 : S2048x8192.Idx → EReal) (ix2 k' (gcol g k)))
      = fun k' => pick4 (arg m c main_arg3) (arg m c main_arg8) (arg m c main_arg13) (arg m c main_arg18) g (ix2 k k') :=
    funext fun k' => v2_apply m c g k k'
  have hu : (fun k' => (Vr1 m c main_v5 : S2048x8192.Idx → EReal) (ix2 k' (gcol g k)))
      = fun k' => pick4 (arg m c main_arg5) (arg m c main_arg10) (arg m c main_arg15) (arg m c main_arg20) g (ix2 k k') :=
    funext fun k' => v5_apply m c g k k'
  have hb : (Vr1 m c main_v11 : S4x1x2048.Idx → EReal) (ix3 g (0 : Fin 1) k)
      = pick4 (arg m c main_arg4) (arg m c main_arg9) (arg m c main_arg14) (arg m c main_arg19) g (ix1 k) :=
    v11_apply m c g k
  rw [v14_Vr3, x2_apply m c g p k, preTiled_eq_preRef, hx, hh, hw, hu, hb]
  rfl

/-- The old cell state's row `p` at the second region's entry. -/
theorem c_row (p : Fin 4096) :
    (fun k => (Vr3 m c main_arg2 : S4096x2048.Idx → EReal) (ix2 p k)) = fun k => (arg m c main_arg2) (ix2 p k) := by
  funext k
  rw [Vr3_eq, c_V3]

/-- The eight gain and bias rows at the second region's entry. -/
theorem g_rows :
    (fun k => (Vr3 m c main_v15 : S1x2048.Idx → EReal) (ix2 (0 : Fin 1) k)) = (fun k => (arg m c main_arg6) (ix1 k))
    ∧ (fun k => (Vr3 m c main_v16 : S1x2048.Idx → EReal) (ix2 (0 : Fin 1) k)) = (fun k => (arg m c main_arg7) (ix1 k))
    ∧ (fun k => (Vr3 m c main_v17 : S1x2048.Idx → EReal) (ix2 (0 : Fin 1) k)) = (fun k => (arg m c main_arg11) (ix1 k))
    ∧ (fun k => (Vr3 m c main_v18 : S1x2048.Idx → EReal) (ix2 (0 : Fin 1) k)) = (fun k => (arg m c main_arg12) (ix1 k))
    ∧ (fun k => (Vr3 m c main_v19 : S1x2048.Idx → EReal) (ix2 (0 : Fin 1) k)) = (fun k => (arg m c main_arg16) (ix1 k))
    ∧ (fun k => (Vr3 m c main_v20 : S1x2048.Idx → EReal) (ix2 (0 : Fin 1) k)) = (fun k => (arg m c main_arg17) (ix1 k))
    ∧ (fun k => (Vr3 m c main_v21 : S1x2048.Idx → EReal) (ix2 (0 : Fin 1) k)) = (fun k => (arg m c main_arg21) (ix1 k))
    ∧ (fun k => (Vr3 m c main_v22 : S1x2048.Idx → EReal) (ix2 (0 : Fin 1) k)) = (fun k => (arg m c main_arg22) (ix1 k)) := by
  refine ⟨funext fun k => ?_, funext fun k => ?_, funext fun k => ?_, funext fun k => ?_, funext fun k => ?_,
    funext fun k => ?_, funext fun k => ?_, funext fun k => ?_⟩ <;> rw [Vr3_eq]
  · exact (row_apply m (outs m) c k).1
  · exact (row_apply m (outs m) c k).2.1
  · exact (row_apply m (outs m) c k).2.2.1
  · exact (row_apply m (outs m) c k).2.2.2.1
  · exact (row_apply m (outs m) c k).2.2.2.2.1
  · exact (row_apply m (outs m) c k).2.2.2.2.2.1
  · exact (row_apply m (outs m) c k).2.2.2.2.2.2.1
  · exact (row_apply m (outs m) c k).2.2.2.2.2.2.2

/-- The four gates' rows `p` of the first region's result, as the second region reads them. -/
theorem pre_rows (p : Fin 4096) :
    (fun k => (Vr3 m c main_v14 : S4x4096x2048.Idx → EReal) (ix3 (0 : Fin 4) p k)) = preRow (arg m c main_arg0) (arg m c main_arg1) (arg m c main_arg3) (arg m c main_arg4) (arg m c main_arg5) p
    ∧ (fun k => (Vr3 m c main_v14 : S4x4096x2048.Idx → EReal) (ix3 (1 : Fin 4) p k)) = preRow (arg m c main_arg0) (arg m c main_arg1) (arg m c main_arg8) (arg m c main_arg9) (arg m c main_arg10) p
    ∧ (fun k => (Vr3 m c main_v14 : S4x4096x2048.Idx → EReal) (ix3 (2 : Fin 4) p k)) = preRow (arg m c main_arg0) (arg m c main_arg1) (arg m c main_arg13) (arg m c main_arg14) (arg m c main_arg15) p
    ∧ (fun k => (Vr3 m c main_v14 : S4x4096x2048.Idx → EReal) (ix3 (3 : Fin 4) p k)) = preRow (arg m c main_arg0) (arg m c main_arg1) (arg m c main_arg18) (arg m c main_arg19) (arg m c main_arg20) p :=
  ⟨pre_row m c 0 p, pre_row m c 1 p, pre_row m c 2 p, pre_row m c 3 p⟩

/-- The kernel program's new hidden state is the reference's function of the launch arguments. -/
theorem kernel_h :
    (W4 m c main_v23_0 : S4096x2048.Idx → EReal)
      = refH (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20))
          (m ((c.tc : Thread nD τ).loc main_arg21)) (m ((c.tc : Thread nD τ).loc main_arg22)) := by
  have e0 : W4 m c main_v23_0 = X40 m c := by
    unfold W4
    rw [Function.update_of_ne (StableHlo.devRef_ne_of_ne (by decide)), Function.update_self]
  rw [e0]
  funext i
  obtain ⟨p, j, rfl⟩ : ∃ (p : Fin 4096) (j : Fin 2048), i = ix2 p j := ⟨i 0, i 1, eq_ix2 i⟩
  obtain ⟨h15, h16, h17, h18, h19, h20, h21, h22⟩ := g_rows m c
  obtain ⟨r0, r1, r2, r3⟩ := pre_rows m c p
  rw [refH_apply]
  unfold X40
  exact (Stage2.arr13_at (Vr3 m) c p j).trans
    (hNew_congr j r0 r1 r2 r3 (c_row m c p) h15 h16 h17 h18 h19 h20 h21 h22)

/-- The kernel program's new cell state is the reference's function of the launch arguments. -/
theorem kernel_c :
    (W4 m c main_v23_1 : S4096x2048.Idx → EReal)
      = refC (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) := by
  have e0 : W4 m c main_v23_1 = X41 m c := by
    unfold W4
    rw [Function.update_self]
  rw [e0]
  funext i
  obtain ⟨p, j, rfl⟩ : ∃ (p : Fin 4096) (j : Fin 2048), i = ix2 p j := ⟨i 0, i 1, eq_ix2 i⟩
  obtain ⟨h15, h16, h17, h18, h19, h20, _, _⟩ := g_rows m c
  obtain ⟨r0, r1, r2, _⟩ := pre_rows m c p
  rw [refC_apply]
  unfold X41
  exact (Stage2.arr14_at (Vr3 m) c p j).trans
    (cNew_congr j r0 r1 r2 (c_row m c p) h15 h16 h17 h18 h19 h20)

end Cert.KernelIdeal.KernelValue

end
-- ==== Proof.lean ====
/-
  A LayerNorm-LSTM cell computed by two kernels against its plain reference.

  The kernel program stacks the four gates' weights, runs a first kernel that accumulates, tile by tile over the
  contraction, x·Wᵀ + h·Uᵀ for every gate into a scratch accumulator and adds the bias at the last tile, and a second
  kernel that applies LayerNorm and the activation to each gate's row and combines them into the new cell and hidden
  states.  The reference computes each gate's pre-activation with two whole matrix products, then the same LayerNorm,
  activations and combination.

  * The three frames: both kernel programs run through the library's launch theorem for a program of several kernel regions, each region a
    segment built from its own body runs and proof data; the reference's frame is its run with the results dropped.
  * The idealization rewrote nothing, so the idealized kernel is the kernel's own text read at the exact reading.
  * At the exact reading the two programs agree entry by entry: a change of float format is the identity; a tiled,
    accumulated contraction with the bias added last is the whole contraction with the bias added in between, since
    addition of extended reals is commutative and associative; the rest is the same expression on both sides.
-/
import proofs.«160278_j67095979098853_2_alg».proof.Defs
import proofs.«160278_j67095979098853_2_alg».proof.Proof.Gen.Kernel
import proofs.«160278_j67095979098853_2_alg».proof.Proof.Gen.KernelIdeal
import proofs.«160278_j67095979098853_2_alg».proof.Proof.Gen.ReferenceIdeal
import proofs.«160278_j67095979098853_2_alg».proof.Proof.Gen.Pre_finite_inputs
import proofs.«160278_j67095979098853_2_alg».proof.Proof.Gen.ReferenceIdeal.Run
import proofs.«160278_j67095979098853_2_alg».proof.Proof.Gen.ReferenceIdeal.Read
import proofs.«160278_j67095979098853_2_alg».proof.Proof.Bits.Asm
import proofs.«160278_j67095979098853_2_alg».proof.Proof.Ideal.Asm
import proofs.«160278_j67095979098853_2_alg».proof.Proof.Ideal.KernelValue
import proofs.«160278_j67095979098853_2_alg».proof.Proof.Math.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Asm.frame m ρ

theorem frame_ki : Cert.frame_KernelIdeal := fun m ρ _ => Cert.KernelIdeal.Asm.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the reference's cell: the kernel's two regions compose to it entry by entry, and
    the reference's run is it read off the generated operations. -/
theorem algebraic : Cert.algebraic_KernelIdeal_ReferenceIdeal := by
  intro m ρ m' ρ' _ hagree
  refine ⟨fun c => Cert.KernelIdeal.Asm.W4 m c Cert.KernelIdeal.main_v23_0, fun c => Cert.KernelIdeal.Asm.W4 m c Cert.KernelIdeal.main_v23_1,
    Cert.KernelIdeal.Asm.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefValue.res_h_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2]
    exact (Cert.KernelIdeal.KernelValue.kernel_h m c).symm
  · rw [Cert.ReferenceIdeal.RefValue.res_c_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1]
    exact (Cert.KernelIdeal.KernelValue.kernel_c m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
